-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S128x1024 : Shape := ⟨2, ![128, 1024]⟩
abbrev S128 : Shape := ⟨1, ![128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x1024 .f32) (main_arg6 : FVec F S128 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1024 .f32 := Host.absf main_arg5
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x2048x1024 .f32) (main_arg1 : FVec F S128x1024 .f32) (main_arg2 : FVec F S128 .f32) (main_arg3 : FVec F S128x1024 .f32) (main_arg4 : FVec F S128 .f32) (main_arg5 : FVec F S128x1024 .f32) (main_arg6 : FVec F S128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_v13 main_v16
-- ==== Kernel.lean ====
abbrev S8x2048x1024 : Shape := ⟨3, ![8, 2048, 1024]⟩
abbrev S128x1024 : Shape := ⟨2, ![128, 1024]⟩
abbrev S128 : Shape := ⟨1, ![128]⟩
abbrev S1024x128 : Shape := ⟨2, ![1024, 128]⟩
abbrev S1x128 : Shape := ⟨2, ![1, 128]⟩
abbrev S8x2048x128 : Shape := ⟨3, ![8, 2048, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 20
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S1024x128, .f32⟩
  | .hbm, ⟨8, _⟩ => ⟨S1024x128, .bf16⟩
  | .hbm, ⟨9, _⟩ => ⟨S1024x128, .f32⟩
  | .hbm, ⟨10, _⟩ => ⟨S1024x128, .bf16⟩
  | .hbm, ⟨11, _⟩ => ⟨S1024x128, .f32⟩
  | .hbm, ⟨12, _⟩ => ⟨S1024x128, .bf16⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S8x2048x128, .bf16⟩
  | .hbm, ⟨17, _⟩ => ⟨S8x2048x128, .bf16⟩
  | .hbm, ⟨18, _⟩ => ⟨S8x2048x128, .bf16⟩
  | .hbm, ⟨19, _⟩ => ⟨S8x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .bf16⟩
  | .local _ .vmem, ⟨3, _⟩ => ⟨S1x128, .f32⟩
  | .local _ .vmem, ⟨4, _⟩ => ⟨S1024x128, .bf16⟩
  | .local _ .vmem, ⟨5, _⟩ => ⟨S1x128, .f32⟩
  | .local _ .vmem, ⟨6, _⟩ => ⟨S1024x128, .bf16⟩
  | .local _ .vmem, ⟨7, _⟩ => ⟨S1x128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x1024x128, .f32⟩
  | .local _ .vmem, ⟨21, _⟩ => ⟨S1x1024x128, .f32⟩
  | .local _ .vmem, ⟨22, _⟩ => ⟨S1024x1, .f32⟩
  | .local _ .vmem, ⟨23, _⟩ => ⟨S1024x1, .f32⟩
  | .local _ .vmem, ⟨24, _⟩ => ⟨S1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![8, 2, 2], ![false, false, false]⟩

def k1_cond2 (i : grid1.Coords) : BitVec 1 :=
  let arg2 : BitVec 32 := BitVec.ofNat 32 (i 2).val
  let c1_i32 : BitVec 32 := 1#32
  let v40 : BitVec 1 := Scalar.cmpi .eq arg2 c1_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S128x1024_S1024x128_1_0 : S128x1024.Transposes [1, 0] S1024x128
  bitsLt_bf16_f32 : FTy.bits .bf16 < FTy.bits .f32
  shapeCasts_S128_S1x128 : S128.ShapeCasts S1x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  dot_S1024x1024_S1024x128_S1024x128_1_0_0_1_n_n_wf : DotDims.WF S1024x1024 S1024x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x128.size a ≤ S8x2048x128.size a
  hwx0_7 : ∀ i : grid0.Coords, EltTy.bits .bf16 = 32 ∨ (Rect.block (s := S8x2048x128) S1x1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x128.size a ≤ S8x2048x128.size a
  hwx0_8 : ∀ i : grid0.Coords, EltTy.bits .bf16 = 32 ∨ (Rect.block (s := S8x2048x128) S1x1024x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x128.size a ≤ S8x2048x128.size a
  hwx0_9 : ∀ i : grid0.Coords, EltTy.bits .bf16 = 32 ∨ (Rect.block (s := S8x2048x128) S1x1024x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x2048x128.size a
  hwx1_0 : ∀ i : grid1.Coords, EltTy.bits .bf16 = 32 ∨ (Rect.block (s := S8x2048x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x2048x128.size a
  hwx1_1 : ∀ i : grid1.Coords, EltTy.bits .bf16 = 32 ∨ (Rect.block (s := S8x2048x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x2048x128.size a
  hwx1_2 : ∀ i : grid1.Coords, EltTy.bits .bf16 = 32 ∨ (Rect.block (s := S8x2048x128) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x2048x128.size a
  hwx1_3 : ∀ i : grid1.Coords, EltTy.bits .f32 = 32 ∨ (Rect.block (s := S8x2048x128) S1x1024x128.size (cc1_transform_3 i) (hinb1_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S1x1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v9_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S128x1024 : Shape := ⟨2, ![128, 1024]⟩
abbrev S128 : Shape := ⟨1, ![128]⟩
abbrev S8x2048x128 : Shape := ⟨3, ![8, 2048, 128]⟩
abbrev S1x1x128 : Shape := ⟨3, ![1, 1, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S8x2048x128, .f32⟩
  | .hbm, ⟨8, _⟩ => ⟨S1x1x128, .f32⟩
  | .hbm, ⟨9, _⟩ => ⟨S8x2048x128, .f32⟩
  | .hbm, ⟨10, _⟩ => ⟨S8x2048x128, .f32⟩
  | .hbm, ⟨11, _⟩ => ⟨S8x2048x128, .f32⟩
  | .hbm, ⟨12, _⟩ => ⟨S1x1x128, .f32⟩
  | .hbm, ⟨13, _⟩ => ⟨S8x2048x128, .f32⟩
  | .hbm, ⟨14, _⟩ => ⟨S8x2048x128, .f32⟩
  | .hbm, ⟨15, _⟩ => ⟨S8x2048x128, .f32⟩
  | .hbm, ⟨16, _⟩ => ⟨S1x1x128, .f32⟩
  | .hbm, ⟨17, _⟩ => ⟨S8x2048x128, .f32⟩
  | .hbm, ⟨18, _⟩ => ⟨S8x2048x128, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S128x1024_S8x2048x128_2_1_01_0_n_n_wf : DotDims.WF S8x2048x1024 S128x1024 S8x2048x128 [2] [1] [0, 1] [0] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S128x1024_S8x2048x128_2_1_01_0_n_n : DotDims S8x2048x1024 S128x1024 S8x2048x128 where
  lhsContracting := [2]
  rhsContracting := [1]
  lhsNonContracting := [0, 1]
  rhsNonContracting := [0]
  lhsBatch := []
  rhsBatch := []
  wf := dot_S8x2048x1024_S128x1024_S8x2048x128_2_1_01_0_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.QkvBodyK.lean ====
/- The per-point half of the first pallas region (the three linear layers q, k, v), at a parameter `V` — the
   TensorCore's buffer contents when the region is entered: each window's block at a point, what the body leaves
   in each output window's staging buffer (one whole-block store each, as `View.canon` of that store over the
   skeleton's payloads), the body's triple, the pipeline's proof data and the body obligation. Generic in the
   float interpretation `F`. -/
import proofs.«134215_j31799937859875_2_alg».proof.Proof.Gen.Kernel.Launch
import proofs.«134215_j31799937859875_2_alg».proof.Proof.Gen.Kernel.Skeleton
import proofs.«134215_j31799937859875_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes is decided by a recursion that takes one step per coordinate of an axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1024x1024 := Rect.unit (s := S1x1024x1024) ![0, 0, 0] S1x1024x1024.size inb_S1x1024x1024_S1x1024x1024_0_0_0
abbrev r0_1 : Rect S1024x128 := Rect.unit (s := S1024x128) ![0, 0] S1024x128.size inb_S1024x128_S1024x128_0_0
abbrev r0_2 : Rect S1x128 := Rect.unit (s := S1x128) ![0, 0] S1x128.size inb_S1x128_S1x128_0_0
abbrev r0_3 : Rect S1x1024x128 := Rect.unit (s := S1x1024x128) ![0, 0, 0] S1x1024x128.size inb_S1x1024x128_S1x1024x128_0_0_0

/-! ## What the body leaves in each output window's buffer -/

/-- Window 7's staging buffer after the body, from the input windows' blocks: its one whole-block store as a
    piece (the payload is the skeleton's). -/
def out0_7 (x0 : Vec F S1x1024x1024 .f32) (x1 : Vec F S1024x128 .bf16) (x2 : Vec F S1x128 .f32) (x3 : Vec F S1024x128 .bf16) (x4 : Vec F S1x128 .f32) (x5 : Vec F S1024x128 .bf16) (x6 : Vec F S1x128 .f32) : Vec F S1x1024x128 .bf16 :=
  View.canon [⟨r0_3, k0_pay3 (View.ld x0 r0_0) (View.ld x1 r0_1) (View.ld x2 r0_2)⟩]

/-- Its store tiles the buffer (checked by evaluation), so it covers it. -/
theorem cover0_7 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-- Window 8's staging buffer after the body, from the input windows' blocks: its one whole-block store as a
    piece (the payload is the skeleton's). -/
def out0_8 (x0 : Vec F S1x1024x1024 .f32) (x1 : Vec F S1024x128 .bf16) (x2 : Vec F S1x128 .f32) (x3 : Vec F S1024x128 .bf16) (x4 : Vec F S1x128 .f32) (x5 : Vec F S1024x128 .bf16) (x6 : Vec F S1x128 .f32) : Vec F S1x1024x128 .bf16 :=
  View.canon [⟨r0_3, k0_pay4 (View.ld x0 r0_0) (View.ld x3 r0_1) (View.ld x4 r0_2)⟩]

/-- Its store tiles the buffer (checked by evaluation), so it covers it. -/
theorem cover0_8 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-- Window 9's staging buffer after the body, from the input windows' blocks: its one whole-block store as a
    piece (the payload is the skeleton's). -/
def out0_9 (x0 : Vec F S1x1024x1024 .f32) (x1 : Vec F S1024x128 .bf16) (x2 : Vec F S1x128 .f32) (x3 : Vec F S1024x128 .bf16) (x4 : Vec F S1x128 .f32) (x5 : Vec F S1024x128 .bf16) (x6 : Vec F S1x128 .f32) : Vec F S1x1024x128 .bf16 :=
  View.canon [⟨r0_3, k0_pay1 (k0_pay5 (View.ld x0 r0_0) (View.ld x5 r0_1) (View.ld x6 r0_2))⟩]

/-- Its store tiles the buffer (checked by evaluation), so it covers it. -/
theorem cover0_9 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-! ## The body's triple -/

set_option maxHeartbeats 4000000 in
/-- The kernel body on whole staging memrefs, the inputs' at read contents `xW` and the outputs' at anything, runs to
    the continuation holding the inputs' as they were and each output's at `out0_W` of the inputs': the printed
    functions are their skeletons, run operation by operation through the part call. Each output buffer is loaded
    once before it is stored; the loaded value is not used. -/
theorem sound_kernel0 (c : Dev nD) (E : Set ℕ) (i : grid0.Coords) (arg2 : Memref sig .tc .vmem S1x1024x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S1x1024x128 .bf16) (harg10 : arg10.IsWhole) (arg11 : Memref sig .tc .vmem S1x1024x128 .bf16) (harg11 : arg11.IsWhole)
    (x0 : Vec F S1x1024x1024 .f32) (x1 : Vec F S1024x128 .bf16) (x2 : Vec F S1x128 .f32) (x3 : Vec F S1024x128 .bf16) (x4 : Vec F S1x128 .f32) (x5 : Vec F S1024x128 .bf16) (x6 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of this pipeline on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.AttnRunsK.lean ====
/-
  The attention kernel (the second pallas_call) at a grid point: what the proof of its frame shares between the two
  control cases. The grid is (batch, query tile, key tile) = (8, 2, 2), walked with the key tile fastest, so a point
  with an even position is the FIRST key tile of its query tile (the running maximum, running sum and accumulator are
  reset there) and a point with an odd position is the LAST one (the accumulator is divided by the running sum and
  stored to the output block there). The three scratch buffers are carried from an even point to the odd point after it.
-/
import proofs.«134215_j31799937859875_2_alg».proof.Proof.Gen.Kernel.Launch
import proofs.«134215_j31799937859875_2_alg».proof.Proof.Gen.Kernel.Skeleton
import proofs.«134215_j31799937859875_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point: it is fetched at the first key tile and
    its block index does not move at the second. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds the key block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds the value block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first key tile": the condition under which the body resets the three scratch buffers. -/
abbrev cond1_0 (i : grid1.Coords) : Prop := (Scalar.cmpi .ne (Scalar.extui (Scalar.cmpi .eq (BitVec.ofNat 32 (i 2).val) 0#32)) 0#32) = 1#1
/-- It holds exactly at the even positions of the walk. -/
theorem hcond1_0 : ∀ t : Fin cfg1.N, cond1_0 (grid1.coords t) ↔ t.val % 2 = 0 :=
  (by decide +kernel : ∀ t : Fin grid1.N, cond1_0 (grid1.coords t) ↔ t.val % 2 = 0)
/-- "This is the last key tile": the condition under which the body normalizes and stores the output block. -/
abbrev cond1_1 (i : grid1.Coords) : Prop := k1_cond2 i = 1#1
/-- It holds exactly at the odd positions of the walk. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first key tile nothing is stored into the output block, -/
theorem idleAt1_3_A : ∀ t : Fin cfg1.N, cond1_0 (grid1.coords t) → ¬cond1_1 (grid1.coords t) → cfg1.idle 3 (grid1.coords t) = true := by decide +kernel
/-- and the block is not written back there. -/
theorem noFlush1_3_A : ∀ t : Fin cfg1.N, cond1_0 (grid1.coords t) → ¬cond1_1 (grid1.coords t) → (cfg1.win 3).flush t = false := by decide +kernel
/-- At a last key tile the output block is stored. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S1x1024x128 .f32 := (Memref.whole cc1_stg3_0 : Memref sig .tc .vmem S1x1024x128 .f32).view
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The running maximum, the running sum and the accumulator: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## The scoped buffers the kernel does not touch -/

/-- The first pallas_call's staging buffers, each whole at some contents: they ride along untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class invariant (every scoped buffer that is no staging buffer of this call at some contents, and the generator
    register at some state) gives the three scratch buffers apart from the rest, -/
theorem PhiA1_split (c : Dev nD) :
    (Pipeline.ΦA spec1 c : sProp 𝕄)
      ⊢ iprop(((∃ d, owns (c : Thread nD τ) scM1_0 fullShare d) ∗ (∃ d, owns (c : Thread nD τ) scM1_1 fullShare d) ∗ (∃ d, owns (c : Thread nD τ) scM1_2 fullShare d))
          ∗ (others (F := F) c ∗ ∃ r, prngReg c r)) := by
  unfold Pipeline.ΦA others; rw [scopedRest1_eq]; simp only [scM1_0, scM1_1, scM1_2, owns_whole]
  iintro ⟨⟨A0, A1, A2, A3, A4, A5, A6, A7, A8, A9, A10, A11, A12, A13, HS0, HS1, HS2⟩, Hg⟩
  isplitl [HS0 HS1 HS2]
  · isplitl [HS0]; · iexact HS0
    isplitl [HS1]; · iexact HS1
    iexact HS2
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  iexact Hg

/-- and takes them back. -/
theorem PhiA1_join (c : Dev nD) :
    iprop(((∃ d, owns (c : Thread nD τ) scM1_0 fullShare d) ∗ (∃ d, owns (c : Thread nD τ) scM1_1 fullShare d) ∗ (∃ d, owns (c : Thread nD τ) scM1_2 fullShare d))
          ∗ (others (F := F) c ∗ ∃ r, prngReg c r))
      ⊢ (Pipeline.ΦA spec1 c : sProp 𝕄) := by
  unfold Pipeline.ΦA others; rw [scopedRest1_eq]; simp only [scM1_0, scM1_1, scM1_2, owns_whole]
  iintro ⟨⟨HS0, HS1, HS2⟩, ⟨A0, A1, A2, A3, A4, A5, A6, A7, A8, A9, A10, A11, A12, A13⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS0]; · iexact HS0
    isplitl [HS1]; · iexact HS1
    iexact HS2
  iexact Hg

end Cert.Kernel.Hand

end
-- ==== Proof.AttnRunAK.lean ====
/-
  The attention kernel's body at a FIRST key tile (an even position of the walk): the three scratch buffers are
  reset (running maximum to the least element, running sum and accumulator to zero), then updated from the query,
  key and value blocks; nothing is stored into the output block.
-/
import proofs.«134215_j31799937859875_2_alg».proof.Proof.Gen.Kernel.Launch
import proofs.«134215_j31799937859875_2_alg».proof.Proof.Gen.Kernel.Skeleton
import proofs.«134215_j31799937859875_2_alg».proof.Proof.Gen.Kernel.Points
import proofs.«134215_j31799937859875_2_alg».proof.Proof.AttnRunsK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch buffer, as pieces (last first), at a first key tile, WITH the proof
    that on whole memrefs — the three inputs' at their blocks, the output's at contents handed back untouched, the
    scratch buffers' at anything — the body runs to the continuation holding the inputs' and the output's as they were
    and each scratch buffer with its pieces written. The pieces are found by the run itself. -/
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 x2 : Vec F S1x1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.AttnRunBK.lean ====
/-
  The attention kernel's body at a LAST key tile (an odd position of the walk): the three scratch buffers hold what
  the first key tile left; they are updated from the query, key and value blocks, and the accumulator divided by the
  running sum is stored into the output block.
-/
import proofs.«134215_j31799937859875_2_alg».proof.Proof.Gen.Kernel.Launch
import proofs.«134215_j31799937859875_2_alg».proof.Proof.Gen.Kernel.Skeleton
import proofs.«134215_j31799937859875_2_alg».proof.Proof.Gen.Kernel.Points
import proofs.«134215_j31799937859875_2_alg».proof.Proof.AttnRunsK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in each scratch buffer, as pieces (last first), at a last key
    tile, WITH the proof that on whole memrefs — the three inputs' at their blocks, the output's at anything, the scratch
    buffers' at the contents the point before left — the body runs to the continuation holding the inputs' as they were
    and the output's and each scratch buffer with its pieces written. The pieces are found by the run itself. -/
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 x2 : Vec F S1x1024x128 .bf16) (xs0 xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.AttnBodyK.lean ====
/-
  The attention kernel (the second pallas_call), point by point: what the three scratch buffers (running maximum,
  running sum, accumulator) and the output block hold after each point of the walk, the invariant that carries the
  scratch contents from a first key tile to the last key tile after it, the proof data of the pipeline and the body
  obligation at every point.
-/
import proofs.«134215_j31799937859875_2_alg».proof.Proof.Gen.Kernel.Launch
import proofs.«134215_j31799937859875_2_alg».proof.Proof.Gen.Kernel.Skeleton
import proofs.«134215_j31799937859875_2_alg».proof.Proof.Gen.Kernel.Points
import proofs.«134215_j31799937859875_2_alg».proof.Proof.AttnRunAK
import proofs.«134215_j31799937859875_2_alg».proof.Proof.AttnRunBK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At a first key tile nothing is stored into the output block: a placeholder nothing consults (the block is neither
    written back there nor read at the next point). -/
def out1_idle : Vec F S1x1024x128 .f32 :=
  VO1_3.read (Elt F) (VO1_3.writes (Elt F) VO1_3.junk [])

/-- A first key tile's stores into scratch 0 cover it. -/
theorem scover1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) (y : S1024x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S1024x1.size (by sl_kernel_rfl) y
/-- What a first key tile leaves in scratch 0. -/
def sout1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)
/-- A last key tile's stores into scratch 0 cover it. -/
theorem scover1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
/-- What a last key tile leaves in scratch 0. -/
def sout1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- A first key tile's stores into scratch 1 cover it. -/
theorem scover1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
/-- What a first key tile leaves in scratch 1. -/
def sout1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)
/-- A last key tile's stores into scratch 1 cover it. -/
theorem scover1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
/-- What a last key tile leaves in scratch 1. -/
def sout1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- A first key tile's stores into scratch 2 cover it. -/
theorem scover1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) (y : S1024x128.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x128.size (by sl_kernel_rfl) y
/-- What a first key tile leaves in scratch 2. -/
def sout1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) : Vec F S1024x128 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)
/-- A last key tile's stores into scratch 2 cover it. -/
theorem scover1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) (y : S1024x128.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x128.size (by sl_kernel_rfl) y
/-- What a last key tile leaves in scratch 2. -/
def sout1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) : Vec F S1024x128 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- A last key tile's store into the output block covers it. -/
theorem cover1_B_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) (y : S1x1024x128.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x128.size (by sl_kernel_rfl) y
/-- What a last key tile leaves in the output block. -/
def out1_B_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) : Vec F S1x1024x128 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-! ## What the buffers hold after each point -/

/-- The contents of a first key tile at point `t`: the output placeholder, then the three scratch buffers. -/
def caseA (c : Dev nD) (t : Fin cfg1.N) (h0 : t.val % 2 = 0) :
    Vec F S1x1024x128 .f32 × Vec F S1024x1 .f32 × Vec F S1024x1 .f32 × Vec F S1024x128 .f32 :=
  have hc0 : cond1_0 (grid1.coords t) := (hcond1_0 t).mpr h0
  have hc1 : ¬cond1_1 (grid1.coords t) := fun h => by have := (hcond1_1 t).mp h; omega
  (out1_idle,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t))

/-- The contents of a last key tile at point `t`, over what the point before left in the scratch buffers. -/
def caseB (c : Dev nD) (t : Fin cfg1.N) (h0 : ¬t.val % 2 = 0)
    (xs : Vec F S1024x1 .f32 × Vec F S1024x1 .f32 × Vec F S1024x128 .f32) :
    Vec F S1x1024x128 .f32 × Vec F S1024x1 .f32 × Vec F S1024x1 .f32 × Vec F S1024x128 .f32 :=
  have hc0 : ¬cond1_0 (grid1.coords t) := fun h => h0 ((hcond1_0 t).mp h)
  have hc1 : cond1_1 (grid1.coords t) := (hcond1_1 t).mpr (by omega)
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) xs.1 xs.2.1 xs.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) xs.1 xs.2.1 xs.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) xs.1 xs.2.1 xs.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) xs.1 xs.2.1 xs.2.2)

/-- What the output block's staging buffer and the three scratch buffers hold after the body at position `n`: a first
    key tile starts afresh, a last key tile continues from what the point before left. -/
def outsAt1 (c : Dev nD) : (n : ℕ) → n < cfg1.N → Vec F S1x1024x128 .f32 × Vec F S1024x1 .f32 × Vec F S1024x1 .f32 × Vec F S1024x128 .f32
  | 0, hn => caseA V c ⟨0, hn⟩ (Nat.zero_mod _)
  | n + 1, hn =>
    if h0 : (n + 1) % 2 = 0 then caseA V c ⟨n + 1, hn⟩ h0
    else caseB V c ⟨n + 1, hn⟩ h0 (outsAt1 c n (Nat.lt_of_succ_lt hn)).2

theorem outsAt1_A (c : Dev nD) (t : Fin cfg1.N) (h0 : t.val % 2 = 0) :
    outsAt1 V c t.val t.isLt = caseA V c t h0 := by
  obtain ⟨n, hn⟩ := t
  cases n with
  | zero => rfl
  | succ n => exact (dif_pos h0).trans rfl

theorem outsAt1_B (c : Dev nD) (t : Fin cfg1.N) (h0 : ¬t.val % 2 = 0) :
    outsAt1 V c t.val t.isLt = caseB V c t h0 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

/-! ## The invariant -/

/-- Before the first point: every scoped buffer of the kernel's at anything. Afterwards: the three scratch buffers at
    what the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2)
      ∗ (others (F := F) c ∗ ∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2)
      ∗ (others (F := F) c ∗ ∃ r, prngReg c r)) := rfl
theorem PhiS1_pos (c : Dev nD) (n : ℕ) (h : n ≤ cfg1.N) (hz : n ≠ 0) :
    PhiS1 V c n h = iprop((owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2)
      ∗ (others (F := F) c ∗ ∃ r, prngReg c r)) := by
  cases n with
  | zero => exact absurd rfl hz
  | succ n => rfl

/-! ## The pipeline's proof data -/

/-- The arrays as the region finds them; after the body each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the parity of the position says which case the point
    is in; the invariant hands the body the scratch buffers at what the point before left (at anything before the first
    point, and at a first key tile their contents are not read before being reset) and takes them back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_A t hc0 hc1) (noFlush1_3_A t hc0 hc1)]
    rw [outsAt1_A V c t h0]
    unfold caseA sout1_A_0 sout1_A_1 sout1_A_2; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := PhiA1_split c $$ HΦ
      icases HΦ' with ⟨⟨HS0, HS1, HS2⟩, Hrest⟩
      iapply ((kernelRun1_A c (grid1.coords t) _ _ _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · isplitl [HS0 HS1 HS2]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HS1, HS2⟩, Hrest⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest]
      · isplitl [HS0 HS1 HS2]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hc1 : cond1_1 (grid1.coords t) := (hcond1_1 t).mpr (by omega)
    rw [show (dat1 V c).leavesExact 3 t = owns (c : Thread nD τ) (ms1_3 t) fullShare ((dat1 V c).after 3 t) from by
      unfold Dat.leavesExact; rw [liveAt1_3_B t hc0 hc1], after1_3]
    rw [outsAt1_B V c t h0]
    unfold caseB out1_B_3 sout1_B_0 sout1_B_1 sout1_B_2; (try dsimp only)
    have hz : t.val ≠ 0 := by omega
    rw [PhiS1_castSucc V c t, PhiS1_pos V c _ _ hz]
    iintro ⟨⟨⟨HS0, HS1, HS2⟩, Hrest⟩, Ho, ⟨%d0, H0⟩, ⟨%d1, H1⟩, ⟨%d2, H2⟩, ⟨%d3, H3⟩⟩
    iapply ((kernelRun1_B c (grid1.coords t) _ _ _ _ _ _ _ _ _ _ _ _ _ _ hc0 hc1 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hrest]
    · isplitl [HS0 HS1 HS2]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_first (c : Dev nD) : (dat1 V c).Φ 0 = Pipeline.ΦA spec1 c := rfl

/-- After the last point the invariant gives the class's back: the scratch buffers' named contents are forgotten. -/
theorem Phi1_out (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  refine .trans ?_ (PhiA1_join c)
  iintro ⟨⟨HS0, HS1, HS2⟩, Hrest⟩
  isplitl [HS0 HS1 HS2]
  · isplitl [HS0]; · iexists _; iexact HS0
    isplitl [HS1]; · iexists _; iexact HS1
    iexists _; iexact HS2
  iexact Hrest

end Cert.Kernel.Hand

end
-- ==== Proof.FramesK.lean ====
/-
  The run of the whole program: a stretch of host operations (three transposes with a change of float format, three
  reshapes of the biases), the projection call, the attention call. The buffer contents at each boundary are a fold
  from the launch memory: after the host stretch; after the projection call (its three output arrays at what its
  write-backs leave, everything else as entered); after the attention call (its output array at what its write-backs
  leave). Every weakly fair execution terminates with every unscoped buffer at the last boundary's contents; the
  arguments are read back through the fold to their launch contents.
-/
import proofs.«134215_j31799937859875_2_alg».proof.Proof.Gen.Kernel.Launch
import proofs.«134215_j31799937859875_2_alg».proof.Proof.Gen.Kernel.Skeleton
import proofs.«134215_j31799937859875_2_alg».proof.Proof.Gen.Kernel.Points
import proofs.«134215_j31799937859875_2_alg».proof.Proof.Gen.Kernel.Regions
import proofs.«134215_j31799937859875_2_alg».proof.Proof.QkvBodyK
import proofs.«134215_j31799937859875_2_alg».proof.Proof.AttnBodyK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the host stretch (the projection call's entry). -/
abbrev B1 : Dev nD → Valuation τ sig (Elt F) := fun c => Gen.V1 m c
/-- The same read at the TensorCore's references. -/
abbrev E1 : (c : Dev nD) → (b : Ref sig .tc) → Buf (Elt F) ((c : Thread nD τ).loc b) := fun c b => B1 m c b
/-- After the projection call: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the attention call: its arrays at what the pipeline leaves, every other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 0).trans (((dat0 (E1 m) c).arrAt_in 0 rfl _).trans (A_eq0 (E1 m) c 0))
    _ = m ((c : Thread nD τ).loc main_arg0) := (Gen.V1_of m c main_arg0 (by decide)).trans rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := (Gen.V1_of m c main_arg1 (by decide)).trans rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := (Gen.V1_of m c main_arg2 (by decide)).trans rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := (Gen.V1_of m c main_arg3 (by decide)).trans rfl
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := (Gen.V1_of m c main_arg4 (by decide)).trans rfl
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := (Gen.V1_of m c main_arg5 (by decide)).trans rfl
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := (Gen.V1_of m c main_arg6 (by decide)).trans rfl

/-! ## The proof data family and the thread state -/

/-- Each pipeline's proof data at its call's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱h : Variants := Variants.none
abbrev Lh : GSem nD τ sig → Finset Unit := fun _ => ∅
abbrev lvh : GSem nD τ sig → Unit → ℕ := fun _ _ => 0
/-- What rides beside the buffers through every segment: the generator register at some state and nothing owed. -/
abbrev Rh (c : Dev nD) : sProp 𝕄 := iprop((∃ r, prngReg c r) ∗ ∃ W, owes (c : Thread nD τ) (0 : CellTallies nD τ sig Unit) W)
/-- The host stretch as a segment. -/
abbrev hseg0 : Pipeline.HostSeg (Name := ℕ) (U := UR sig nD τ) (pcfgs (F := F)) defs₀ 𝒱h Lh lvh :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tl (c : Dev nD) : sProp 𝕄 := iprop(StableHlo.held (c : Thread nD τ) (Pipeline.ucRefs τ sig) (B3 m c) ∗ ∃ r, prngReg c r)

/-! ## The calls as segments -/

set_option backward.isDefEq.respectTransparency.types false in
/-- Pallas call 0 over the thread state: entered from every unscoped buffer at the boundary's contents, left at the next
    boundary's. Its arrays are split out of the unscoped buffers and put back at their exit contents; the generator
    register goes into the invariant and comes out; nothing is owed; the kernel has no semaphore of its own. -/
def reg0 : Pipeline.RegionSeg (pcfgs (F := F)) Gen.adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lh lvh 0 fun _ _ => rfl
  pre c := iprop(StableHlo.held (c : Thread nD τ) (Pipeline.ucRefs τ sig) (B1 m c) ∗ Rh c)
  post c := iprop(StableHlo.held (c : Thread nD τ) (Pipeline.ucRefs τ sig) (B2 m c) ∗ Rh c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at the boundary's contents, left at the next
    boundary's. Its arrays are split out of the unscoped buffers and put back at their exit contents; the generator
    register goes into the invariant and comes out; nothing is owed; the kernel has no semaphore of its own. -/
def reg1 : Pipeline.RegionSeg (pcfgs (F := F)) Gen.adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lh lvh 1 fun _ _ => rfl
  pre c := iprop(StableHlo.held (c : Thread nD τ) (Pipeline.ucRefs τ sig) (B2 m c) ∗ Rh c)
  post c := iprop(Tl m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_out (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) Gen.adm (pdats m) () defs₀ 𝒱h Lh lvh) :=
  [ .host (hseg0 m), .region (reg0 m), .region (reg1 m) ]
theorem main_run (c : Dev nD) : main (F := F) c = Pipeline.Seg.run (segsH m) := (main_chain c).trans (by chain_rfl)

set_option backward.isDefEq.respectTransparency.types false in
/-- From any memory with zero counters, every weakly fair execution of @main terminates, nothing faulting, and every
    final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B3 m c b) :=
  Pipeline.θ_run_regions_kit (pcfgs (F := F)) Gen.adm (pdats m) () cellOf_inj emb₁ defs₀ 𝒱h Lh lvh m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rh c)) (Tₙ := Tl m)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c)⟩) (run_all m ρ)

/-- The result array after the run: what the attention call's write-backs leave in it. -/
theorem result_v10 : θ_run defs (onTc (τ := τ) (main (F := F))) ⟨m, fun _ => 0, ρ⟩ (fun r => ∀ c : Dev nD,
      r.2.mem ((c.tc : Thread nD τ).loc main_v10) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (B3_arr m c 3),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c)⟩) (run_all m ρ)

end Cert.Kernel.Hand

end
-- ==== Proof.QkvBody.lean ====
/- The per-point half of the first pallas region (the three linear layers q, k, v), at a parameter `V` — the
   TensorCore's buffer contents when the region is entered: each window's block at a point, what the body leaves
   in each output window's staging buffer (one whole-block store each, as `View.canon` of that store over the
   skeleton's payloads), the body's triple, the pipeline's proof data and the body obligation. Generic in the
   float interpretation `F`. -/
import proofs.«134215_j31799937859875_2_alg».proof.Proof.Gen.KernelIdeal.Launch
import proofs.«134215_j31799937859875_2_alg».proof.Proof.Gen.KernelIdeal.Skeleton
import proofs.«134215_j31799937859875_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes is decided by a recursion that takes one step per coordinate of an axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1024x1024 := Rect.unit (s := S1x1024x1024) ![0, 0, 0] S1x1024x1024.size inb_S1x1024x1024_S1x1024x1024_0_0_0
abbrev r0_1 : Rect S1024x128 := Rect.unit (s := S1024x128) ![0, 0] S1024x128.size inb_S1024x128_S1024x128_0_0
abbrev r0_2 : Rect S1x128 := Rect.unit (s := S1x128) ![0, 0] S1x128.size inb_S1x128_S1x128_0_0
abbrev r0_3 : Rect S1x1024x128 := Rect.unit (s := S1x1024x128) ![0, 0, 0] S1x1024x128.size inb_S1x1024x128_S1x1024x128_0_0_0

/-! ## What the body leaves in each output window's buffer -/

/-- Window 7's staging buffer after the body, from the input windows' blocks: its one whole-block store as a
    piece (the payload is the skeleton's). -/
def out0_7 (x0 : Vec F S1x1024x1024 .f32) (x1 : Vec F S1024x128 .bf16) (x2 : Vec F S1x128 .f32) (x3 : Vec F S1024x128 .bf16) (x4 : Vec F S1x128 .f32) (x5 : Vec F S1024x128 .bf16) (x6 : Vec F S1x128 .f32) : Vec F S1x1024x128 .bf16 :=
  View.canon [⟨r0_3, k0_pay3 (View.ld x0 r0_0) (View.ld x1 r0_1) (View.ld x2 r0_2)⟩]

/-- Its store tiles the buffer (checked by evaluation), so it covers it. -/
theorem cover0_7 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-- Window 8's staging buffer after the body, from the input windows' blocks: its one whole-block store as a
    piece (the payload is the skeleton's). -/
def out0_8 (x0 : Vec F S1x1024x1024 .f32) (x1 : Vec F S1024x128 .bf16) (x2 : Vec F S1x128 .f32) (x3 : Vec F S1024x128 .bf16) (x4 : Vec F S1x128 .f32) (x5 : Vec F S1024x128 .bf16) (x6 : Vec F S1x128 .f32) : Vec F S1x1024x128 .bf16 :=
  View.canon [⟨r0_3, k0_pay4 (View.ld x0 r0_0) (View.ld x3 r0_1) (View.ld x4 r0_2)⟩]

/-- Its store tiles the buffer (checked by evaluation), so it covers it. -/
theorem cover0_8 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-- Window 9's staging buffer after the body, from the input windows' blocks: its one whole-block store as a
    piece (the payload is the skeleton's). -/
def out0_9 (x0 : Vec F S1x1024x1024 .f32) (x1 : Vec F S1024x128 .bf16) (x2 : Vec F S1x128 .f32) (x3 : Vec F S1024x128 .bf16) (x4 : Vec F S1x128 .f32) (x5 : Vec F S1024x128 .bf16) (x6 : Vec F S1x128 .f32) : Vec F S1x1024x128 .bf16 :=
  View.canon [⟨r0_3, k0_pay1 (k0_pay5 (View.ld x0 r0_0) (View.ld x5 r0_1) (View.ld x6 r0_2))⟩]

/-- Its store tiles the buffer (checked by evaluation), so it covers it. -/
theorem cover0_9 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-! ## The body's triple -/

set_option maxHeartbeats 4000000 in
/-- The kernel body on whole staging memrefs, the inputs' at read contents `xW` and the outputs' at anything, runs to
    the continuation holding the inputs' as they were and each output's at `out0_W` of the inputs': the printed
    functions are their skeletons, run operation by operation through the part call. Each output buffer is loaded
    once before it is stored; the loaded value is not used. -/
theorem sound_kernel0 (c : Dev nD) (E : Set ℕ) (i : grid0.Coords) (arg2 : Memref sig .tc .vmem S1x1024x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S1x1024x128 .bf16) (harg10 : arg10.IsWhole) (arg11 : Memref sig .tc .vmem S1x1024x128 .bf16) (harg11 : arg11.IsWhole)
    (x0 : Vec F S1x1024x1024 .f32) (x1 : Vec F S1024x128 .bf16) (x2 : Vec F S1x128 .f32) (x3 : Vec F S1024x128 .bf16) (x4 : Vec F S1x128 .f32) (x5 : Vec F S1024x128 .bf16) (x6 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of this pipeline on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.AttnRuns.lean ====
/-
  The attention kernel (the second pallas_call) at a grid point: what the proof of its frame shares between the two
  control cases. The grid is (batch, query tile, key tile) = (8, 2, 2), walked with the key tile fastest, so a point
  with an even position is the FIRST key tile of its query tile (the running maximum, running sum and accumulator are
  reset there) and a point with an odd position is the LAST one (the accumulator is divided by the running sum and
  stored to the output block there). The three scratch buffers are carried from an even point to the odd point after it.
-/
import proofs.«134215_j31799937859875_2_alg».proof.Proof.Gen.KernelIdeal.Launch
import proofs.«134215_j31799937859875_2_alg».proof.Proof.Gen.KernelIdeal.Skeleton
import proofs.«134215_j31799937859875_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point: it is fetched at the first key tile and
    its block index does not move at the second. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds the key block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds the value block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first key tile": the condition under which the body resets the three scratch buffers. -/
abbrev cond1_0 (i : grid1.Coords) : Prop := (Scalar.cmpi .ne (Scalar.extui (Scalar.cmpi .eq (BitVec.ofNat 32 (i 2).val) 0#32)) 0#32) = 1#1
/-- It holds exactly at the even positions of the walk. -/
theorem hcond1_0 : ∀ t : Fin cfg1.N, cond1_0 (grid1.coords t) ↔ t.val % 2 = 0 :=
  (by decide +kernel : ∀ t : Fin grid1.N, cond1_0 (grid1.coords t) ↔ t.val % 2 = 0)
/-- "This is the last key tile": the condition under which the body normalizes and stores the output block. -/
abbrev cond1_1 (i : grid1.Coords) : Prop := k1_cond2 i = 1#1
/-- It holds exactly at the odd positions of the walk. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first key tile nothing is stored into the output block, -/
theorem idleAt1_3_A : ∀ t : Fin cfg1.N, cond1_0 (grid1.coords t) → ¬cond1_1 (grid1.coords t) → cfg1.idle 3 (grid1.coords t) = true := by decide +kernel
/-- and the block is not written back there. -/
theorem noFlush1_3_A : ∀ t : Fin cfg1.N, cond1_0 (grid1.coords t) → ¬cond1_1 (grid1.coords t) → (cfg1.win 3).flush t = false := by decide +kernel
/-- At a last key tile the output block is stored. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S1x1024x128 .f32 := (Memref.whole cc1_stg3_0 : Memref sig .tc .vmem S1x1024x128 .f32).view
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The running maximum, the running sum and the accumulator: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## The scoped buffers the kernel does not touch -/

/-- The first pallas_call's staging buffers, each whole at some contents: they ride along untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class invariant (every scoped buffer that is no staging buffer of this call at some contents, and the generator
    register at some state) gives the three scratch buffers apart from the rest, -/
theorem PhiA1_split (c : Dev nD) :
    (Pipeline.ΦA spec1 c : sProp 𝕄)
      ⊢ iprop(((∃ d, owns (c : Thread nD τ) scM1_0 fullShare d) ∗ (∃ d, owns (c : Thread nD τ) scM1_1 fullShare d) ∗ (∃ d, owns (c : Thread nD τ) scM1_2 fullShare d))
          ∗ (others (F := F) c ∗ ∃ r, prngReg c r)) := by
  unfold Pipeline.ΦA others; rw [scopedRest1_eq]; simp only [scM1_0, scM1_1, scM1_2, owns_whole]
  iintro ⟨⟨A0, A1, A2, A3, A4, A5, A6, A7, A8, A9, A10, A11, A12, A13, HS0, HS1, HS2⟩, Hg⟩
  isplitl [HS0 HS1 HS2]
  · isplitl [HS0]; · iexact HS0
    isplitl [HS1]; · iexact HS1
    iexact HS2
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  iexact Hg

/-- and takes them back. -/
theorem PhiA1_join (c : Dev nD) :
    iprop(((∃ d, owns (c : Thread nD τ) scM1_0 fullShare d) ∗ (∃ d, owns (c : Thread nD τ) scM1_1 fullShare d) ∗ (∃ d, owns (c : Thread nD τ) scM1_2 fullShare d))
          ∗ (others (F := F) c ∗ ∃ r, prngReg c r))
      ⊢ (Pipeline.ΦA spec1 c : sProp 𝕄) := by
  unfold Pipeline.ΦA others; rw [scopedRest1_eq]; simp only [scM1_0, scM1_1, scM1_2, owns_whole]
  iintro ⟨⟨HS0, HS1, HS2⟩, ⟨A0, A1, A2, A3, A4, A5, A6, A7, A8, A9, A10, A11, A12, A13⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS0]; · iexact HS0
    isplitl [HS1]; · iexact HS1
    iexact HS2
  iexact Hg

end Cert.KernelIdeal.Hand

end
-- ==== Proof.AttnRunA.lean ====
/-
  The attention kernel's body at a FIRST key tile (an even position of the walk): the three scratch buffers are
  reset (running maximum to the least element, running sum and accumulator to zero), then updated from the query,
  key and value blocks; nothing is stored into the output block.
-/
import proofs.«134215_j31799937859875_2_alg».proof.Proof.Gen.KernelIdeal.Launch
import proofs.«134215_j31799937859875_2_alg».proof.Proof.Gen.KernelIdeal.Skeleton
import proofs.«134215_j31799937859875_2_alg».proof.Proof.Gen.KernelIdeal.Points
import proofs.«134215_j31799937859875_2_alg».proof.Proof.AttnRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch buffer, as pieces (last first), at a first key tile, WITH the proof
    that on whole memrefs — the three inputs' at their blocks, the output's at contents handed back untouched, the
    scratch buffers' at anything — the body runs to the continuation holding the inputs' and the output's as they were
    and each scratch buffer with its pieces written. The pieces are found by the run itself. -/
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 x2 : Vec F S1x1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.AttnRunB.lean ====
/-
  The attention kernel's body at a LAST key tile (an odd position of the walk): the three scratch buffers hold what
  the first key tile left; they are updated from the query, key and value blocks, and the accumulator divided by the
  running sum is stored into the output block.
-/
import proofs.«134215_j31799937859875_2_alg».proof.Proof.Gen.KernelIdeal.Launch
import proofs.«134215_j31799937859875_2_alg».proof.Proof.Gen.KernelIdeal.Skeleton
import proofs.«134215_j31799937859875_2_alg».proof.Proof.Gen.KernelIdeal.Points
import proofs.«134215_j31799937859875_2_alg».proof.Proof.AttnRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in each scratch buffer, as pieces (last first), at a last key
    tile, WITH the proof that on whole memrefs — the three inputs' at their blocks, the output's at anything, the scratch
    buffers' at the contents the point before left — the body runs to the continuation holding the inputs' as they were
    and the output's and each scratch buffer with its pieces written. The pieces are found by the run itself. -/
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 x2 : Vec F S1x1024x128 .bf16) (xs0 xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.AttnBody.lean ====
/-
  The attention kernel (the second pallas_call), point by point: what the three scratch buffers (running maximum,
  running sum, accumulator) and the output block hold after each point of the walk, the invariant that carries the
  scratch contents from a first key tile to the last key tile after it, the proof data of the pipeline and the body
  obligation at every point.
-/
import proofs.«134215_j31799937859875_2_alg».proof.Proof.Gen.KernelIdeal.Launch
import proofs.«134215_j31799937859875_2_alg».proof.Proof.Gen.KernelIdeal.Skeleton
import proofs.«134215_j31799937859875_2_alg».proof.Proof.Gen.KernelIdeal.Points
import proofs.«134215_j31799937859875_2_alg».proof.Proof.AttnRunA
import proofs.«134215_j31799937859875_2_alg».proof.Proof.AttnRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At a first key tile nothing is stored into the output block: a placeholder nothing consults (the block is neither
    written back there nor read at the next point). -/
def out1_idle : Vec F S1x1024x128 .f32 :=
  VO1_3.read (Elt F) (VO1_3.writes (Elt F) VO1_3.junk [])

/-- A first key tile's stores into scratch 0 cover it. -/
theorem scover1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) (y : S1024x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S1024x1.size (by sl_kernel_rfl) y
/-- What a first key tile leaves in scratch 0. -/
def sout1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)
/-- A last key tile's stores into scratch 0 cover it. -/
theorem scover1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
/-- What a last key tile leaves in scratch 0. -/
def sout1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- A first key tile's stores into scratch 1 cover it. -/
theorem scover1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
/-- What a first key tile leaves in scratch 1. -/
def sout1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)
/-- A last key tile's stores into scratch 1 cover it. -/
theorem scover1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
/-- What a last key tile leaves in scratch 1. -/
def sout1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- A first key tile's stores into scratch 2 cover it. -/
theorem scover1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) (y : S1024x128.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x128.size (by sl_kernel_rfl) y
/-- What a first key tile leaves in scratch 2. -/
def sout1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) : Vec F S1024x128 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)
/-- A last key tile's stores into scratch 2 cover it. -/
theorem scover1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) (y : S1024x128.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x128.size (by sl_kernel_rfl) y
/-- What a last key tile leaves in scratch 2. -/
def sout1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) : Vec F S1024x128 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- A last key tile's store into the output block covers it. -/
theorem cover1_B_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) (y : S1x1024x128.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x128.size (by sl_kernel_rfl) y
/-- What a last key tile leaves in the output block. -/
def out1_B_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) : Vec F S1x1024x128 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-! ## What the buffers hold after each point -/

/-- The contents of a first key tile at point `t`: the output placeholder, then the three scratch buffers. -/
def caseA (c : Dev nD) (t : Fin cfg1.N) (h0 : t.val % 2 = 0) :
    Vec F S1x1024x128 .f32 × Vec F S1024x1 .f32 × Vec F S1024x1 .f32 × Vec F S1024x128 .f32 :=
  have hc0 : cond1_0 (grid1.coords t) := (hcond1_0 t).mpr h0
  have hc1 : ¬cond1_1 (grid1.coords t) := fun h => by have := (hcond1_1 t).mp h; omega
  (out1_idle,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t))

/-- The contents of a last key tile at point `t`, over what the point before left in the scratch buffers. -/
def caseB (c : Dev nD) (t : Fin cfg1.N) (h0 : ¬t.val % 2 = 0)
    (xs : Vec F S1024x1 .f32 × Vec F S1024x1 .f32 × Vec F S1024x128 .f32) :
    Vec F S1x1024x128 .f32 × Vec F S1024x1 .f32 × Vec F S1024x1 .f32 × Vec F S1024x128 .f32 :=
  have hc0 : ¬cond1_0 (grid1.coords t) := fun h => h0 ((hcond1_0 t).mp h)
  have hc1 : cond1_1 (grid1.coords t) := (hcond1_1 t).mpr (by omega)
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) xs.1 xs.2.1 xs.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) xs.1 xs.2.1 xs.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) xs.1 xs.2.1 xs.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) xs.1 xs.2.1 xs.2.2)

/-- What the output block's staging buffer and the three scratch buffers hold after the body at position `n`: a first
    key tile starts afresh, a last key tile continues from what the point before left. -/
def outsAt1 (c : Dev nD) : (n : ℕ) → n < cfg1.N → Vec F S1x1024x128 .f32 × Vec F S1024x1 .f32 × Vec F S1024x1 .f32 × Vec F S1024x128 .f32
  | 0, hn => caseA V c ⟨0, hn⟩ (Nat.zero_mod _)
  | n + 1, hn =>
    if h0 : (n + 1) % 2 = 0 then caseA V c ⟨n + 1, hn⟩ h0
    else caseB V c ⟨n + 1, hn⟩ h0 (outsAt1 c n (Nat.lt_of_succ_lt hn)).2

theorem outsAt1_A (c : Dev nD) (t : Fin cfg1.N) (h0 : t.val % 2 = 0) :
    outsAt1 V c t.val t.isLt = caseA V c t h0 := by
  obtain ⟨n, hn⟩ := t
  cases n with
  | zero => rfl
  | succ n => exact (dif_pos h0).trans rfl

theorem outsAt1_B (c : Dev nD) (t : Fin cfg1.N) (h0 : ¬t.val % 2 = 0) :
    outsAt1 V c t.val t.isLt = caseB V c t h0 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

/-! ## The invariant -/

/-- Before the first point: every scoped buffer of the kernel's at anything. Afterwards: the three scratch buffers at
    what the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2)
      ∗ (others (F := F) c ∗ ∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2)
      ∗ (others (F := F) c ∗ ∃ r, prngReg c r)) := rfl
theorem PhiS1_pos (c : Dev nD) (n : ℕ) (h : n ≤ cfg1.N) (hz : n ≠ 0) :
    PhiS1 V c n h = iprop((owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2)
      ∗ (others (F := F) c ∗ ∃ r, prngReg c r)) := by
  cases n with
  | zero => exact absurd rfl hz
  | succ n => rfl

/-! ## The pipeline's proof data -/

/-- The arrays as the region finds them; after the body each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the parity of the position says which case the point
    is in; the invariant hands the body the scratch buffers at what the point before left (at anything before the first
    point, and at a first key tile their contents are not read before being reset) and takes them back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_A t hc0 hc1) (noFlush1_3_A t hc0 hc1)]
    rw [outsAt1_A V c t h0]
    unfold caseA sout1_A_0 sout1_A_1 sout1_A_2; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := PhiA1_split c $$ HΦ
      icases HΦ' with ⟨⟨HS0, HS1, HS2⟩, Hrest⟩
      iapply ((kernelRun1_A c (grid1.coords t) _ _ _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · isplitl [HS0 HS1 HS2]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HS1, HS2⟩, Hrest⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest]
      · isplitl [HS0 HS1 HS2]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hc1 : cond1_1 (grid1.coords t) := (hcond1_1 t).mpr (by omega)
    rw [show (dat1 V c).leavesExact 3 t = owns (c : Thread nD τ) (ms1_3 t) fullShare ((dat1 V c).after 3 t) from by
      unfold Dat.leavesExact; rw [liveAt1_3_B t hc0 hc1], after1_3]
    rw [outsAt1_B V c t h0]
    unfold caseB out1_B_3 sout1_B_0 sout1_B_1 sout1_B_2; (try dsimp only)
    have hz : t.val ≠ 0 := by omega
    rw [PhiS1_castSucc V c t, PhiS1_pos V c _ _ hz]
    iintro ⟨⟨⟨HS0, HS1, HS2⟩, Hrest⟩, Ho, ⟨%d0, H0⟩, ⟨%d1, H1⟩, ⟨%d2, H2⟩, ⟨%d3, H3⟩⟩
    iapply ((kernelRun1_B c (grid1.coords t) _ _ _ _ _ _ _ _ _ _ _ _ _ _ hc0 hc1 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hrest]
    · isplitl [HS0 HS1 HS2]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      iexact Hrest
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_first (c : Dev nD) : (dat1 V c).Φ 0 = Pipeline.ΦA spec1 c := rfl

/-- After the last point the invariant gives the class's back: the scratch buffers' named contents are forgotten. -/
theorem Phi1_out (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  refine .trans ?_ (PhiA1_join c)
  iintro ⟨⟨HS0, HS1, HS2⟩, Hrest⟩
  isplitl [HS0 HS1 HS2]
  · isplitl [HS0]; · iexists _; iexact HS0
    isplitl [HS1]; · iexists _; iexact HS1
    iexists _; iexact HS2
  iexact Hrest

end Cert.KernelIdeal.Hand

end
-- ==== Proof.Frames.lean ====
/-
  The run of the whole program: a stretch of host operations (three transposes with a change of float format, three
  reshapes of the biases), the projection call, the attention call. The buffer contents at each boundary are a fold
  from the launch memory: after the host stretch; after the projection call (its three output arrays at what its
  write-backs leave, everything else as entered); after the attention call (its output array at what its write-backs
  leave). Every weakly fair execution terminates with every unscoped buffer at the last boundary's contents; the
  arguments are read back through the fold to their launch contents.
-/
import proofs.«134215_j31799937859875_2_alg».proof.Proof.Gen.KernelIdeal.Launch
import proofs.«134215_j31799937859875_2_alg».proof.Proof.Gen.KernelIdeal.Skeleton
import proofs.«134215_j31799937859875_2_alg».proof.Proof.Gen.KernelIdeal.Points
import proofs.«134215_j31799937859875_2_alg».proof.Proof.Gen.KernelIdeal.Regions
import proofs.«134215_j31799937859875_2_alg».proof.Proof.QkvBody
import proofs.«134215_j31799937859875_2_alg».proof.Proof.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the host stretch (the projection call's entry). -/
abbrev B1 : Dev nD → Valuation τ sig (Elt F) := fun c => Gen.V1 m c
/-- The same read at the TensorCore's references. -/
abbrev E1 : (c : Dev nD) → (b : Ref sig .tc) → Buf (Elt F) ((c : Thread nD τ).loc b) := fun c b => B1 m c b
/-- After the projection call: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the attention call: its arrays at what the pipeline leaves, every other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 0).trans (((dat0 (E1 m) c).arrAt_in 0 rfl _).trans (A_eq0 (E1 m) c 0))
    _ = m ((c : Thread nD τ).loc main_arg0) := (Gen.V1_of m c main_arg0 (by decide)).trans rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := (Gen.V1_of m c main_arg1 (by decide)).trans rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := (Gen.V1_of m c main_arg2 (by decide)).trans rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := (Gen.V1_of m c main_arg3 (by decide)).trans rfl
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := (Gen.V1_of m c main_arg4 (by decide)).trans rfl
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := (Gen.V1_of m c main_arg5 (by decide)).trans rfl
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := (Gen.V1_of m c main_arg6 (by decide)).trans rfl

/-! ## The proof data family and the thread state -/

/-- Each pipeline's proof data at its call's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱h : Variants := Variants.none
abbrev Lh : GSem nD τ sig → Finset Unit := fun _ => ∅
abbrev lvh : GSem nD τ sig → Unit → ℕ := fun _ _ => 0
/-- What rides beside the buffers through every segment: the generator register at some state and nothing owed. -/
abbrev Rh (c : Dev nD) : sProp 𝕄 := iprop((∃ r, prngReg c r) ∗ ∃ W, owes (c : Thread nD τ) (0 : CellTallies nD τ sig Unit) W)
/-- The host stretch as a segment. -/
abbrev hseg0 : Pipeline.HostSeg (Name := ℕ) (U := UR sig nD τ) (pcfgs (F := F)) defs₀ 𝒱h Lh lvh :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tl (c : Dev nD) : sProp 𝕄 := iprop(StableHlo.held (c : Thread nD τ) (Pipeline.ucRefs τ sig) (B3 m c) ∗ ∃ r, prngReg c r)

/-! ## The calls as segments -/

set_option backward.isDefEq.respectTransparency.types false in
/-- Pallas call 0 over the thread state: entered from every unscoped buffer at the boundary's contents, left at the next
    boundary's. Its arrays are split out of the unscoped buffers and put back at their exit contents; the generator
    register goes into the invariant and comes out; nothing is owed; the kernel has no semaphore of its own. -/
def reg0 : Pipeline.RegionSeg (pcfgs (F := F)) Gen.adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lh lvh 0 fun _ _ => rfl
  pre c := iprop(StableHlo.held (c : Thread nD τ) (Pipeline.ucRefs τ sig) (B1 m c) ∗ Rh c)
  post c := iprop(StableHlo.held (c : Thread nD τ) (Pipeline.ucRefs τ sig) (B2 m c) ∗ Rh c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at the boundary's contents, left at the next
    boundary's. Its arrays are split out of the unscoped buffers and put back at their exit contents; the generator
    register goes into the invariant and comes out; nothing is owed; the kernel has no semaphore of its own. -/
def reg1 : Pipeline.RegionSeg (pcfgs (F := F)) Gen.adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lh lvh 1 fun _ _ => rfl
  pre c := iprop(StableHlo.held (c : Thread nD τ) (Pipeline.ucRefs τ sig) (B2 m c) ∗ Rh c)
  post c := iprop(Tl m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_out (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) Gen.adm (pdats m) () defs₀ 𝒱h Lh lvh) :=
  [ .host (hseg0 m), .region (reg0 m), .region (reg1 m) ]
theorem main_run (c : Dev nD) : main (F := F) c = Pipeline.Seg.run (segsH m) := (main_chain c).trans (by chain_rfl)

set_option backward.isDefEq.respectTransparency.types false in
/-- From any memory with zero counters, every weakly fair execution of @main terminates, nothing faulting, and every
    final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B3 m c b) :=
  Pipeline.θ_run_regions_kit (pcfgs (F := F)) Gen.adm (pdats m) () cellOf_inj emb₁ defs₀ 𝒱h Lh lvh m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rh c)) (Tₙ := Tl m)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c)⟩) (run_all m ρ)

/-- The result array after the run: what the attention call's write-backs leave in it. -/
theorem result_v10 : θ_run defs (onTc (τ := τ) (main (F := F))) ⟨m, fun _ => 0, ρ⟩ (fun r => ∀ c : Dev nD,
      r.2.mem ((c.tc : Thread nD τ).loc main_v10) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (B3_arr m c 3),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c)⟩) (run_all m ρ)

end Cert.KernelIdeal.Hand

end
-- ==== Proof.AttnPieces.lean ====
/-
  What each case of the attention kernel's body leaves in the scratch buffers and in the output block, as the body's
  arithmetic of the three input blocks and of what the scratch buffers held: the stores' pieces read back. At a first
  key tile the scratch buffers are read only after the reset, so their old contents do not matter.
-/
import proofs.«134215_j31799937859875_2_alg».proof.Proof.Gen.KernelIdeal.Launch
import proofs.«134215_j31799937859875_2_alg».proof.Proof.Gen.KernelIdeal.Skeleton
import proofs.«134215_j31799937859875_2_alg».proof.Proof.Gen.KernelIdeal.Points
import proofs.«134215_j31799937859875_2_alg».proof.Proof.AttnBody
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A first key tile leaves the running maximum at the larger of the reset value and the row maxima of its scores. -/
theorem sA0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) :
    sout1_A_0 c i arg3 harg3 arg4 harg4 arg5 harg5 arg6 harg6 arg7 harg7 arg8 harg8 arg9 harg9 hc0 hc1 x0 x1 x2 = k1_pay2 (k1_pay8 x0 x1 (k1_pay4 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  first | rw [View.canon_cons_unit_zero (S := S1024x1) hz2] | rw [View.canon_unit_zero (S := S1024x1) hz2]
  repeat rw [View.readCov_unit_zero (S := S1024x1) _ hz2]
  repeat rw [View.readCov_unit_zero (S := S1024x128) _ hz2]
  simp only [View.readAt_eq_ld, harg3.read_unread, harg4.read_unread, harg5.read_unread, harg6.read_unread, harg7.read_unread, harg8.read_unread, harg9.read_unread, View.ld_unit_zero (S := S1x1024x128) hz3, View.ld_unit_zero (S := S1024x1) hz2, View.ld_unit_zero (S := S1024x128) hz2, shapeCast_self]

/-- A first key tile leaves the running sum at the row sums of its shifted exponentials (over the reset value). -/
theorem sA1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) :
    sout1_A_1 c i arg3 harg3 arg4 harg4 arg5 harg5 arg6 harg6 arg7 harg7 arg8 harg8 arg9 harg9 hc0 hc1 x0 x1 x2 = k1_pay11 x0 x1 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  first | rw [View.canon_cons_unit_zero (S := S1024x1) hz2] | rw [View.canon_unit_zero (S := S1024x1) hz2]
  repeat rw [View.readCov_unit_zero (S := S1024x1) _ hz2]
  repeat rw [View.readCov_unit_zero (S := S1024x128) _ hz2]
  simp only [View.readAt_eq_ld, harg3.read_unread, harg4.read_unread, harg5.read_unread, harg6.read_unread, harg7.read_unread, harg8.read_unread, harg9.read_unread, View.ld_unit_zero (S := S1x1024x128) hz3, View.ld_unit_zero (S := S1024x1) hz2, View.ld_unit_zero (S := S1024x128) hz2, shapeCast_self]

/-- A first key tile leaves the accumulator at its weights times the value block (over the reset value). -/
theorem sA2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 x1 x2 : Vec F S1x1024x128 .bf16) :
    sout1_A_2 c i arg3 harg3 arg4 harg4 arg5 harg5 arg6 harg6 arg7 harg7 arg8 harg8 arg9 harg9 hc0 hc1 x0 x1 x2 = k1_pay1 (k1_pay10 x0 x1 (k1_pay4 (F := F))) (k1_pay12 x2) (k1_pay13 x0 x1 (k1_pay4 (F := F)) (k1_pay4 (F := F)) (k1_pay6 (F := F))) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  first | rw [View.canon_cons_unit_zero (S := S1024x128) hz2] | rw [View.canon_unit_zero (S := S1024x128) hz2]
  repeat rw [View.readCov_unit_zero (S := S1024x1) _ hz2]
  repeat rw [View.readCov_unit_zero (S := S1024x128) _ hz2]
  simp only [View.readAt_eq_ld, harg3.read_unread, harg4.read_unread, harg5.read_unread, harg6.read_unread, harg7.read_unread, harg8.read_unread, harg9.read_unread, View.ld_unit_zero (S := S1x1024x128) hz3, View.ld_unit_zero (S := S1024x1) hz2, View.ld_unit_zero (S := S1024x128) hz2, shapeCast_self]

/-- A last key tile updates the running maximum from what the point before left. -/
theorem sB0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) :
    sout1_B_0 c i arg3 harg3 arg4 harg4 arg5 harg5 arg6 harg6 arg7 harg7 arg8 harg8 arg9 harg9 hc0 hc1 x0 x1 x2 xs0 xs1 xs2 = k1_pay2 (k1_pay8 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  first | rw [View.canon_cons_unit_zero (S := S1024x1) hz2] | rw [View.canon_unit_zero (S := S1024x1) hz2]
  repeat rw [View.readCov_unit_zero (S := S1024x1) _ hz2]
  repeat rw [View.readCov_unit_zero (S := S1024x128) _ hz2]
  simp only [View.readAt_eq_ld, harg3.read_unread, harg4.read_unread, harg5.read_unread, harg6.read_unread, harg7.read_unread, harg8.read_unread, harg9.read_unread, View.ld_unit_zero (S := S1x1024x128) hz3, View.ld_unit_zero (S := S1024x1) hz2, View.ld_unit_zero (S := S1024x128) hz2, shapeCast_self]

/-- A last key tile updates the running sum from what the point before left. -/
theorem sB1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) :
    sout1_B_1 c i arg3 harg3 arg4 harg4 arg5 harg5 arg6 harg6 arg7 harg7 arg8 harg8 arg9 harg9 hc0 hc1 x0 x1 x2 xs0 xs1 xs2 = k1_pay11 x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  first | rw [View.canon_cons_unit_zero (S := S1024x1) hz2] | rw [View.canon_unit_zero (S := S1024x1) hz2]
  repeat rw [View.readCov_unit_zero (S := S1024x1) _ hz2]
  repeat rw [View.readCov_unit_zero (S := S1024x128) _ hz2]
  simp only [View.readAt_eq_ld, harg3.read_unread, harg4.read_unread, harg5.read_unread, harg6.read_unread, harg7.read_unread, harg8.read_unread, harg9.read_unread, View.ld_unit_zero (S := S1x1024x128) hz3, View.ld_unit_zero (S := S1024x1) hz2, View.ld_unit_zero (S := S1024x128) hz2, shapeCast_self]

/-- A last key tile updates the accumulator from what the point before left. -/
theorem sB2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) :
    sout1_B_2 c i arg3 harg3 arg4 harg4 arg5 harg5 arg6 harg6 arg7 harg7 arg8 harg8 arg9 harg9 hc0 hc1 x0 x1 x2 xs0 xs1 xs2 = k1_pay1 (k1_pay10 x0 x1 xs0) (k1_pay12 x2) (k1_pay13 x0 x1 xs0 xs0 xs2) := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  first | rw [View.canon_cons_unit_zero (S := S1024x128) hz2] | rw [View.canon_unit_zero (S := S1024x128) hz2]
  repeat rw [View.readCov_unit_zero (S := S1024x1) _ hz2]
  repeat rw [View.readCov_unit_zero (S := S1024x128) _ hz2]
  simp only [View.readAt_eq_ld, harg3.read_unread, harg4.read_unread, harg5.read_unread, harg6.read_unread, harg7.read_unread, harg8.read_unread, harg9.read_unread, View.ld_unit_zero (S := S1x1024x128) hz3, View.ld_unit_zero (S := S1024x1) hz2, View.ld_unit_zero (S := S1024x128) hz2, shapeCast_self]

/-- A last key tile stores the updated accumulator divided by the updated running sum. -/
theorem oB3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 x1 x2 : Vec F S1x1024x128 .bf16) (xs0 xs1 : Vec F S1024x1 .f32) (xs2 : Vec F S1024x128 .f32) :
    out1_B_3 c i arg3 harg3 arg4 harg4 arg5 harg5 arg6 harg6 arg7 harg7 arg8 harg8 arg9 harg9 hc0 hc1 x0 x1 x2 xs0 xs1 xs2 = k1_pay3 (k1_pay1 (k1_pay10 x0 x1 xs0) (k1_pay12 x2) (k1_pay13 x0 x1 xs0 xs0 xs2)) (k1_pay11 x0 x1 xs0 xs0 xs1) := by
  unfold out1_B_3
  rw [View.read_writes_eq_canon _ _ _ (cover1_B_3 c i arg3 harg3 arg4 harg4 arg5 harg5 arg6 harg6 arg7 harg7 arg8 harg8 arg9 harg9 hc0 hc1 x0 x1 x2 xs0 xs1 xs2)]
  unfold kernelRun1_B
  dsimp only
  sl_unfold_words
  first | rw [View.canon_cons_unit_zero (S := S1x1024x128) hz3] | rw [View.canon_unit_zero (S := S1x1024x128) hz3]
  repeat rw [View.readCov_unit_zero (S := S1024x1) _ hz2]
  repeat rw [View.readCov_unit_zero (S := S1024x128) _ hz2]
  simp only [View.readAt_eq_ld, harg3.read_unread, harg4.read_unread, harg5.read_unread, harg6.read_unread, harg7.read_unread, harg8.read_unread, harg9.read_unread, View.ld_unit_zero (S := S1x1024x128) hz3, View.ld_unit_zero (S := S1024x1) hz2, View.ld_unit_zero (S := S1024x128) hz2, shapeCast_self]

end Cert.KernelIdeal.Hand

end
-- ==== Proof.Spec.lean ====
/-
  Single-head attention over the extended reals, as one function of coordinates.

  For a batch `b`, a position `s` and a feature `d`:
    proj x W β b s d   = (∑ i, x b s i * W d i) + β d            (a linear layer, weights stored [out, in])
    score q k b s t    = ∑ d, q b s d * k b t d                   (unscaled dot-product scores)
    rowMax z           = the largest of the 2048 entries of a row (⊥ for an empty row)
    weight z t         = exp (z t - rowMax z) / ∑ t', exp (z t' - rowMax z)   (a row softmax)
    attend q k v b s d = ∑ t, weight (score q k b s) t * v b t d

  `exp` and the quotient are the exact operations on the extended reals (`Ideal.exp`, `Ideal.div`);
  sums, products, differences and maxima are the extended reals' own.
-/
import Idealize.ShloMosaic.PureOps.Ideal
import Mathlib

noncomputable section

namespace Attn

open Idealize.ShloMosaic

/-- A linear layer with weights stored `[out, in]` and a bias per output feature. -/
def proj (x : Fin 8 → Fin 2048 → Fin 1024 → EReal) (W : Fin 128 → Fin 1024 → EReal) (β : Fin 128 → EReal)
    (b : Fin 8) (s : Fin 2048) (d : Fin 128) : EReal :=
  (∑ i : Fin 1024, x b s i * W d i) + β d

/-- Unscaled dot-product scores of query row `s` against key row `t`. -/
def score (q k : Fin 8 → Fin 2048 → Fin 128 → EReal) (b : Fin 8) (s t : Fin 2048) : EReal :=
  ∑ d : Fin 128, q b s d * k b t d

/-- The largest entry of a row. -/
def rowMax {n : ℕ} (z : Fin n → EReal) : EReal := Finset.univ.sup z

/-- The normalizer of a row softmax: the sum of the shifted exponentials. -/
def rowDen {n : ℕ} (z : Fin n → EReal) : EReal := ∑ t : Fin n, Ideal.exp (z t - rowMax z)

/-- One softmax weight of a row. -/
def weight {n : ℕ} (z : Fin n → EReal) (t : Fin n) : EReal := Ideal.div (Ideal.exp (z t - rowMax z)) (rowDen z)

/-- The attention output: the softmax-weighted sum of value rows. -/
def attend (q k v : Fin 8 → Fin 2048 → Fin 128 → EReal) (b : Fin 8) (s : Fin 2048) (d : Fin 128) : EReal :=
  ∑ t : Fin 2048, weight (score q k b s) t * v b t d

/-- The whole head: three projections of one input, then attention. -/
def head (x : Fin 8 → Fin 2048 → Fin 1024 → EReal)
    (Wq : Fin 128 → Fin 1024 → EReal) (βq : Fin 128 → EReal)
    (Wk : Fin 128 → Fin 1024 → EReal) (βk : Fin 128 → EReal)
    (Wv : Fin 128 → Fin 1024 → EReal) (βv : Fin 128 → EReal)
    (b : Fin 8) (s : Fin 2048) (d : Fin 128) : EReal :=
  attend (proj x Wq βq) (proj x Wk βk) (proj x Wv βv) b s d

end Attn

end
-- ==== Proof.AttnPayloads.lean ====
/-
  The attention kernel's arithmetic, read one entry at a time over the extended reals.

  One step of the kernel works on a tile of 1024 query rows and a tile of 1024 key rows of one batch entry. It forms
  the tile of scores (each query row against each key row, a sum over the 128 features), the new running maximum of
  every query row (the old one against the largest score of the row in this tile), the factor exp(old − new) that
  rescales what was accumulated under the old maximum, the shifted exponentials exp(score − new), the new running
  sum (the old one rescaled plus the row sum of the shifted exponentials) and the new accumulator (the old one
  rescaled plus the shifted exponentials times the value rows). The last step divides the accumulator by the running
  sum. Each lemma below says what one of these arrays holds at one row and column, as a formula in the entries of
  the arrays it is computed from. A change of float format is the identity on the extended reals, a cast between
  shapes of the same size keeps the row-major position, and a column broadcast along the rows repeats the row's
  entry.
-/
import proofs.«134215_j31799937859875_2_alg».proof.Proof.Gen.KernelIdeal.Skeleton
import proofs.«134215_j31799937859875_2_alg».proof.Proof.Spec
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

noncomputable section

namespace Cert.KernelIdeal.Hand

open Cert.KernelIdeal Cert.KernelIdeal.Gen Idealize.ShloMosaic Idealize.ShloMosaic.ValueIdx

/-! ## Columns: a vector as a one-column matrix, and a column repeated along the rows -/

section Columns
variable {α : Type}

/-- A vector of `a` entries cast to an `a × 1` matrix reads, at (i, u), entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at (i, j), the column's entry in row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Columns

/-! ## The word of -∞, and a fold of maxima as a supremum -/

/-- The word of -∞ is the least extended real. -/
theorem negInf_word : Ideal.ofBits .f32 0xFF800000#32 = (⊥ : EReal) := by
  simp [Ideal.ofBits, Ideal.ieee]

/-- The fold of `max` from the least element is the supremum. -/
theorem fold_max_bot_eq_sup {n : Nat} (f : Fin n → EReal) :
    (Finset.univ : Finset (Fin n)).fold max (⊥ : EReal) f = Finset.univ.sup f := rfl

/-! ## Where the two products read their operands -/

theorem lhs_scores_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_scores_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_scores_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_scores_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

theorem lhs_pv_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_pv_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_pv_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_pv_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- Scores: the left operand at output (r, t) and feature d is (r, d). -/
theorem scores_lhs (r t : Fin 1024) (d : Fin 128) :
    dot_S1024x128_S1024x128_S1024x1024_1_1_0_0_n_n.lhsIdx (ix2 r t) ((contrEquiv1 dot_S1024x128_S1024x128_S1024x1024_1_1_0_0_n_n 128 rfl rfl).symm d) = ix2 r d :=
  funext fun a => Fin.ext (by
    have hk := contrEquiv1_symm_val dot_S1024x128_S1024x128_S1024x1024_1_1_0_0_n_n 128 rfl rfl d
    match a with
    | ⟨0, _⟩ => exact lhs_scores_0 _ _
    | ⟨1, _⟩ => exact (lhs_scores_1 _ _).trans hk)

/-- Scores: the right operand at output (r, t) and feature d is (t, d). -/
theorem scores_rhs (r t : Fin 1024) (d : Fin 128) :
    dot_S1024x128_S1024x128_S1024x1024_1_1_0_0_n_n.rhsIdx (ix2 r t) ((contrEquiv1 dot_S1024x128_S1024x128_S1024x1024_1_1_0_0_n_n 128 rfl rfl).symm d) = ix2 t d :=
  funext fun a => Fin.ext (by
    have hk := contrEquiv1_symm_val dot_S1024x128_S1024x128_S1024x1024_1_1_0_0_n_n 128 rfl rfl d
    match a with
    | ⟨0, _⟩ => exact rhs_scores_0 _ _
    | ⟨1, _⟩ => exact (rhs_scores_1 _ _).trans hk)

/-- Weights times values: the left operand at output (r, d) and key row t is (r, t). -/
theorem pv_lhs (r : Fin 1024) (d : Fin 128) (t : Fin 1024) :
    dot_S1024x1024_S1024x128_S1024x128_1_0_0_1_n_n.lhsIdx (ix2 r d) ((contrEquiv1 dot_S1024x1024_S1024x128_S1024x128_1_0_0_1_n_n 1024 rfl rfl).symm t) = ix2 r t :=
  funext fun a => Fin.ext (by
    have hk := contrEquiv1_symm_val dot_S1024x1024_S1024x128_S1024x128_1_0_0_1_n_n 1024 rfl rfl t
    match a with
    | ⟨0, _⟩ => exact lhs_pv_0 _ _
    | ⟨1, _⟩ => exact (lhs_pv_1 _ _).trans hk)

/-- Weights times values: the right operand at output (r, d) and key row t is (t, d). -/
theorem pv_rhs (r : Fin 1024) (d : Fin 128) (t : Fin 1024) :
    dot_S1024x1024_S1024x128_S1024x128_1_0_0_1_n_n.rhsIdx (ix2 r d) ((contrEquiv1 dot_S1024x1024_S1024x128_S1024x128_1_0_0_1_n_n 1024 rfl rfl).symm t) = ix2 t d :=
  funext fun a => Fin.ext (by
    have hk := contrEquiv1_symm_val dot_S1024x1024_S1024x128_S1024x128_1_0_0_1_n_n 1024 rfl rfl t
    match a with
    | ⟨0, _⟩ => exact (rhs_pv_0 _ _).trans hk
    | ⟨1, _⟩ => exact rhs_pv_1 _ _)

/-- Row r of a 1024 × 1024 tile with column t put back is (r, t). -/
theorem lift_col (h : S1024x1024.Reduces [1] S1024) (r : Fin 1024) (t : Fin (S1024x1024.size 1)) :
    h.lift (ix1 r) t = ix2 r (⟨t.val, t.isLt⟩ : Fin 1024) := by
  funext c; apply Fin.ext
  match c with | ⟨0, _⟩ => rfl | ⟨1, _⟩ => rfl

/-! ## A row of a tile reduced -/

/-- The largest entry of row r of a 1024 × 1024 tile: the reduction with a maximum body from the word of -∞. -/
theorem rowMax_tile (s : FVec Ideal S1024x1024 .f32) (r : Fin 1024) :
    multiReduction .maximumf [1] S1024 s 0xFF800000#32 reduces_S1024x1024_S1024 (.inl rfl) rfl (ix1 r)
      = Attn.rowMax fun t : Fin 1024 => s (ix2 r t) := by
  refine (Ideal.multiReduction_maximumf_single s 0xFF800000#32 reduces_S1024x1024_S1024 (.inl rfl) rfl (ix1 r)).trans ?_
  have hf : (s ∘ (reduces_S1024x1024_S1024 : S1024x1024.Reduces [1] S1024).lift (ix1 r)) = fun t : Fin 1024 => s (ix2 r t) :=
    funext fun t => congrArg s (lift_col _ r t)
  have hi : FloatOps.ofBits (F := Ideal) .f32 0xFF800000#32 = (⊥ : EReal) := negInf_word
  rw [hi]
  unfold Attn.rowMax
  rw [← fold_max_bot_eq_sup]
  exact congrArg (fun f => (Finset.univ : Finset (Fin 1024)).fold max (⊥ : EReal) f) hf

/-- The sum of row r of a 1024 × 1024 tile: the reduction with an add body. -/
theorem rowSum_tile (s : FVec Ideal S1024x1024 .f32) (r : Fin 1024) :
    multiReduction .add [1] S1024 s 0x00000000#32 reduces_S1024x1024_S1024 (.inl rfl) rfl (ix1 r)
      = ∑ t : Fin 1024, s (ix2 r t) := by
  refine (Ideal.multiReduction_add_single s 0x00000000#32 reduces_S1024x1024_S1024 (.inl rfl) rfl (ix1 r)).trans ?_
  exact Finset.sum_congr rfl fun t _ => congrArg s (lift_col _ r t)

/-! ## The payloads -/

/-- The score of query row r against key row t: the sum over the features of the products. -/
theorem pay7 (q k : Vec Ideal S1x1024x128 .bf16) (r t : Fin 1024) :
    k1_pay7 (F := Ideal) q k (ix2 r t) = ∑ d : Fin 128, q (ix3 0 r d) * k (ix3 0 t d) := by
  show FloatOps.matmul dot_S1024x128_S1024x128_S1024x1024_1_1_0_0_n_n none (shapeCast S1024x128 q shapeCasts_S1x1024x128_S1024x128)
      (shapeCast S1024x128 k shapeCasts_S1x1024x128_S1024x128) (constant (F := Ideal) S1024x1024 .f32 0x00000000#32) (ix2 r t) = _
  rw [Ideal.matmul_constant_zero_apply, ← Equiv.sum_comp (contrEquiv1 dot_S1024x128_S1024x128_S1024x1024_1_1_0_0_n_n 128 rfl rfl).symm]
  refine Finset.sum_congr rfl fun d _ => ?_
  rw [scores_lhs, scores_rhs, shapeCast_1ab_ab_apply, shapeCast_1ab_ab_apply]

/-- The new running maximum of row r: the old one against the largest score of the row in this tile. -/
theorem pay8 (q k : Vec Ideal S1x1024x128 .bf16) (mo : Vec Ideal S1024x1 .f32) (r : Fin 1024) :
    k1_pay8 (F := Ideal) q k mo (ix2 r 0)
      = max (mo (ix2 r 0)) (Attn.rowMax fun t : Fin 1024 => k1_pay7 (F := Ideal) q k (ix2 r t)) := by
  refine (maximumf_apply (φ := .f32) mo (shapeCast S1024x1 (multiReduction .maximumf [1] S1024 (k1_pay7 (F := Ideal) q k) 0xFF800000#32
      reduces_S1024x1024_S1024 (.inl rfl) rfl) shapeCasts_S1024_S1024x1) (ix2 r 0)).trans ?_
  refine congrArg (max (mo (ix2 r 0))) ?_
  refine (shapeCast_a_a1_apply _ shapeCasts_S1024_S1024x1 r 0).trans ?_
  exact rowMax_tile (k1_pay7 (F := Ideal) q k) r

/-- The factor that rescales what was accumulated under the old maximum `mo'`. -/
theorem pay9 (q k : Vec Ideal S1x1024x128 .bf16) (mo mo' : Vec Ideal S1024x1 .f32) (r : Fin 1024) :
    k1_pay9 (F := Ideal) q k mo mo' (ix2 r 0) = Ideal.exp (mo' (ix2 r 0) - k1_pay8 (F := Ideal) q k mo (ix2 r 0)) := rfl

/-- The shifted exponential of the score at (r, t). -/
theorem pay10 (q k : Vec Ideal S1x1024x128 .bf16) (mo : Vec Ideal S1024x1 .f32) (r t : Fin 1024) :
    k1_pay10 (F := Ideal) q k mo (ix2 r t)
      = Ideal.exp (k1_pay7 (F := Ideal) q k (ix2 r t) - k1_pay8 (F := Ideal) q k mo (ix2 r 0)) := by
  show Ideal.exp (k1_pay7 (F := Ideal) q k (ix2 r t)
      - broadcastTo S1024x1024 (k1_pay8 (F := Ideal) q k mo) broadcasts_S1024x1_S1024x1024 (ix2 r t)) = _
  rw [broadcastTo_a1_ab_apply]

/-- The new running sum of row r: the old one rescaled plus the row sum of the shifted exponentials. -/
theorem pay11 (q k : Vec Ideal S1x1024x128 .bf16) (mo mo' lo : Vec Ideal S1024x1 .f32) (r : Fin 1024) :
    k1_pay11 (F := Ideal) q k mo mo' lo (ix2 r 0)
      = k1_pay9 (F := Ideal) q k mo mo' (ix2 r 0) * lo (ix2 r 0) + ∑ t : Fin 1024, k1_pay10 (F := Ideal) q k mo (ix2 r t) := by
  refine (congrFun (shapeCast_self (addf (mulf (k1_pay9 (F := Ideal) q k mo mo') lo)
      (shapeCast S1024x1 (multiReduction .add [1] S1024 (k1_pay10 (F := Ideal) q k mo) 0x00000000#32
        reduces_S1024x1024_S1024 (.inl rfl) rfl) shapeCasts_S1024_S1024x1)) shapeCasts_S1024x1_S1024x1) (ix2 r 0)).trans ?_
  refine (addf_apply (φ := .f32) _ _ (ix2 r 0)).trans ?_
  refine congrArg₂ (· + ·) (mulf_apply (φ := .f32) _ _ (ix2 r 0)) ?_
  refine (shapeCast_a_a1_apply _ shapeCasts_S1024_S1024x1 r 0).trans ?_
  exact rowSum_tile (k1_pay10 (F := Ideal) q k mo) r

/-- The value tile with its leading unit axis dropped. -/
theorem pay12 (v : Vec Ideal S1x1024x128 .bf16) (t : Fin 1024) (d : Fin 128) :
    k1_pay12 (F := Ideal) v (ix2 t d) = v (ix3 0 t d) :=
  shapeCast_1ab_ab_apply v shapeCasts_S1x1024x128_S1024x128 t d

/-- The old accumulator rescaled. -/
theorem pay13 (q k : Vec Ideal S1x1024x128 .bf16) (mo mo' : Vec Ideal S1024x1 .f32) (ao : Vec Ideal S1024x128 .f32)
    (r : Fin 1024) (d : Fin 128) :
    k1_pay13 (F := Ideal) q k mo mo' ao (ix2 r d) = k1_pay9 (F := Ideal) q k mo mo' (ix2 r 0) * ao (ix2 r d) := by
  show broadcastTo S1024x128 (k1_pay9 (F := Ideal) q k mo mo') broadcasts_S1024x1_S1024x128 (ix2 r d) * ao (ix2 r d) = _
  rw [broadcastTo_a1_ab_apply]

/-- The new accumulator at (r, d): `a` plus the sum over the key rows of the weights times the value rows. -/
theorem pay1 (p : FVec Ideal S1024x1024 .f32) (w : FVec Ideal S1024x128 .bf16) (a : FVec Ideal S1024x128 .f32)
    (r : Fin 1024) (d : Fin 128) :
    k1_pay1 (F := Ideal) p w a (ix2 r d) = a (ix2 r d) + ∑ t : Fin 1024, p (ix2 r t) * w (ix2 t d) := by
  show shapeCast S1024x128 (addf a (FloatOps.matmul dot_S1024x1024_S1024x128_S1024x128_1_0_0_1_n_n none (truncf .bf16 p bitsLt_bf16_f32) w
      (constant (F := Ideal) S1024x128 .f32 0x00000000#32))) shapeCasts_S1024x128_S1024x128 (ix2 r d) = _
  rw [shapeCast_self]
  show a (ix2 r d) + FloatOps.matmul dot_S1024x1024_S1024x128_S1024x128_1_0_0_1_n_n none (truncf .bf16 p bitsLt_bf16_f32) w
      (constant (F := Ideal) S1024x128 .f32 0x00000000#32) (ix2 r d) = _
  refine congrArg (_ + ·) ?_
  rw [Ideal.matmul_constant_zero_apply, ← Equiv.sum_comp (contrEquiv1 dot_S1024x1024_S1024x128_S1024x128_1_0_0_1_n_n 1024 rfl rfl).symm]
  refine Finset.sum_congr rfl fun t _ => ?_
  rw [pv_lhs, pv_rhs]
  rfl

/-- A cast to the same shape changes nothing. -/
theorem pay2 (x : FVec Ideal S1024x1 .f32) : k1_pay2 (F := Ideal) x = x :=
  shapeCast_self x shapeCasts_S1024x1_S1024x1

/-- The output at (0, r, d): the accumulator over the running sum of row r. -/
theorem pay3 (a : Vec Ideal S1024x128 .f32) (l : Vec Ideal S1024x1 .f32) (r : Fin 1024) (d : Fin 128) :
    k1_pay3 (F := Ideal) a l (ix3 0 r d) = Ideal.div (a (ix2 r d)) (l (ix2 r 0)) := by
  show shapeCast S1x1024x128 (divf (F := Ideal) (φ := .f32) a
      (broadcastTo (α := EReal) S1024x128 l broadcasts_S1024x1_S1024x128))
      shapeCasts_S1024x128_S1x1024x128 (ix3 0 r d) = _
  rw [shapeCast_ab_1ab_apply]
  show Ideal.div (a (ix2 r d)) (broadcastTo (α := EReal) S1024x128 l broadcasts_S1024x1_S1024x128 (ix2 r d)) = _
  rw [broadcastTo_a1_ab_apply]

/-- The running maximum starts at -∞. -/
theorem pay4_apply (i : S1024x1.Idx) : (k1_pay4 (F := Ideal) : FVec Ideal S1024x1 .f32) i = (⊥ : EReal) := by
  show shapeCast S1024x1 (broadcast S1024x1 (Scalar.ofBits (F := Ideal) .f32 0xFF800000#32)) shapeCasts_S1024x1_S1024x1 i = _
  rw [shapeCast_self]
  exact negInf_word
theorem pay4 (r : Fin 1024) : (k1_pay4 (F := Ideal) : FVec Ideal S1024x1 .f32) (ix2 r 0) = (⊥ : EReal) := pay4_apply _

/-- The running sum starts at 0. -/
theorem pay5_apply (i : S1024x1.Idx) : (k1_pay5 (F := Ideal) : FVec Ideal S1024x1 .f32) i = (0 : EReal) := by
  show shapeCast S1024x1 (broadcast S1024x1 (Scalar.ofBits (F := Ideal) .f32 0x00000000#32)) shapeCasts_S1024x1_S1024x1 i = _
  rw [shapeCast_self]
  exact Ideal.ofBits_zero_f32
theorem pay5 (r : Fin 1024) : (k1_pay5 (F := Ideal) : FVec Ideal S1024x1 .f32) (ix2 r 0) = (0 : EReal) := pay5_apply _

/-- The accumulator starts at 0. -/
theorem pay6_apply (i : S1024x128.Idx) : (k1_pay6 (F := Ideal) : FVec Ideal S1024x128 .f32) i = (0 : EReal) := by
  show shapeCast S1024x128 (broadcast S1024x128 (Scalar.ofBits (F := Ideal) .f32 0x00000000#32)) shapeCasts_S1024x128_S1024x128 i = _
  rw [shapeCast_self]
  exact Ideal.ofBits_zero_f32
theorem pay6 (r : Fin 1024) (d : Fin 128) : (k1_pay6 (F := Ideal) : FVec Ideal S1024x128 .f32) (ix2 r d) = (0 : EReal) := pay6_apply _

end Cert.KernelIdeal.Hand

end
-- ==== Proof.LibERealFinite.lean ====
/-
  Finite extended reals.

  An extended real is *real* when it is the coercion of a real number, that is, neither +∞ nor -∞.
  The algebraic laws that fail at the infinities (distributivity, cancelling, moving a factor across
  a sum) hold for real extended reals, so a proof that needs them first shows that every value it
  handles is real.  This file has the coercion of a finite sum, the closure of the real extended
  reals under the arithmetic operations (sum, difference, product, finite sums and products, maximum,
  minimum, the rectifier max(x, 0), a quotient by a nonzero real, the exponential), and the facts
  about a maximum taken as a fold of max from -∞ over a nonempty finite set: it is attained, it bounds
  every entry, and it is real when every entry is.  It also has distributivity on real extended
  reals (x · (y + z) = x · y + x · z, x · Σ_i f i = Σ_i x · f i), and the softmax denominator:
  for real x_l over a nonempty finite index set, Σ_l exp(x_l - max_j x_j) is a real ≥ 1, hence not 0;
  and the way in: an x with |x| < +∞ (as the float comparison decides it) is real, as are integer
  conversions and contractions of reals.
-/
import Idealize.ShloMosaic.PureOps.Ideal

namespace Idealize.ShloMosaic.LibERealLaws

open scoped BigOperators

/-! ### The coercion of a finite sum -/

/-- The coercion ℝ → [-∞, +∞] commutes with finite sums:
    the extended real of Σ_{i ∈ s} f i is Σ_{i ∈ s} of the extended reals of the f i. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → [-∞, +∞] commutes with finite products:
    the extended real of Π_{i ∈ s} f i is Π_{i ∈ s} of the extended reals of the f i. -/
theorem coe_finset_prod {ι : Type*} (s : Finset ι) (f : ι → ℝ) :
    ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-! ### Real extended reals -/

/-- IsReal x: the extended real x is the coercion of a real number (it is neither +∞ nor -∞). -/
def IsReal (x : EReal) : Prop := ∃ r : ℝ, x = (r : EReal)

/-- The coercion of a real number is real. -/
theorem isReal_coe (r : ℝ) : IsReal (r : EReal) := ⟨r, rfl⟩

/-- 0 is real. -/
theorem isReal_zero : IsReal 0 := ⟨0, rfl⟩

/-- 1 is real. -/
theorem isReal_one : IsReal 1 := ⟨1, rfl⟩

/-- An integer, read as a real and then as an extended real, is real. -/
theorem isReal_intCast (z : ℤ) : IsReal (((z : ℝ)) : EReal) := ⟨z, rfl⟩

/-- A natural number, read as a real and then as an extended real, is real. -/
theorem isReal_natCast (n : ℕ) : IsReal (((n : ℝ)) : EReal) := ⟨n, rfl⟩

namespace IsReal

variable {x y : EReal}

/-- A real extended real is not +∞. -/
theorem ne_top (hx : IsReal x) : x ≠ ⊤ := by
  obtain ⟨r, rfl⟩ := hx; exact EReal.coe_ne_top r

/-- A real extended real is not -∞. -/
theorem ne_bot (hx : IsReal x) : x ≠ ⊥ := by
  obtain ⟨r, rfl⟩ := hx; exact EReal.coe_ne_bot r

/-- A real extended real is the coercion of its real part: x = ↑(toReal x). -/
theorem coe_toReal (hx : IsReal x) : ((x.toReal : ℝ) : EReal) = x :=
  EReal.coe_toReal hx.ne_top hx.ne_bot

/-- The sum of two real extended reals is real. -/
theorem add (hx : IsReal x) (hy : IsReal y) : IsReal (x + y) := by
  obtain ⟨a, rfl⟩ := hx; obtain ⟨b, rfl⟩ := hy
  exact ⟨a + b, (EReal.coe_add a b).symm⟩

/-- The negative of a real extended real is real. -/
theorem neg (hx : IsReal x) : IsReal (-x) := by
  obtain ⟨a, rfl⟩ := hx
  exact ⟨-a, (EReal.coe_neg a).symm⟩

/-- The difference of two real extended reals is real. -/
theorem sub (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem mul (hx : IsReal x) (hy : IsReal y) : IsReal (x * y) := by
  obtain ⟨a, rfl⟩ := hx; obtain ⟨b, rfl⟩ := hy
  exact ⟨a * b, (EReal.coe_mul a b).symm⟩

/-- The maximum of two real extended reals is real. -/
theorem max (hx : IsReal x) (hy : IsReal y) : IsReal (max x y) := by
  rcases max_choice x y with h | h <;> rw [h] <;> assumption

/-- The minimum of two real extended reals is real. -/
theorem min (hx : IsReal x) (hy : IsReal y) : IsReal (min x y) := by
  rcases min_choice x y with h | h <;> rw [h] <;> assumption

/-- The rectifier max(x, 0) of a real extended real is real. -/
theorem relu (hx : IsReal x) : IsReal (Max.max x 0) := hx.max isReal_zero

/-- The rectifier of a real extended real is the coercion of the real rectifier:
    max(↑r, 0) = ↑(max(r, 0)). -/
theorem relu_coe (r : ℝ) : Max.max (r : EReal) 0 = ((Max.max r 0 : ℝ) : EReal) := by
  rw [← EReal.coe_zero]; exact (EReal.coe_strictMono.monotone.map_max).symm

/-- The absolute value max(x, -x) of a real extended real is real. -/
theorem abs (hx : IsReal x) : IsReal (Max.max x (-x)) := hx.max hx.neg

/-- A finite sum of real extended reals is real. -/
theorem sum {ι : Type*} {s : Finset ι} {f : ι → EReal} (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A sum over a whole finite index type of real extended reals is real. -/
theorem sum_univ {ι : Type*} [Fintype ι] {f : ι → EReal} (hf : ∀ i, IsReal (f i)) :
    IsReal (∑ i, f i) := sum fun i _ => hf i

/-- A finite product of real extended reals is real. -/
theorem prod {ι : Type*} {s : Finset ι} {f : ι → EReal} (hf : ∀ i ∈ s, IsReal (f i)) :
    IsReal (∏ i ∈ s, f i) := by
  classical
  induction s using Finset.induction_on with
  | empty => rw [Finset.prod_empty]; exact isReal_one
  | insert a s ha ih =>
    rw [Finset.prod_insert ha]
    exact (hf a (Finset.mem_insert_self a s)).mul (ih fun i hi => hf i (Finset.mem_insert_of_mem hi))

/-- A family of real extended reals is the coercion of a family of reals: if every f i is real
    there is g : ι → ℝ with f i = ↑(g i) for every i. -/
theorem exists_fun {ι : Type*} {f : ι → EReal} (hf : ∀ i, IsReal (f i)) :
    ∃ g : ι → ℝ, f = fun i => (g i : EReal) := by
  choose g hg using hf
  exact ⟨g, funext hg⟩

/-- The exponential of a real extended real (the exponential extended by exp(-∞) = 0,
    exp(+∞) = +∞) is the coercion of a positive real. -/
theorem exp_pos (hx : IsReal x) : ∃ r : ℝ, 0 < r ∧ Ideal.exp x = (r : EReal) := by
  obtain ⟨a, rfl⟩ := hx
  exact ⟨Real.exp a, Real.exp_pos a, Ideal.exp_coe a⟩

/-- The exponential of a real extended real is real. -/
theorem exp (hx : IsReal x) : IsReal (Ideal.exp x) := by
  obtain ⟨r, _, h⟩ := hx.exp_pos; exact ⟨r, h⟩

/-- The quotient of a real extended real by a nonzero real one is the real quotient:
    ↑a / ↑b = ↑(a / b) for b ≠ 0, division being the one that sends x / 0 to ±∞. -/
theorem div_coe (a : ℝ) {b : ℝ} (hb : b ≠ 0) :
    Ideal.div (a : EReal) (b : EReal) = ((a / b : ℝ) : EReal) := by
  rw [Ideal.div_coe hb, ← EReal.coe_mul, mul_one_div]

/-- The quotient of a real extended real by a nonzero real one is real. -/
theorem div (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe a hb⟩

/-- Multiplication distributes over addition on real extended reals: x · (y + z) = x · y + x · z.
    (It fails at the infinities: -1 · (+∞ + -∞) = +∞ but -1 · +∞ + -1 · -∞ = -∞.) -/
theorem mul_add {z : EReal} (hx : IsReal x) (hy : IsReal y) (hz : IsReal z) :
    x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, _root_.mul_add]

/-- Multiplication distributes over addition from the right on real extended reals:
    (x + y) · z = x · z + y · z. -/
theorem add_mul {z : EReal} (hx : IsReal x) (hy : IsReal y) (hz : IsReal z) :
    (x + y) * z = x * z + y * z := by
  rw [mul_comm, mul_add hz hx hy, mul_comm z x, mul_comm z y]

/-- A real factor moves into a finite sum of real extended reals: x · Σ_{i ∈ s} f i = Σ_{i ∈ s} x · f i. -/
theorem mul_sum {ι : Type*} {s : Finset ι} {f : ι → EReal} (hx : IsReal x)
    (hf : ∀ i ∈ s, IsReal (f i)) : x * ∑ i ∈ s, f i = ∑ i ∈ s, x * f i := by
  classical
  induction s using Finset.induction_on with
  | empty => rw [Finset.sum_empty, Finset.sum_empty, mul_zero]
  | insert a s ha ih =>
    have hs : ∀ i ∈ s, IsReal (f i) := fun i hi => hf i (Finset.mem_insert_of_mem hi)
    rw [Finset.sum_insert ha, Finset.sum_insert ha,
      mul_add hx (hf a (Finset.mem_insert_self a s)) (sum hs), ih hs]

/-- A real factor moves into a finite sum of real extended reals from the right:
    (Σ_{i ∈ s} f i) · x = Σ_{i ∈ s} f i · x. -/
theorem sum_mul {ι : Type*} {s : Finset ι} {f : ι → EReal} (hx : IsReal x)
    (hf : ∀ i ∈ s, IsReal (f i)) : (∑ i ∈ s, f i) * x = ∑ i ∈ s, f i * x := by
  rw [mul_comm, mul_sum hx hf]
  exact Finset.sum_congr rfl fun i _ => mul_comm _ _

end IsReal

/-- An extended real is real exactly when it is neither -∞ nor +∞. -/
theorem isReal_iff {x : EReal} : IsReal x ↔ x ≠ ⊥ ∧ x ≠ ⊤ :=
  ⟨fun h => ⟨h.ne_bot, h.ne_top⟩, fun h => ⟨x.toReal, (EReal.coe_toReal h.2 h.1).symm⟩⟩

/-! ### The maximum as a fold of max from -∞ -/

/-- The bit pattern 0xFF800000 of the 32-bit format denotes -∞, the value a maximum is folded from. -/
theorem ofBits_neg_inf_f32 : Ideal.ofBits .f32 0xFF800000#32 = ⊥ := by
  simp [Ideal.ofBits, Ideal.ieee]

/-- Every entry is below the maximum: f i ≤ max_{j ∈ s} f j (the fold of max from any start b). -/
theorem le_fold_max_of_mem {ι : Type*} {s : Finset ι} (b : EReal) (f : ι → EReal) {i : ι} (hi : i ∈ s) :
    f i ≤ s.fold Max.max b f :=
  (Finset.le_fold_max (f i)).mpr (Or.inr ⟨i, hi, le_rfl⟩)

/-- Over a nonempty finite set the maximum folded from -∞ is attained:
    max_{j ∈ s} f j = f i for some i ∈ s. -/
theorem exists_mem_fold_max_eq {ι : Type*} {s : Finset ι} (hs : s.Nonempty) (f : ι → EReal) :
    ∃ i ∈ s, s.fold Max.max ⊥ f = f i := by
  induction hs using Finset.Nonempty.cons_induction with
  | singleton a =>
    exact ⟨a, Finset.mem_singleton_self a, by rw [Finset.fold_singleton]; exact max_eq_left bot_le⟩
  | cons a s ha hs ih =>
    obtain ⟨i, hi, h⟩ := ih
    rw [Finset.fold_cons, h]
    rcases le_total (f a) (f i) with hle | hle
    · exact ⟨i, Finset.mem_cons.mpr (Or.inr hi), max_eq_right hle⟩
    · exact ⟨a, Finset.mem_cons_self a s, max_eq_left hle⟩

/-- Over a nonempty finite set the maximum, folded from -∞, of real extended reals is real. -/
theorem IsReal.fold_max {ι : Type*} {s : Finset ι} (hs : s.Nonempty) {f : ι → EReal}
    (hf : ∀ i ∈ s, IsReal (f i)) : IsReal (s.fold Max.max ⊥ f) := by
  obtain ⟨i, hi, h⟩ := exists_mem_fold_max_eq hs f
  rw [h]; exact hf i hi

/-- Over a nonempty finite index type the maximum, folded from -∞, of real extended reals is real. -/
theorem IsReal.fold_max_univ {ι : Type*} [Fintype ι] [Nonempty ι] {f : ι → EReal}
    (hf : ∀ i, IsReal (f i)) : IsReal ((Finset.univ : Finset ι).fold Max.max ⊥ f) :=
  IsReal.fold_max Finset.univ_nonempty fun i _ => hf i

/-- The bit pattern 0x0000 of the 16-bit brain format denotes 0, the value a rectifier compares with. -/
theorem ofBits_zero_bf16 : Ideal.ofBits .bf16 0x0000#16 = 0 := by
  simp [Ideal.ofBits, Ideal.ieee]

/-! ### Reality from the float finiteness test, and of integer conversions and contractions -/

/-- The bit pattern 0x7F800000 of the 32-bit format denotes +∞. -/
theorem ofBits_pos_inf_f32 : Ideal.ofBits .f32 0x7F800000#32 = ⊤ := by
  simp [Ideal.ofBits, Ideal.ieee]

/-- An extended real whose absolute value max(x, -x) is below +∞ is real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-- If the ordered less-than comparison of two extended reals answers true (the one-bit word 1),
    the first is below the second. -/
theorem lt_of_cmp_olt {a b : EReal} (h : Ideal.cmp .olt a b = 1#1) : a < b := by
  by_cases hlt : a < b
  · exact hlt
  · exfalso; simp [Ideal.cmp, hlt] at h

/-- The finiteness test |x| < +∞ as a float comparison: if the ordered less-than comparison of
    max(x, -x) with the value of the pattern 0x7F800000 (+∞) answers true, x is real. -/
theorem isReal_of_cmp_abs_lt_inf {x : EReal}
    (h : Ideal.cmp .olt (Max.max x (-x)) (Ideal.ofBits .f32 0x7F800000#32) = 1#1) : IsReal x := by
  rw [ofBits_pos_inf_f32] at h
  exact isReal_of_abs_lt_top (lt_of_cmp_olt h)

/-- A machine integer converted to a float, signed (its integer value read as a real), is real. -/
theorem isReal_sitofp {w : ℕ} (φ : FTy) (b : BitVec w) : IsReal (FloatOps.sitofp (F := Ideal) φ b) :=
  ⟨(b.toInt : ℝ), rfl⟩

/-- A machine integer converted to a float, unsigned (its natural value read as a real), is real. -/
theorem isReal_uitofp {w : ℕ} (φ : FTy) (b : BitVec w) : IsReal (FloatOps.uitofp (F := Ideal) φ b) :=
  ⟨(b.toNat : ℝ), rfl⟩

/-- A contraction Σ_k a_k · b_k of real extended reals over a finite index type is real. -/
theorem IsReal.dot {κ : Type*} [Fintype κ] {a b : κ → EReal} (ha : ∀ k, IsReal (a k))
    (hb : ∀ k, IsReal (b k)) : IsReal (∑ k, a k * b k) :=
  IsReal.sum_univ fun k => (ha k).mul (hb k)

/-- A contraction onto an accumulator, c + Σ_k a_k · b_k, of real extended reals is real. -/
theorem IsReal.add_dot {κ : Type*} [Fintype κ] {c : EReal} {a b : κ → EReal} (hc : IsReal c)
    (ha : ∀ k, IsReal (a k)) (hb : ∀ k, IsReal (b k)) : IsReal (c + ∑ k, a k * b k) :=
  hc.add (IsReal.dot ha hb)

/-! ### The softmax denominator -/

/-- The softmax denominator over a nonempty finite set.  For real x_l (l ∈ t) and m = max_{l ∈ t} x_l
    (folded from -∞), the sum Σ_{l ∈ t} exp(x_l - m) is the coercion of a real s ≥ 1: every term is a
    positive real and the term at an index where the maximum is attained is exp 0 = 1. -/
theorem exists_softmax_denominator_finset {ι : Type*} {t : Finset ι} (ht : t.Nonempty) {x : ι → EReal}
    (hx : ∀ l ∈ t, IsReal (x l)) :
    ∃ s : ℝ, 1 ≤ s ∧ ∑ l ∈ t, Ideal.exp (x l - t.fold Max.max ⊥ x) = (s : EReal) := by
  obtain ⟨i0, hi0, hm⟩ := exists_mem_fold_max_eq ht x
  rw [hm]
  refine ⟨∑ l ∈ t, Real.exp ((x l).toReal - (x i0).toReal), ?_, ?_⟩
  · calc (1 : ℝ) = Real.exp ((x i0).toReal - (x i0).toReal) := by rw [sub_self, Real.exp_zero]
      _ ≤ ∑ l ∈ t, Real.exp ((x l).toReal - (x i0).toReal) :=
        Finset.single_le_sum (f := fun l => Real.exp ((x l).toReal - (x i0).toReal))
          (fun l _ => (Real.exp_pos _).le) hi0
  · rw [coe_finset_sum]
    refine Finset.sum_congr rfl fun l hl => ?_
    obtain ⟨a, ha⟩ := hx l hl
    obtain ⟨b, hb⟩ := hx i0 hi0
    rw [ha, hb, ← EReal.coe_sub, Ideal.exp_coe]
    simp only [EReal.toReal_coe]

/-- The softmax denominator over a nonempty finite index type.  For real x_l and m = max_l x_l (folded
    from -∞), Σ_l exp(x_l - m) is the coercion of a real s ≥ 1; in particular it is real and not 0. -/
theorem exists_softmax_denominator {ι : Type*} [Fintype ι] [Nonempty ι] {x : ι → EReal}
    (hx : ∀ l, IsReal (x l)) :
    ∃ s : ℝ, 1 ≤ s ∧ ∑ l, Ideal.exp (x l - (Finset.univ : Finset ι).fold Max.max ⊥ x) = (s : EReal) :=
  exists_softmax_denominator_finset Finset.univ_nonempty fun l _ => hx l

/-- The softmax denominator is real: for real x_l over a nonempty finite index type,
    Σ_l exp(x_l - max_j x_j) is real. -/
theorem isReal_softmax_denominator {ι : Type*} [Fintype ι] [Nonempty ι] {x : ι → EReal}
    (hx : ∀ l, IsReal (x l)) :
    IsReal (∑ l, Ideal.exp (x l - (Finset.univ : Finset ι).fold Max.max ⊥ x)) := by
  obtain ⟨s, _, h⟩ := exists_softmax_denominator hx; exact ⟨s, h⟩

/-- The softmax denominator is not 0: for real x_l over a nonempty finite index type,
    Σ_l exp(x_l - max_j x_j) ≥ 1 > 0. -/
theorem softmax_denominator_ne_zero {ι : Type*} [Fintype ι] [Nonempty ι] {x : ι → EReal}
    (hx : ∀ l, IsReal (x l)) :
    ∑ l, Ideal.exp (x l - (Finset.univ : Finset ι).fold Max.max ⊥ x) ≠ 0 := by
  obtain ⟨s, hs, h⟩ := exists_softmax_denominator hx
  rw [h]
  exact EReal.coe_ne_zero.mpr (ne_of_gt (lt_of_lt_of_le one_pos hs))

end Idealize.ShloMosaic.LibERealLaws
-- ==== Proof.OnlineSoftmax.lean ====
/-
  The online softmax over two key tiles.

  A row of 2048 scores is cut into two tiles of 1024.  A pass over the tiles keeps a running maximum m,
  a running normalizer l and a running weighted sum a:
      m₁ = max of tile 1,           l₁ = Σ exp(z - m₁) over tile 1,          a₁ = Σ exp(z - m₁) · v over tile 1,
      m₂ = max(m₁, max of tile 2),  l₂ = exp(m₁ - m₂) · l₁ + Σ exp(z - m₂) over tile 2,
                                    a₂ = exp(m₁ - m₂) · a₁ + Σ exp(z - m₂) · v over tile 2,
  and answers a₂ / l₂.  For real scores and values this is the softmax-weighted sum of the whole row:
  m₂ is the maximum M of the whole row, exp(m₁ - M) · exp(z - m₁) = exp(z - M), so a₂ = Σ exp(z - M) · v and
  l₂ = Σ exp(z - M) over all 2048 entries, and l₂ > 0 because every exponential is positive.  The softmax
  weights exp(z - M) / Σ exp(z - M) times v sum to the same quotient, because division by a positive real
  distributes over a finite sum of reals.

  The pass starts from m = -∞, l = 0, a = 0; the first update from that state leaves just the tile's own sums.

  A linear layer and a dot-product score of real inputs are real.
-/
import proofs.«134215_j31799937859875_2_alg».proof.Proof.Spec
import proofs.«134215_j31799937859875_2_alg».proof.Proof.LibERealFinite

noncomputable section

namespace Attn

open Idealize.ShloMosaic Idealize.ShloMosaic.LibERealLaws

/-! ### A row of 2048 as two tiles of 1024 -/

/-- The row of 2048 entries whose first 1024 entries are f1 and whose last 1024 entries are f2. -/
def tiles {α : Type*} (f1 f2 : Fin 1024 → α) (t : Fin 2048) : α :=
  if h : t.val < 1024 then f1 ⟨t.val, h⟩ else f2 ⟨t.val - 1024, by omega⟩

/-- Entry t < 1024 of the glued row is entry t of the first tile. -/
theorem tiles_castAdd {α : Type*} (f1 f2 : Fin 1024 → α) (t : Fin 1024) :
    tiles f1 f2 (Fin.castAdd 1024 t) = f1 t := by
  have h : (Fin.castAdd 1024 t).val < 1024 := t.isLt
  rw [tiles, dif_pos h]
  rfl

/-- Entry 1024 + t of the glued row is entry t of the second tile. -/
theorem tiles_natAdd {α : Type*} (f1 f2 : Fin 1024 → α) (t : Fin 1024) :
    tiles f1 f2 (Fin.natAdd 1024 t) = f2 t := by
  have hv : (Fin.natAdd 1024 t).val = 1024 + t.val := Fin.coe_natAdd 1024 t
  have h : ¬ (Fin.natAdd 1024 t).val < 1024 := by omega
  rw [tiles, dif_neg h]
  congr 1
  apply Fin.ext
  show (Fin.natAdd 1024 t).val - 1024 = t.val
  omega

/-- Gluing commutes with applying a function entrywise. -/
theorem tiles_map {α β : Type*} (g : α → β) (f1 f2 : Fin 1024 → α) (t : Fin 2048) :
    tiles (fun i => g (f1 i)) (fun i => g (f2 i)) t = g (tiles f1 f2 t) := by
  unfold tiles
  split_ifs <;> rfl

/-- Gluing two real tiles and reading the result as extended reals is gluing their coercions. -/
theorem tiles_coe (f1 f2 : Fin 1024 → ℝ) :
    tiles (fun t => (f1 t : EReal)) (fun t => (f2 t : EReal))
      = fun t => ((tiles f1 f2 t : ℝ) : EReal) := by
  funext t
  unfold tiles
  split_ifs <;> rfl

/-- Cutting a row of 2048 at 1024 and gluing the two pieces gives the row back. -/
theorem tiles_eta {α : Type*} (f : Fin 2048 → α) :
    tiles (fun t : Fin 1024 => f ⟨t.val, by omega⟩) (fun t : Fin 1024 => f ⟨t.val + 1024, by omega⟩) = f := by
  funext t
  unfold tiles
  split_ifs with h
  · rfl
  · show f ⟨t.val - 1024 + 1024, _⟩ = f t
    congr 1
    apply Fin.ext
    show t.val - 1024 + 1024 = t.val
    omega

/-- A sum over 2048 entries is the sum over the first 1024 plus the sum over the last 1024. -/
theorem sum_two_tiles {β : Type*} [AddCommMonoid β] (g : Fin 2048 → β) :
    ∑ t, g t = ∑ t : Fin 1024, g (Fin.castAdd 1024 t) + ∑ t : Fin 1024, g (Fin.natAdd 1024 t) :=
  Fin.sum_univ_add (a := 1024) (b := 1024) g

/-- A sum over a glued row is the sum over the first tile plus the sum over the second tile. -/
theorem sum_tiles {α β : Type*} [AddCommMonoid β] (f1 f2 : Fin 1024 → α) (g : α → β) :
    ∑ t, g (tiles f1 f2 t) = ∑ t, g (f1 t) + ∑ t, g (f2 t) := by
  rw [sum_two_tiles]
  simp only [tiles_castAdd, tiles_natAdd]

/-- The maximum of a glued row is the larger of the two tiles' maxima. -/
theorem rowMax_tiles (f1 f2 : Fin 1024 → EReal) :
    rowMax (tiles f1 f2) = max (rowMax f1) (rowMax f2) := by
  unfold rowMax
  apply le_antisymm
  · apply Finset.sup_le
    intro t _
    by_cases h : t.val < 1024
    · have ht : tiles f1 f2 t = f1 ⟨t.val, h⟩ := by rw [tiles, dif_pos h]
      rw [ht]
      exact le_max_of_le_left (Finset.le_sup (f := f1) (Finset.mem_univ _))
    · have ht : tiles f1 f2 t = f2 ⟨t.val - 1024, by omega⟩ := by rw [tiles, dif_neg h]
      rw [ht]
      exact le_max_of_le_right (Finset.le_sup (f := f2) (Finset.mem_univ _))
  · apply max_le
    · apply Finset.sup_le
      intro t _
      rw [← tiles_castAdd f1 f2 t]
      exact Finset.le_sup (f := tiles f1 f2) (Finset.mem_univ _)
    · apply Finset.sup_le
      intro t _
      rw [← tiles_natAdd f1 f2 t]
      exact Finset.le_sup (f := tiles f1 f2) (Finset.mem_univ _)

/-! ### Real rows -/

/-- The maximum of a nonempty row of reals, taken in the extended reals, is a real (it is attained). -/
theorem rowMax_coe_real {n : ℕ} (hn : 0 < n) (z : Fin n → ℝ) :
    ∃ r : ℝ, rowMax (fun t => (z t : EReal)) = (r : EReal) := by
  have hne : (Finset.univ : Finset (Fin n)).Nonempty := ⟨⟨0, hn⟩, Finset.mem_univ _⟩
  obtain ⟨i, _, h⟩ := Finset.exists_mem_eq_sup Finset.univ hne (fun t => (z t : EReal))
  exact ⟨z i, h⟩

/-- exp(a - b) for reals a, b, computed in the extended reals, is the real exponential. -/
theorem exp_coe_sub_coe (a b : ℝ) :
    Ideal.exp ((a : EReal) - (b : EReal)) = ((Real.exp (a - b) : ℝ) : EReal) := by
  rw [← EReal.coe_sub]
  rfl

/-- The softmax-weighted sum of a nonempty real row with maximum M is the real quotient
    (Σ exp(z - M) · v) / (Σ exp(z - M)). -/
theorem softmax_sum_real {n : ℕ} (hn : 0 < n) (z v : Fin n → ℝ) (M : ℝ)
    (hM : rowMax (fun t => (z t : EReal)) = (M : EReal)) :
    ∑ t, weight (fun t => (z t : EReal)) t * (v t : EReal)
      = (((∑ t, Real.exp (z t - M) * v t) / (∑ t, Real.exp (z t - M)) : ℝ) : EReal) := by
  have hne : (Finset.univ : Finset (Fin n)).Nonempty := ⟨⟨0, hn⟩, Finset.mem_univ _⟩
  have hpos : 0 < ∑ t, Real.exp (z t - M) := Finset.sum_pos (fun t _ => Real.exp_pos _) hne
  have hden : rowDen (fun t => (z t : EReal)) = ((∑ t, Real.exp (z t - M) : ℝ) : EReal) := by
    unfold rowDen
    rw [hM, coe_finset_sum]
    exact Finset.sum_congr rfl fun t _ => exp_coe_sub_coe _ _
  have hw : ∀ t, weight (fun t => (z t : EReal)) t * (v t : EReal)
      = ((Real.exp (z t - M) * v t / (∑ t, Real.exp (z t - M)) : ℝ) : EReal) := by
    intro t
    unfold weight
    rw [hden, hM, exp_coe_sub_coe, IsReal.div_coe _ hpos.ne', ← EReal.coe_mul]
    congr 1
    ring
  rw [Finset.sum_congr rfl fun t _ => hw t, ← coe_finset_sum, Finset.sum_div]

/-! ### Two tiles -/

/-- The online softmax over two tiles of a real row answers the softmax-weighted sum of the whole row.
    The running quantities are named by equations, so that the statement applies to any expressions equal to them. -/
theorem flash_two_tiles_of_eq (z1 z2 v1 v2 : Fin 1024 → ℝ) {m1 l1 a1 m2 l2 a2 : EReal}
    (hm1 : m1 = rowMax (fun t => (z1 t : EReal)))
    (hl1 : l1 = ∑ t, Ideal.exp ((z1 t : EReal) - m1))
    (ha1 : a1 = ∑ t, Ideal.exp ((z1 t : EReal) - m1) * (v1 t : EReal))
    (hm2 : m2 = max m1 (rowMax (fun t => (z2 t : EReal))))
    (hl2 : l2 = Ideal.exp (m1 - m2) * l1 + ∑ t, Ideal.exp ((z2 t : EReal) - m2))
    (ha2 : a2 = Ideal.exp (m1 - m2) * a1 + ∑ t, Ideal.exp ((z2 t : EReal) - m2) * (v2 t : EReal)) :
    Ideal.div a2 l2
      = ∑ t : Fin 2048, weight (tiles (fun t => (z1 t : EReal)) (fun t => (z2 t : EReal))) t
          * tiles (fun t => (v1 t : EReal)) (fun t => (v2 t : EReal)) t := by
  obtain ⟨r1, hr1⟩ := rowMax_coe_real (by norm_num) z1
  obtain ⟨rB, hrB⟩ := rowMax_coe_real (by norm_num) z2
  have hmax : max (r1 : EReal) (rB : EReal) = ((max r1 rB : ℝ) : EReal) :=
    (EReal.coe_strictMono.monotone.map_max).symm
  have hm1' : m1 = (r1 : EReal) := hm1.trans hr1
  have hm2' : m2 = ((max r1 rB : ℝ) : EReal) := by rw [hm2, hm1', hrB, hmax]
  -- the running quantities are coercions of real sums
  have hl1' : l1 = ((∑ t, Real.exp (z1 t - r1) : ℝ) : EReal) := by
    rw [hl1, hm1', coe_finset_sum]
    exact Finset.sum_congr rfl fun t _ => exp_coe_sub_coe _ _
  have ha1' : a1 = ((∑ t, Real.exp (z1 t - r1) * v1 t : ℝ) : EReal) := by
    rw [ha1, hm1', coe_finset_sum]
    exact Finset.sum_congr rfl fun t _ => by rw [exp_coe_sub_coe, ← EReal.coe_mul]
  have hs2 : ∑ t, Ideal.exp ((z2 t : EReal) - m2) = ((∑ t, Real.exp (z2 t - max r1 rB) : ℝ) : EReal) := by
    rw [hm2', coe_finset_sum]
    exact Finset.sum_congr rfl fun t _ => exp_coe_sub_coe _ _
  have hb2 : ∑ t, Ideal.exp ((z2 t : EReal) - m2) * (v2 t : EReal)
      = ((∑ t, Real.exp (z2 t - max r1 rB) * v2 t : ℝ) : EReal) := by
    rw [hm2', coe_finset_sum]
    exact Finset.sum_congr rfl fun t _ => by rw [exp_coe_sub_coe, ← EReal.coe_mul]
  have hα : Ideal.exp (m1 - m2) = ((Real.exp (r1 - max r1 rB) : ℝ) : EReal) := by
    rw [hm1', hm2', exp_coe_sub_coe]
  have hl2' : l2 = ((Real.exp (r1 - max r1 rB) * (∑ t, Real.exp (z1 t - r1))
      + ∑ t, Real.exp (z2 t - max r1 rB) : ℝ) : EReal) := by
    rw [hl2, hα, hl1', hs2, ← EReal.coe_mul, ← EReal.coe_add]
  have ha2' : a2 = ((Real.exp (r1 - max r1 rB) * (∑ t, Real.exp (z1 t - r1) * v1 t)
      + ∑ t, Real.exp (z2 t - max r1 rB) * v2 t : ℝ) : EReal) := by
    rw [ha2, hα, ha1', hb2, ← EReal.coe_mul, ← EReal.coe_add]
  -- the normalizer is positive
  have hLpos : 0 < Real.exp (r1 - max r1 rB) * (∑ t, Real.exp (z1 t - r1))
      + ∑ t, Real.exp (z2 t - max r1 rB) := by
    have h1 : 0 ≤ Real.exp (r1 - max r1 rB) * (∑ t : Fin 1024, Real.exp (z1 t - r1)) :=
      mul_nonneg (Real.exp_pos _).le (Finset.sum_nonneg fun t _ => (Real.exp_pos _).le)
    have h2 : 0 < ∑ t : Fin 1024, Real.exp (z2 t - max r1 rB) :=
      Finset.sum_pos (fun t _ => Real.exp_pos _) ⟨⟨0, by norm_num⟩, Finset.mem_univ _⟩
    linarith
  -- the whole row: its maximum is max r1 rB
  have hrow : rowMax (fun t => ((tiles z1 z2 t : ℝ) : EReal)) = ((max r1 rB : ℝ) : EReal) := by
    rw [← tiles_coe, rowMax_tiles, hr1, hrB, hmax]
  rw [ha2', hl2', IsReal.div_coe _ hLpos.ne', tiles_coe z1 z2, tiles_coe v1 v2,
    softmax_sum_real (by norm_num) (tiles z1 z2) (tiles v1 v2) (max r1 rB) hrow]
  -- both sides are real quotients with equal numerators and equal denominators
  have hshift : ∀ z : ℝ, Real.exp (r1 - max r1 rB) * Real.exp (z - r1) = Real.exp (z - max r1 rB) := by
    intro z
    have hz : r1 - max r1 rB + (z - r1) = z - max r1 rB := by ring
    rw [← Real.exp_add, hz]
  have hnum : Real.exp (r1 - max r1 rB) * (∑ t, Real.exp (z1 t - r1) * v1 t)
      + ∑ t, Real.exp (z2 t - max r1 rB) * v2 t
      = ∑ t, Real.exp (tiles z1 z2 t - max r1 rB) * tiles v1 v2 t := by
    have h1 : Real.exp (r1 - max r1 rB) * (∑ t, Real.exp (z1 t - r1) * v1 t)
        = ∑ t, Real.exp (z1 t - max r1 rB) * v1 t := by
      rw [Finset.mul_sum]
      exact Finset.sum_congr rfl fun t _ => by rw [← mul_assoc, hshift]
    rw [h1, sum_two_tiles]
    simp only [tiles_castAdd, tiles_natAdd]
  have hdenom : Real.exp (r1 - max r1 rB) * (∑ t, Real.exp (z1 t - r1))
      + ∑ t, Real.exp (z2 t - max r1 rB)
      = ∑ t, Real.exp (tiles z1 z2 t - max r1 rB) := by
    have h1 : Real.exp (r1 - max r1 rB) * (∑ t, Real.exp (z1 t - r1))
        = ∑ t, Real.exp (z1 t - max r1 rB) := by
      rw [Finset.mul_sum]
      exact Finset.sum_congr rfl fun t _ => hshift _
    rw [h1, sum_two_tiles]
    simp only [tiles_castAdd, tiles_natAdd]
  rw [hnum, hdenom]

/-- The online softmax over two tiles of a real row, written out: with
      m₁ = max of tile 1, m₂ = max(m₁, max of tile 2),
      l₂ = exp(m₁ - m₂) · Σ₁ exp(z - m₁) + Σ₂ exp(z - m₂),
      a₂ = exp(m₁ - m₂) · Σ₁ exp(z - m₁) · v + Σ₂ exp(z - m₂) · v,
    a₂ / l₂ is the softmax-weighted sum of the whole row. -/
theorem flash_two_tiles (z1 z2 v1 v2 : Fin 1024 → ℝ) :
    Ideal.div
      (Ideal.exp (rowMax (fun t => (z1 t : EReal))
            - max (rowMax (fun t => (z1 t : EReal))) (rowMax (fun t => (z2 t : EReal))))
          * (∑ t, Ideal.exp ((z1 t : EReal) - rowMax (fun t => (z1 t : EReal))) * (v1 t : EReal))
        + ∑ t, Ideal.exp ((z2 t : EReal)
            - max (rowMax (fun t => (z1 t : EReal))) (rowMax (fun t => (z2 t : EReal)))) * (v2 t : EReal))
      (Ideal.exp (rowMax (fun t => (z1 t : EReal))
            - max (rowMax (fun t => (z1 t : EReal))) (rowMax (fun t => (z2 t : EReal))))
          * (∑ t, Ideal.exp ((z1 t : EReal) - rowMax (fun t => (z1 t : EReal))))
        + ∑ t, Ideal.exp ((z2 t : EReal)
            - max (rowMax (fun t => (z1 t : EReal))) (rowMax (fun t => (z2 t : EReal)))))
      = ∑ t : Fin 2048, weight (tiles (fun t => (z1 t : EReal)) (fun t => (z2 t : EReal))) t
          * tiles (fun t => (v1 t : EReal)) (fun t => (v2 t : EReal)) t :=
  flash_two_tiles_of_eq z1 z2 v1 v2 rfl rfl rfl rfl rfl rfl

/-! ### The first tile starts from m = -∞, l = 0, a = 0 -/

/-- exp(-∞ - y) = 0 for every y. -/
theorem exp_bot_sub (y : EReal) : Ideal.exp (⊥ - y) = 0 := by
  rw [EReal.bot_sub]
  rfl

/-- From l = 0 (or a = 0) the first update leaves just the tile's own sum: exp(-∞ - m₁) · 0 + y = y. -/
theorem first_tile_l (m1 : ℝ) (y : EReal) : Ideal.exp (⊥ - (m1 : EReal)) * 0 + y = y := by
  rw [mul_zero, zero_add]

/-- The same for any factor in front of the 0. -/
theorem mul_zero_add (c y : EReal) : c * 0 + y = y := by
  rw [mul_zero, zero_add]

/-- From m = -∞ the first running maximum is the tile's own maximum: max(-∞, y) = y. -/
theorem first_tile_max (y : EReal) : max ⊥ y = y := max_bot_left y

/-! ### Real inputs give real projections and real scores -/

/-- A linear layer of real inputs, real weights and a real bias is real. -/
theorem proj_real {x : Fin 8 → Fin 2048 → Fin 1024 → EReal} {W : Fin 128 → Fin 1024 → EReal}
    {β : Fin 128 → EReal}
    (hx : ∀ b s i, ∃ r : ℝ, x b s i = (r : EReal)) (hW : ∀ d i, ∃ r : ℝ, W d i = (r : EReal))
    (hβ : ∀ d, ∃ r : ℝ, β d = (r : EReal)) (b : Fin 8) (s : Fin 2048) (d : Fin 128) :
    ∃ r : ℝ, proj x W β b s d = (r : EReal) :=
  IsReal.add (IsReal.sum_univ fun i => IsReal.mul (hx b s i) (hW d i)) (hβ d)

/-- A linear layer of real inputs is, as a whole, the coercion of a real array. -/
theorem proj_real_fun {x : Fin 8 → Fin 2048 → Fin 1024 → EReal} {W : Fin 128 → Fin 1024 → EReal}
    {β : Fin 128 → EReal}
    (hx : ∀ b s i, ∃ r : ℝ, x b s i = (r : EReal)) (hW : ∀ d i, ∃ r : ℝ, W d i = (r : EReal))
    (hβ : ∀ d, ∃ r : ℝ, β d = (r : EReal)) :
    ∃ p : Fin 8 → Fin 2048 → Fin 128 → ℝ, ∀ b s d, proj x W β b s d = (p b s d : EReal) := by
  choose p hp using proj_real hx hW hβ
  exact ⟨p, hp⟩

/-- A dot-product score of real queries and real keys is real. -/
theorem score_real {q k : Fin 8 → Fin 2048 → Fin 128 → EReal}
    (hq : ∀ b s d, ∃ r : ℝ, q b s d = (r : EReal)) (hk : ∀ b s d, ∃ r : ℝ, k b s d = (r : EReal))
    (b : Fin 8) (s t : Fin 2048) : ∃ r : ℝ, score q k b s t = (r : EReal) :=
  IsReal.dot (fun d => hq b s d) (fun d => hk b t d)

/-- The scores of real queries and real keys are, as a whole, the coercion of a real array. -/
theorem score_real_fun {q k : Fin 8 → Fin 2048 → Fin 128 → EReal}
    (hq : ∀ b s d, ∃ r : ℝ, q b s d = (r : EReal)) (hk : ∀ b s d, ∃ r : ℝ, k b s d = (r : EReal)) :
    ∃ z : Fin 8 → Fin 2048 → Fin 2048 → ℝ, ∀ b s t, score q k b s t = (z b s t : EReal) := by
  choose z hz using score_real hq hk
  exact ⟨z, hz⟩

end Attn

end
-- ==== Proof.FlashAttend.lean ====
/-
  The online softmax as it is run on one query row, against the attention output.

  The 2048 keys are met in two tiles of 1024: the keys lo t = t and the keys hi t = 1024 + t.  The running maximum,
  normalizer and weighted sum start from -∞, 0 and 0; after the first tile they are that tile's own maximum and sums
  (max(-∞, y) = y and c · 0 + y = y), and after the second tile the quotient of the weighted sum by the normalizer is
  the softmax-weighted sum of the value rows over all 2048 keys.  The scores and the values are real because the
  queries, keys and values are, which is what lets the exponentials be rescaled and the quotient be distributed.
-/
import proofs.«134215_j31799937859875_2_alg».proof.Proof.OnlineSoftmax

noncomputable section

namespace Attn

open Idealize.ShloMosaic Idealize.ShloMosaic.LibERealLaws

/-- Key t of the first tile, as a key of the whole row. -/
abbrev lo (t : Fin 1024) : Fin 2048 := ⟨t.val, by omega⟩

/-- Key t of the second tile, as a key of the whole row: 1024 + t. -/
abbrev hi (t : Fin 1024) : Fin 2048 := ⟨t.val + 1024, by omega⟩

/-- Two tiles from the start state (-∞, 0, 0): the final quotient is the attention output of the row. -/
theorem flash_attend {q k v : Fin 8 → Fin 2048 → Fin 128 → EReal}
    (hq : ∀ b s d, ∃ r : ℝ, q b s d = (r : EReal)) (hk : ∀ b s d, ∃ r : ℝ, k b s d = (r : EReal))
    (hv : ∀ b s d, ∃ r : ℝ, v b s d = (r : EReal)) (b : Fin 8) (s : Fin 2048) (d : Fin 128)
    {m1 l1 a1 m2 l2 a2 : EReal}
    (hm1 : m1 = max ⊥ (rowMax fun t : Fin 1024 => score q k b s (lo t)))
    (hl1 : l1 = Ideal.exp (⊥ - m1) * 0 + ∑ t : Fin 1024, Ideal.exp (score q k b s (lo t) - m1))
    (ha1 : a1 = Ideal.exp (⊥ - m1) * 0 + ∑ t : Fin 1024, Ideal.exp (score q k b s (lo t) - m1) * v b (lo t) d)
    (hm2 : m2 = max m1 (rowMax fun t : Fin 1024 => score q k b s (hi t)))
    (hl2 : l2 = Ideal.exp (m1 - m2) * l1 + ∑ t : Fin 1024, Ideal.exp (score q k b s (hi t) - m2))
    (ha2 : a2 = Ideal.exp (m1 - m2) * a1 + ∑ t : Fin 1024, Ideal.exp (score q k b s (hi t) - m2) * v b (hi t) d) :
    Ideal.div a2 l2 = attend q k v b s d := by
  obtain ⟨z, hz⟩ := score_real_fun hq hk
  choose w hw using hv
  -- the first tile's update from (-∞, 0, 0), and the scores and values as coercions of reals
  rw [first_tile_max] at hm1
  rw [mul_zero_add] at hl1 ha1
  simp only [hz, hw] at hm1 hl1 ha1 hm2 hl2 ha2
  -- the two tiles glued are the row
  have hs : tiles (fun t : Fin 1024 => ((z b s (lo t) : ℝ) : EReal)) (fun t : Fin 1024 => ((z b s (hi t) : ℝ) : EReal))
      = score q k b s := by
    rw [show score q k b s = fun t => ((z b s t : ℝ) : EReal) from funext (hz b s)]
    exact tiles_eta (fun t => ((z b s t : ℝ) : EReal))
  have hvv : tiles (fun t : Fin 1024 => ((w b (lo t) d : ℝ) : EReal)) (fun t : Fin 1024 => ((w b (hi t) d : ℝ) : EReal))
      = fun t => v b t d := by
    rw [show (fun t => v b t d) = fun t => ((w b t d : ℝ) : EReal) from funext fun t => hw b t d]
    exact tiles_eta (fun t => ((w b t d : ℝ) : EReal))
  rw [flash_two_tiles_of_eq (fun t => z b s (lo t)) (fun t => z b s (hi t)) (fun t => w b (lo t) d)
    (fun t => w b (hi t) d) hm1 hl1 ha1 hm2 hl2 ha2, hs, hvv]
  rfl

end Attn

end
-- ==== Proof.AttnPoint.lean ====
/-
  One query row through the two key tiles. The blocks the body is called with hold rows of the query, key and value
  arrays; the first key tile starts the running maximum, running sum and accumulator from (least element, 0, 0), the
  last key tile rescales them by exp (old maximum - new maximum) and adds its own part, and the stored output is the
  accumulator divided by the running sum. Entry by entry this is the softmax-weighted sum of the value rows.
-/
import proofs.«134215_j31799937859875_2_alg».proof.Proof.AttnPayloads
import proofs.«134215_j31799937859875_2_alg».proof.Proof.FlashAttend

set_option maxRecDepth 16384

noncomputable section

namespace Cert.KernelIdeal.Hand

open Cert.KernelIdeal Cert.KernelIdeal.Gen
open Idealize.ShloMosaic Idealize.ShloMosaic.ValueIdx
open Attn (lo hi)

/-- The scratch contents a first key tile leaves, from its blocks. -/
abbrev m1v (q' k' : Vec Ideal S1x1024x128 .bf16) : FVec Ideal S1024x1 .f32 := k1_pay2 (k1_pay8 q' k' (k1_pay4 (F := Ideal)))
abbrev l1v (q' k' : Vec Ideal S1x1024x128 .bf16) : FVec Ideal S1024x1 .f32 :=
  k1_pay11 q' k' (k1_pay4 (F := Ideal)) (k1_pay4 (F := Ideal)) (k1_pay5 (F := Ideal))
abbrev a1v (q' k' v' : Vec Ideal S1x1024x128 .bf16) : FVec Ideal S1024x128 .f32 :=
  k1_pay1 (k1_pay10 q' k' (k1_pay4 (F := Ideal))) (k1_pay12 v') (k1_pay13 q' k' (k1_pay4 (F := Ideal)) (k1_pay4 (F := Ideal)) (k1_pay6 (F := Ideal)))

/-- What a last key tile stores, from its blocks and from what the first key tile before it left, is the attention
    output of the row: `b` the batch, `s` the query position, `r` its row inside the query tile, `d` the feature. -/
theorem flash_point (q' k' v' q k v : Vec Ideal S1x1024x128 .bf16)
    (Qf Kf Vf : Fin 8 → Fin 2048 → Fin 128 → EReal)
    (hQ : ∀ b s d, ∃ x : ℝ, Qf b s d = (x : EReal)) (hK : ∀ b s d, ∃ x : ℝ, Kf b s d = (x : EReal))
    (hV : ∀ b s d, ∃ x : ℝ, Vf b s d = (x : EReal))
    (b : Fin 8) (s : Fin 2048) (r : Fin 1024) (d : Fin 128)
    (hq' : ∀ e, q' (ix3 0 r e) = Qf b s e) (hq : ∀ e, q (ix3 0 r e) = Qf b s e)
    (hk' : ∀ t e, k' (ix3 0 t e) = Kf b (lo t) e) (hk : ∀ t e, k (ix3 0 t e) = Kf b (hi t) e)
    (hv' : ∀ t e, v' (ix3 0 t e) = Vf b (lo t) e) (hv : ∀ t e, v (ix3 0 t e) = Vf b (hi t) e) :
    k1_pay3 (k1_pay1 (k1_pay10 q k (m1v q' k')) (k1_pay12 v) (k1_pay13 q k (m1v q' k') (m1v q' k') (a1v q' k' v')))
        (k1_pay11 q k (m1v q' k') (m1v q' k') (l1v q' k')) (ix3 0 r d)
      = Attn.attend Qf Kf Vf b s d := by
  have e7' : ∀ t, k1_pay7 q' k' (ix2 r t) = Attn.score Qf Kf b s (lo t) := fun t => by
    rw [pay7]; unfold Attn.score; exact Finset.sum_congr rfl fun e _ => by rw [hq' e, hk' t e]
  have e7 : ∀ t, k1_pay7 q k (ix2 r t) = Attn.score Qf Kf b s (hi t) := fun t => by
    rw [pay7]; unfold Attn.score; exact Finset.sum_congr rfl fun e _ => by rw [hq e, hk t e]
  have hm1 : m1v q' k' (ix2 r 0) = max ⊥ (Attn.rowMax fun t : Fin 1024 => Attn.score Qf Kf b s (lo t)) := by
    show k1_pay2 (k1_pay8 q' k' (k1_pay4 (F := Ideal))) (ix2 r 0) = _
    rw [pay2, pay8, pay4]; simp only [e7']
  have e9' : k1_pay9 q' k' (k1_pay4 (F := Ideal)) (k1_pay4 (F := Ideal)) (ix2 r 0) = Ideal.exp (⊥ - m1v q' k' (ix2 r 0)) := by
    show _ = Ideal.exp (⊥ - k1_pay2 (k1_pay8 q' k' (k1_pay4 (F := Ideal))) (ix2 r 0))
    rw [pay9, pay4, pay2]
  have e10' : ∀ t, k1_pay10 q' k' (k1_pay4 (F := Ideal)) (ix2 r t) = Ideal.exp (Attn.score Qf Kf b s (lo t) - m1v q' k' (ix2 r 0)) := fun t => by
    show _ = Ideal.exp (_ - k1_pay2 (k1_pay8 q' k' (k1_pay4 (F := Ideal))) (ix2 r 0))
    rw [pay10, e7', pay2]
  have hl1 : l1v q' k' (ix2 r 0) = Ideal.exp (⊥ - m1v q' k' (ix2 r 0)) * 0
      + ∑ t : Fin 1024, Ideal.exp (Attn.score Qf Kf b s (lo t) - m1v q' k' (ix2 r 0)) := by
    show k1_pay11 q' k' (k1_pay4 (F := Ideal)) (k1_pay4 (F := Ideal)) (k1_pay5 (F := Ideal)) (ix2 r 0) = _
    rw [pay11, e9', pay5]; simp only [e10']
  have ha1 : a1v q' k' v' (ix2 r d) = Ideal.exp (⊥ - m1v q' k' (ix2 r 0)) * 0
      + ∑ t : Fin 1024, Ideal.exp (Attn.score Qf Kf b s (lo t) - m1v q' k' (ix2 r 0)) * Vf b (lo t) d := by
    show k1_pay1 (k1_pay10 q' k' (k1_pay4 (F := Ideal))) (k1_pay12 v') (k1_pay13 q' k' (k1_pay4 (F := Ideal)) (k1_pay4 (F := Ideal)) (k1_pay6 (F := Ideal))) (ix2 r d) = _
    rw [pay1, pay13, e9', pay6]; simp only [e10', pay12, hv']
  have hm2 : k1_pay8 q k (m1v q' k') (ix2 r 0) = max (m1v q' k' (ix2 r 0)) (Attn.rowMax fun t : Fin 1024 => Attn.score Qf Kf b s (hi t)) := by
    rw [pay8]; simp only [e7]
  have e9 : k1_pay9 q k (m1v q' k') (m1v q' k') (ix2 r 0) = Ideal.exp (m1v q' k' (ix2 r 0) - k1_pay8 q k (m1v q' k') (ix2 r 0)) := by
    rw [pay9]
  have e10 : ∀ t, k1_pay10 q k (m1v q' k') (ix2 r t) = Ideal.exp (Attn.score Qf Kf b s (hi t) - k1_pay8 q k (m1v q' k') (ix2 r 0)) := fun t => by
    rw [pay10, e7]
  have hl2 : k1_pay11 q k (m1v q' k') (m1v q' k') (l1v q' k') (ix2 r 0)
      = Ideal.exp (m1v q' k' (ix2 r 0) - k1_pay8 q k (m1v q' k') (ix2 r 0)) * l1v q' k' (ix2 r 0)
        + ∑ t : Fin 1024, Ideal.exp (Attn.score Qf Kf b s (hi t) - k1_pay8 q k (m1v q' k') (ix2 r 0)) := by
    rw [pay11, e9]; simp only [e10]
  have ha2 : k1_pay1 (k1_pay10 q k (m1v q' k')) (k1_pay12 v) (k1_pay13 q k (m1v q' k') (m1v q' k') (a1v q' k' v')) (ix2 r d)
      = Ideal.exp (m1v q' k' (ix2 r 0) - k1_pay8 q k (m1v q' k') (ix2 r 0)) * a1v q' k' v' (ix2 r d)
        + ∑ t : Fin 1024, Ideal.exp (Attn.score Qf Kf b s (hi t) - k1_pay8 q k (m1v q' k') (ix2 r 0)) * Vf b (hi t) d := by
    rw [pay1, pay13, e9]; simp only [e10, pay12, hv]
  rw [pay3]
  exact Attn.flash_attend hQ hK hV b s d hm1 hl1 ha1 hm2 hl2 ha2

end Cert.KernelIdeal.Hand

end
-- ==== Proof.AttnValue.lean ====
/-
  The attention call's output array after the run, entry by entry. The walk's position `t` is 4·batch + 2·(query
  tile) + (key tile). The query block at `t` holds rows 1024·(query tile) … of the query array of that batch, the key
  and value blocks rows 1024·(key tile) …; the output block is written back at the odd positions, where it holds, row by
  row, the softmax-weighted sum of the value rows; those blocks tile the output array.
-/
import proofs.«134215_j31799937859875_2_alg».proof.Proof.Gen.KernelIdeal.Launch
import proofs.«134215_j31799937859875_2_alg».proof.Proof.Gen.KernelIdeal.Skeleton
import proofs.«134215_j31799937859875_2_alg».proof.Proof.Gen.KernelIdeal.Points
import proofs.«134215_j31799937859875_2_alg».proof.Proof.AttnPieces
import proofs.«134215_j31799937859875_2_alg».proof.Proof.AttnPoint
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Attn (lo hi)

variable (V : (c : Dev nD) → (b : Ref sig .tc) → Buf (Elt Ideal) ((c : Thread nD τ).loc b))

/-- The query, key and value arrays the call is entered with, by coordinates. -/
abbrev Qf (c : Dev nD) : Fin 8 → Fin 2048 → Fin 128 → EReal := fun b s d => (V c main_v9_0 : S8x2048x128.Idx → EReal) (ix3 b s d)
abbrev Kf (c : Dev nD) : Fin 8 → Fin 2048 → Fin 128 → EReal := fun b s d => (V c main_v9_1 : S8x2048x128.Idx → EReal) (ix3 b s d)
abbrev Vf (c : Dev nD) : Fin 8 → Fin 2048 → Fin 128 → EReal := fun b s d => (V c main_v9_2 : S8x2048x128.Idx → EReal) (ix3 b s d)
/-- The attention output as a whole array. -/
abbrev Gattn (c : Dev nD) : S8x2048x128.Idx → EReal := fun i => Attn.attend (Qf V c) (Kf V c) (Vf V c) (i 0) (i 1) (i 2)

/-- The printed block index maps, decided over the grid. -/
theorem idx_facts1 : ∀ t : Fin cfg1.N,
    win1_0.index t (0 : Fin 3) = t.val / 4 ∧ win1_0.index t (1 : Fin 3) = (t.val / 2) % 2 ∧ win1_0.index t (2 : Fin 3) = 0
    ∧ win1_1.index t (0 : Fin 3) = t.val / 4 ∧ win1_1.index t (1 : Fin 3) = t.val % 2 ∧ win1_1.index t (2 : Fin 3) = 0
    ∧ win1_2.index t (0 : Fin 3) = t.val / 4 ∧ win1_2.index t (1 : Fin 3) = t.val % 2 ∧ win1_2.index t (2 : Fin 3) = 0
    ∧ win1_3.index t (0 : Fin 3) = t.val / 4 ∧ win1_3.index t (1 : Fin 3) = (t.val / 2) % 2 ∧ win1_3.index t (2 : Fin 3) = 0 :=
  (by decide +kernel : ∀ t : Fin grid1.N, _)

/-- The query block at `t` holds rows of the query array. -/
theorem iblk1_0_at (c : Dev nD) (t : Fin cfg1.N) (y : S1x1024x128.Idx) (b : Fin 8) (s : Fin 2048)
    (hb : b.val = t.val / 4) (hs : s.val = 1024 * ((t.val / 2) % 2) + (y 1).val) :
    (iblk1 V c 0 t : S1x1024x128.Idx → EReal) y = Qf V c b s (y 2) := by
  obtain ⟨e0, e1, e2, -⟩ := idx_facts1 t
  show (V c main_v9_0 : S8x2048x128.Idx → EReal) (((cfg1.win 0).blk t).view.emb y) = (V c main_v9_0 : S8x2048x128.Idx → EReal) (ix3 b s (y 2))
  refine congrArg _ ?_
  funext a; apply Fin.ext
  have h0 : (y 0).val < 1 := (y 0).isLt
  match a with
  | ⟨0, _⟩ => show win1_0.index t (0 : Fin 3) * 1 + 1 * (y 0).val = b.val; omega
  | ⟨1, _⟩ => show win1_0.index t (1 : Fin 3) * 1024 + 1 * (y 1).val = s.val; omega
  | ⟨2, _⟩ => show win1_0.index t (2 : Fin 3) * 128 + 1 * (y 2).val = (y 2).val; omega

/-- The key block at `t` holds rows of the key array. -/
theorem iblk1_1_at (c : Dev nD) (t : Fin cfg1.N) (y : S1x1024x128.Idx) (b : Fin 8) (s : Fin 2048)
    (hb : b.val = t.val / 4) (hs : s.val = 1024 * (t.val % 2) + (y 1).val) :
    (iblk1 V c 1 t : S1x1024x128.Idx → EReal) y = Kf V c b s (y 2) := by
  obtain ⟨-, -, -, e0, e1, e2, -⟩ := idx_facts1 t
  show (V c main_v9_1 : S8x2048x128.Idx → EReal) (((cfg1.win 1).blk t).view.emb y) = (V c main_v9_1 : S8x2048x128.Idx → EReal) (ix3 b s (y 2))
  refine congrArg _ ?_
  funext a; apply Fin.ext
  have h0 : (y 0).val < 1 := (y 0).isLt
  match a with
  | ⟨0, _⟩ => show win1_1.index t (0 : Fin 3) * 1 + 1 * (y 0).val = b.val; omega
  | ⟨1, _⟩ => show win1_1.index t (1 : Fin 3) * 1024 + 1 * (y 1).val = s.val; omega
  | ⟨2, _⟩ => show win1_1.index t (2 : Fin 3) * 128 + 1 * (y 2).val = (y 2).val; omega

/-- The value block at `t` holds rows of the value array. -/
theorem iblk1_2_at (c : Dev nD) (t : Fin cfg1.N) (y : S1x1024x128.Idx) (b : Fin 8) (s : Fin 2048)
    (hb : b.val = t.val / 4) (hs : s.val = 1024 * (t.val % 2) + (y 1).val) :
    (iblk1 V c 2 t : S1x1024x128.Idx → EReal) y = Vf V c b s (y 2) := by
  obtain ⟨-, -, -, -, -, -, e0, e1, e2, -⟩ := idx_facts1 t
  show (V c main_v9_2 : S8x2048x128.Idx → EReal) (((cfg1.win 2).blk t).view.emb y) = (V c main_v9_2 : S8x2048x128.Idx → EReal) (ix3 b s (y 2))
  refine congrArg _ ?_
  funext a; apply Fin.ext
  have h0 : (y 0).val < 1 := (y 0).isLt
  match a with
  | ⟨0, _⟩ => show win1_2.index t (0 : Fin 3) * 1 + 1 * (y 0).val = b.val; omega
  | ⟨1, _⟩ => show win1_2.index t (1 : Fin 3) * 1024 + 1 * (y 1).val = s.val; omega
  | ⟨2, _⟩ => show win1_2.index t (2 : Fin 3) * 128 + 1 * (y 2).val = (y 2).val; omega

variable (hQ : ∀ c b s d, ∃ x : ℝ, Qf V c b s d = (x : EReal)) (hK : ∀ c b s d, ∃ x : ℝ, Kf V c b s d = (x : EReal))
  (hV : ∀ c b s d, ∃ x : ℝ, Vf V c b s d = (x : EReal))

include hQ hK hV in
/-- What the output block's staging buffer holds after a LAST key tile: the attention output of its rows. -/
theorem out_at_last (c : Dev nD) (t : Fin cfg1.N) (h0 : ¬t.val % 2 = 0) (y : S1x1024x128.Idx) (b : Fin 8) (s : Fin 2048)
    (hb : b.val = t.val / 4) (hs : s.val = 1024 * ((t.val / 2) % 2) + (y 1).val) :
    ((outsAt1 V c t.val t.isLt).1 : S1x1024x128.Idx → EReal) y = Attn.attend (Qf V c) (Kf V c) (Vf V c) b s (y 2) := by
  have ht1 : t.val - 1 < cfg1.N := Nat.lt_of_le_of_lt (Nat.sub_le _ _) t.isLt
  have h0' : (⟨t.val - 1, ht1⟩ : Fin cfg1.N).val % 2 = 0 := by show (t.val - 1) % 2 = 0; omega
  have eA : outsAt1 V c (t.val - 1) (Nat.lt_of_le_of_lt (Nat.sub_le _ _) t.isLt) = caseA V c ⟨t.val - 1, ht1⟩ h0' :=
    outsAt1_A V c ⟨t.val - 1, ht1⟩ h0'
  rw [outsAt1_B V c t h0, eA]
  unfold caseB caseA; dsimp only
  rw [oB3, sA0, sA1, sA2]
  obtain ⟨p, r, d, rfl⟩ : ∃ (p : Fin 1) (r : Fin 1024) (d : Fin 128), y = ix3 p r d := ⟨y 0, y 1, y 2, eq_ix3 y⟩
  obtain rfl : p = 0 := Subsingleton.elim _ _
  have hr : (ix3 (0 : Fin 1) r d (1 : Fin 3)).val = r.val := rfl
  refine flash_point (iblk1 V c 0 ⟨t.val - 1, ht1⟩) (iblk1 V c 1 ⟨t.val - 1, ht1⟩) (iblk1 V c 2 ⟨t.val - 1, ht1⟩)
    (iblk1 V c 0 t) (iblk1 V c 1 t) (iblk1 V c 2 t) (Qf V c) (Kf V c) (Vf V c) (hQ c) (hK c) (hV c) b s r d ?_ ?_ ?_ ?_ ?_ ?_
  · intro e; exact iblk1_0_at V c ⟨t.val - 1, ht1⟩ (ix3 0 r e) b s (by show b.val = (t.val - 1) / 4; omega)
      (by show s.val = 1024 * (((t.val - 1) / 2) % 2) + r.val; rw [hr] at hs; omega)
  · intro e; exact iblk1_0_at V c t (ix3 0 r e) b s hb (by show s.val = 1024 * ((t.val / 2) % 2) + r.val; rw [hr] at hs; omega)
  · intro u e; exact iblk1_1_at V c ⟨t.val - 1, ht1⟩ (ix3 0 u e) b (lo u) (by show b.val = (t.val - 1) / 4; omega)
      (by show u.val = 1024 * ((t.val - 1) % 2) + u.val; omega)
  · intro u e; exact iblk1_1_at V c t (ix3 0 u e) b (hi u) hb (by show u.val + 1024 = 1024 * (t.val % 2) + u.val; omega)
  · intro u e; exact iblk1_2_at V c ⟨t.val - 1, ht1⟩ (ix3 0 u e) b (lo u) (by show b.val = (t.val - 1) / 4; omega)
      (by show u.val = 1024 * ((t.val - 1) % 2) + u.val; omega)
  · intro u e; exact iblk1_2_at V c t (ix3 0 u e) b (hi u) hb (by show u.val + 1024 = 1024 * (t.val % 2) + u.val; omega)

include hQ hK hV in
/-- What a point that writes the output block back writes is that block of the attention output. -/
theorem flushed1_eq (c : Dev nD) (t : Fin cfg1.N) (hf : (cfg1.win 3).flush t = true) :
    (dat1 V c).flushed 3 t = ((cfg1.win 3).blk t).view.read (Elt Ideal) (Gattn V c) := by
  have h1 : t.val % 2 = 1 := (flush1_3 t).mp hf
  obtain ⟨-, -, -, -, -, -, -, -, -, e0, e1, e2⟩ := idx_facts1 t
  show (cfg1.win 3).cut (grid1.coords t) ((dat1 V c).after 3 t) = _
  rw [after1_3]
  funext j
  have hj0 : (j 0).val < 1 := (j 0).isLt
  have hj1 : (j 1).val < 1024 := (j 1).isLt
  have hj2 : (j 2).val < 128 := (j 2).isLt
  show ((outsAt1 V c t.val t.isLt).1 : S1x1024x128.Idx → EReal) j = Gattn V c (((cfg1.win 3).blk t).view.emb j)
  have hN : t.val < 32 := lt_of_lt_of_eq t.isLt (show cfg1.N = 32 from N_1)
  rw [out_at_last V hQ hK hV c t (by omega) j ⟨t.val / 4, by omega⟩ ⟨1024 * ((t.val / 2) % 2) + (j 1).val, by omega⟩ rfl rfl]
  show Attn.attend _ _ _ _ _ _ = Attn.attend _ _ _ ((((cfg1.win 3).blk t).view.emb j) 0) ((((cfg1.win 3).blk t).view.emb j) 1) ((((cfg1.win 3).blk t).view.emb j) 2)
  congr 1
  · apply Fin.ext; show t.val / 4 = win1_3.index t (0 : Fin 3) * 1 + 1 * (j 0).val; omega
  · apply Fin.ext; show 1024 * ((t.val / 2) % 2) + (j 1).val = win1_3.index t (1 : Fin 3) * 1024 + 1 * (j 1).val; omega
  · apply Fin.ext; show (j 2).val = win1_3.index t (2 : Fin 3) * 128 + 1 * (j 2).val; omega

/-- An index of the output array is in point `t`'s block iff each coordinate is in the block's range on its axis. -/
theorem mem_blk3 (t : Fin cfg1.N) (i : S8x2048x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v10).slice (win1_3.rect t)).set ↔ _
  rw [View.set_slice_whole, Rect.mem_set_unit]
  exact Iff.rfl

/-- Every index of the output array is in the block of a point that writes it back: the last key tile of its batch
    and query tile. -/
theorem cover3 (i : S8x2048x128.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 128 := (i 2).isLt
  have hN : cfg1.N = 32 := N_1
  have ht : 4 * (i 0).val + 2 * ((i 1).val / 1024) + 1 < cfg1.N := by omega
  refine ⟨⟨4 * (i 0).val + 2 * ((i 1).val / 1024) + 1, ht⟩, ?_, ?_⟩
  · exact (flush1_3 _).mpr (by show (4 * (i 0).val + 2 * ((i 1).val / 1024) + 1) % 2 = 1; omega)
  · obtain ⟨-, -, -, -, -, -, -, -, -, e0, e1, e2⟩ := idx_facts1 ⟨4 * (i 0).val + 2 * ((i 1).val / 1024) + 1, ht⟩
    have e0' : win1_3.index ⟨4 * (i 0).val + 2 * ((i 1).val / 1024) + 1, ht⟩ (0 : Fin 3) = (4 * (i 0).val + 2 * ((i 1).val / 1024) + 1) / 4 := e0
    have e1' : win1_3.index ⟨4 * (i 0).val + 2 * ((i 1).val / 1024) + 1, ht⟩ (1 : Fin 3) = ((4 * (i 0).val + 2 * ((i 1).val / 1024) + 1) / 2) % 2 := e1
    rw [mem_blk3]
    intro a
    match a with
    | ⟨0, _⟩ => show win1_3.index _ (0 : Fin 3) * 1 ≤ (i 0).val ∧ (i 0).val < win1_3.index _ (0 : Fin 3) * 1 + 1; omega
    | ⟨1, _⟩ => show win1_3.index _ (1 : Fin 3) * 1024 ≤ (i 1).val ∧ (i 1).val < win1_3.index _ (1 : Fin 3) * 1024 + 1024; omega
    | ⟨2, _⟩ => show win1_3.index _ (2 : Fin 3) * 128 ≤ (i 2).val ∧ (i 2).val < win1_3.index _ (2 : Fin 3) * 128 + 128; omega

include hQ hK hV in
/-- The output array after the run is the attention output of the query, key and value arrays the call was entered
    with (their entries real). -/
theorem attn_array (c : Dev nD) : (dat1 V c).arrAt 3 cfg1.N = Gattn V c :=
  (dat1 V c).arrAt_eq_of_cover 3 (Gattn V c) (fun t hf => flushed1_eq V hQ hK hV c t hf) cover3

end Cert.KernelIdeal.Hand

end
-- ==== Proof.QkvPayload.lean ====
/-
  One linear layer of a block of the input, read at one coordinate pair, over the extended reals.

  The first kernel computes, for a block of 1024 rows of one batch of the input, three linear layers: the block
  (its leading unit axis dropped) times a [1024, 128] weight matrix, accumulated from zero, plus a [1, 128] bias row
  broadcast over the rows; the result is stored with its unit axis put back. Over the extended reals a change of
  float format is the identity and the product into the zero accumulator is the plain sum over the 1024 input
  features, so the stored value at (u, r, d) is (∑ i, x (0, r, i) * W (i, d)) + β (0, d). The three stored payloads
  are this one function of three different (weights, bias) pairs.
-/
import proofs.«134215_j31799937859875_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic
open Idealize.ShloMosaic.ValueIdx

/-! ## The contraction's operand indices

The layers' one contraction takes its left operand's rows and its right operand's columns: at output (r, d) and
contraction coordinate k the operands are read at (r, k) and (k, d). -/

theorem lhs_c0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_c1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_c0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_c1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The left operand's index at output (r, d) and contraction coordinate k is (r, k). -/
theorem lhsIdx_eq (r : Fin 1024) (d : Fin 128) (k : Fin 1024) :
    dot_S1024x1024_S1024x128_S1024x128_1_0_0_1_n_n.lhsIdx (ix2 r d)
        ((contrEquiv1 dot_S1024x1024_S1024x128_S1024x128_1_0_0_1_n_n 1024 rfl rfl).symm k) = ix2 r k := by
  have hk := contrEquiv1_symm_val dot_S1024x1024_S1024x128_S1024x128_1_0_0_1_n_n 1024 rfl rfl k
  exact funext fun a => Fin.ext (by
    match a with
    | ⟨0, _⟩ => exact lhs_c0 _ _
    | ⟨1, _⟩ => exact (lhs_c1 _ _).trans hk)

/-- The right operand's index there is (k, d). -/
theorem rhsIdx_eq (r : Fin 1024) (d : Fin 128) (k : Fin 1024) :
    dot_S1024x1024_S1024x128_S1024x128_1_0_0_1_n_n.rhsIdx (ix2 r d)
        ((contrEquiv1 dot_S1024x1024_S1024x128_S1024x128_1_0_0_1_n_n 1024 rfl rfl).symm k) = ix2 k d := by
  have hk := contrEquiv1_symm_val dot_S1024x1024_S1024x128_S1024x128_1_0_0_1_n_n 1024 rfl rfl k
  exact funext fun a => Fin.ext (by
    match a with
    | ⟨0, _⟩ => exact (rhs_c0 _ _).trans hk
    | ⟨1, _⟩ => exact rhs_c1 _ _)

/-! ## One linear layer of a block, read at an index -/

/-- The layer's arithmetic, the value names substituted: the product of the block (its unit axis dropped) with the
    weights into the zero accumulator, plus the bias row broadcast over the block's rows. -/
def lin (x0 : Vec Ideal S1x1024x1024 .f32) (w : Vec Ideal S1024x128 .bf16) (β : Vec Ideal S1x128 .f32) : FVec Ideal S1024x128 .f32 :=
  addf (matmul (F := Ideal) dot_S1024x1024_S1024x128_S1024x128_1_0_0_1_n_n none
      (truncf .bf16 (shapeCast S1024x1024 x0 shapeCasts_S1x1024x1024_S1024x1024 : FVec Ideal S1024x1024 .f32) bitsLt_bf16_f32 : FVec Ideal S1024x1024 .bf16)
      (shapeCast S1024x128 w shapeCasts_S1024x128_S1024x128 : FVec Ideal S1024x128 .bf16) (constant (F := Ideal) S1024x128 .f32 0x00000000#32))
    (broadcastTo S1024x128 (shapeCast S1x128 β shapeCasts_S1x128_S1x128 : FVec Ideal S1x128 .f32) broadcasts_S1x128_S1024x128 : FVec Ideal S1024x128 .f32)

/-- Row r of the block against column d of the weights, plus the bias at d: a change of float format is the
    identity on the extended reals, the product into the zero accumulator is the plain sum over the 1024 input
    features, and the bias's one row is read at every row. -/
theorem lin_apply (x0 : Vec Ideal S1x1024x1024 .f32) (w : Vec Ideal S1024x128 .bf16) (β : Vec Ideal S1x128 .f32)
    (r : Fin 1024) (d : Fin 128) :
    lin x0 w β (ix2 r d) = (∑ i : Fin 1024, x0 (ix3 (0 : Fin 1) r i) * w (ix2 i d)) + β (ix2 (0 : Fin 1) d) := by
  unfold lin
  refine (addf_apply _ _ (ix2 r d)).trans ?_
  refine congrArg₂ (· + ·) ?_ ?_
  · refine (Ideal.matmul_constant_zero_apply dot_S1024x1024_S1024x128_S1024x128_1_0_0_1_n_n none _ _ (ix2 r d)).trans ?_
    rw [← Equiv.sum_comp (contrEquiv1 dot_S1024x1024_S1024x128_S1024x128_1_0_0_1_n_n 1024 rfl rfl).symm]
    refine Finset.sum_congr rfl fun k _ => ?_
    rw [lhsIdx_eq, rhsIdx_eq]
    refine congrArg₂ (· * ·) ?_ ?_
    · exact shapeCast_1ab_ab_apply x0 shapeCasts_S1x1024x1024_S1024x1024 r k
    · exact congrFun (shapeCast_self w shapeCasts_S1024x128_S1024x128) (ix2 k d)
  · refine (broadcastTo_1b_ab_apply _ broadcasts_S1x128_S1024x128 r d).trans ?_
    exact congrFun (shapeCast_self β shapeCasts_S1x128_S1x128) (ix2 (0 : Fin 1) d)

/-- The three stored payloads are that layer, rounded to the stored format (the identity here) and given back its
    unit axis. -/
theorem pay3_eq (x0 : Vec Ideal S1x1024x1024 .f32) (w : Vec Ideal S1024x128 .bf16) (β : Vec Ideal S1x128 .f32) :
    k0_pay3 x0 w β = shapeCast S1x1024x128 (truncf .bf16 (lin x0 w β) bitsLt_bf16_f32 : FVec Ideal S1024x128 .bf16) shapeCasts_S1024x128_S1x1024x128 := rfl
theorem pay4_eq (x0 : Vec Ideal S1x1024x1024 .f32) (w : Vec Ideal S1024x128 .bf16) (β : Vec Ideal S1x128 .f32) :
    k0_pay4 x0 w β = shapeCast S1x1024x128 (truncf .bf16 (lin x0 w β) bitsLt_bf16_f32 : FVec Ideal S1024x128 .bf16) shapeCasts_S1024x128_S1x1024x128 := rfl
theorem pay15_eq (x0 : Vec Ideal S1x1024x1024 .f32) (w : Vec Ideal S1024x128 .bf16) (β : Vec Ideal S1x128 .f32) :
    k0_pay1 (k0_pay5 x0 w β) = shapeCast S1x1024x128 (truncf .bf16 (lin x0 w β) bitsLt_bf16_f32 : FVec Ideal S1024x128 .bf16) shapeCasts_S1024x128_S1x1024x128 := rfl

/-- A stored payload at (u, r, d). -/
theorem stored_apply (x0 : Vec Ideal S1x1024x1024 .f32) (w : Vec Ideal S1024x128 .bf16) (β : Vec Ideal S1x128 .f32)
    (u : Fin 1) (r : Fin 1024) (d : Fin 128) :
    (shapeCast S1x1024x128 (truncf .bf16 (lin x0 w β) bitsLt_bf16_f32 : FVec Ideal S1024x128 .bf16) shapeCasts_S1024x128_S1x1024x128 : FVec Ideal S1x1024x128 .bf16) (ix3 u r d)
      = (∑ i : Fin 1024, x0 (ix3 (0 : Fin 1) r i) * w (ix2 i d)) + β (ix2 (0 : Fin 1) d) :=
  (shapeCast_ab_1ab_apply _ shapeCasts_S1024x128_S1x1024x128 u r d).trans (lin_apply x0 w β r d)

end Cert.KernelIdeal.Hand

end
-- ==== Proof.QkvValue.lean ====
/-
  The three arrays the first kernel region leaves, as linear layers of the arrays it finds.

  The region's grid has 16 points; point t works on batch t / 2 and on rows 1024 * (t % 2) … of that batch. At each
  point the body stores, into each of the three outputs' blocks, one linear layer of the input's block (the payload
  read at an index: the sum over the 1024 input features of input times weight, plus the bias). The weights and
  the biases are one block each, the whole array, so every point reads the same ones. Each output block is
  therefore the restriction, to its rows, of ONE function of the array index, the layer of the whole input; the 16
  blocks tile the output array (row s of batch b lies in the block of point 2 * b + s / 1024), so after the region
  the array IS that function.

  The arrays the region finds are what the host operations before it leave: each weight matrix transposed (and
  changed in format, the identity here), each bias reshaped to one row, the input untouched. Read at an index these
  give back the launch arrays, and the layer becomes the specification's `Attn.proj` of the launch arrays.
-/
import proofs.«134215_j31799937859875_2_alg».proof.Proof.QkvBody
import proofs.«134215_j31799937859875_2_alg».proof.Proof.QkvPayload
import proofs.«134215_j31799937859875_2_alg».proof.Proof.Spec
import proofs.«134215_j31799937859875_2_alg».proof.Proof.Gen.KernelIdeal.Regions
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The layer as one function of the array index -/

/-- A linear layer of the whole input, index by index: row (b, s) of the input against column d of the
    (transposed) weights, plus the bias at d. -/
def projArr (X : S8x2048x1024.Idx → EReal) (Wt : S1024x128.Idx → EReal) (β : S1x128.Idx → EReal) : S8x2048x128.Idx → EReal :=
  fun j => (∑ i : Fin 1024, X (ix3 (j 0 : Fin 8) (j 1 : Fin 2048) i) * Wt (ix2 i (j 2 : Fin 128))) + β (ix2 (0 : Fin 1) (j 2 : Fin 128))

theorem projArr_apply (X : S8x2048x1024.Idx → EReal) (Wt : S1024x128.Idx → EReal) (β : S1x128.Idx → EReal) (b : Fin 8) (s : Fin 2048) (d : Fin 128) :
    projArr X Wt β (ix3 b s d) = (∑ i : Fin 1024, X (ix3 b s i) * Wt (ix2 i d)) + β (ix2 (0 : Fin 1) d) := rfl

theorem hz3 : (![0, 0, 0] : Fin 3 → Nat) = fun _ => 0 := funext fun a => by fin_cases a <;> rfl
theorem hz2 : (![0, 0] : Fin 2 → Nat) = fun _ => 0 := funext fun a => by fin_cases a <;> rfl

/-! ## Where the blocks sit: the index maps over the 16 grid points

Point t works on batch t / 2 and on the rows 1024 * (t % 2) … of that batch, for the input and for each output;
the weights and the biases are one block, the whole array. -/

theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 2 ∧ win0_7.index t (1 : Fin 3) = t.val % 2 ∧ win0_7.index t (2 : Fin 3) = 0
    ∧ win0_8.index t (0 : Fin 3) = t.val / 2 ∧ win0_8.index t (1 : Fin 3) = t.val % 2 ∧ win0_8.index t (2 : Fin 3) = 0
    ∧ win0_9.index t (0 : Fin 3) = t.val / 2 ∧ win0_9.index t (1 : Fin 3) = t.val % 2 ∧ win0_9.index t (2 : Fin 3) = 0 :=
  (by decide +kernel : ∀ t : Fin grid0.N, _)

section Blocks
variable (V : (c : Dev nD) → (b : Ref sig .tc) → Buf (Elt Ideal) ((c : Thread nD τ).loc b))

/-- The input's block at point t is rows 1024 * (t % 2) … of batch t / 2. -/
theorem iblk0_0_apply (c : Dev nD) (t : Fin cfg0.N) (u : Fin 1) (r i : Fin 1024) (k : S8x2048x1024.Idx)
    (hk0 : (k 0).val = t.val / 2) (hk1 : (k 1).val = (t.val % 2) * 1024 + r.val) (hk2 : (k 2).val = i.val) :
    (iblk0 V c 0 t : Vec Ideal S1x1024x1024 .f32) (ix3 u r i) = (V c main_arg0 : S8x2048x1024.Idx → EReal) k := by
  obtain ⟨e0, e1, e2, -⟩ := idx_facts t
  unfold iblk0
  rw [View.read_apply]
  show (V c main_arg0 : S8x2048x1024.Idx → EReal) _ = V c main_arg0 k
  refine congrArg _ (funext fun a => Fin.ext ?_)
  match a with
  | ⟨0, _⟩ => show win0_0.index t (0 : Fin 3) * 1 + 1 * u.val = (k 0).val; rw [e0, hk0]; omega
  | ⟨1, _⟩ => show win0_0.index t (1 : Fin 3) * 1024 + 1 * r.val = (k 1).val; rw [e1, hk1]; omega
  | ⟨2, _⟩ => show win0_0.index t (2 : Fin 3) * 1024 + 1 * i.val = (k 2).val; rw [e2, hk2]; omega

end Blocks

section Blocks2
variable (V : (c : Dev nD) → (b : Ref sig .tc) → Buf (Elt Ideal) ((c : Thread nD τ).loc b))

/-- Two functions of a block's index agree when they agree at every coordinate triple. -/
theorem funext_blk {α : Type} {f g : S1x1024x128.Idx → α}
    (h : ∀ (u : Fin 1) (r : Fin 1024) (d : Fin 128), f (ix3 u r d) = g (ix3 u r d)) : f = g :=
  funext fun j => by rw [eq_ix3 j]; exact h _ _ _

/-! ### The weights and the biases: one block, the whole array -/

theorem iblk0_1_eq (c : Dev nD) (t : Fin cfg0.N) :
    (iblk0 V c 1 t : Vec Ideal S1024x128 .bf16) = (V c main_v1 : S1024x128.Idx → EReal) := by
  obtain ⟨e00, e01, e02, e10, e11, e20, e21, e30, e31, e40, e41, e50, e51, e60, e61, e70, e71, e72, e80, e81, e82, e90, e91, e92⟩ := idx_facts t
  funext y
  unfold iblk0
  rw [View.read_apply]
  show (V c main_v1 : S1024x128.Idx → EReal) _ = V c main_v1 y
  refine congrArg _ (funext fun a => Fin.ext ?_)
  match a with
  | ⟨0, _⟩ => show win0_1.index t (0 : Fin 2) * 1024 + 1 * (y 0).val = (y 0).val; rw [e10]; omega
  | ⟨1, _⟩ => show win0_1.index t (1 : Fin 2) * 128 + 1 * (y 1).val = (y 1).val; rw [e11]; omega

theorem iblk0_2_eq (c : Dev nD) (t : Fin cfg0.N) :
    (iblk0 V c 2 t : Vec Ideal S1x128 .f32) = (V c main_v6 : S1x128.Idx → EReal) := by
  obtain ⟨e00, e01, e02, e10, e11, e20, e21, e30, e31, e40, e41, e50, e51, e60, e61, e70, e71, e72, e80, e81, e82, e90, e91, e92⟩ := idx_facts t
  funext y
  unfold iblk0
  rw [View.read_apply]
  show (V c main_v6 : S1x128.Idx → EReal) _ = V c main_v6 y
  refine congrArg _ (funext fun a => Fin.ext ?_)
  match a with
  | ⟨0, _⟩ => show win0_2.index t (0 : Fin 2) * 1 + 1 * (y 0).val = (y 0).val; rw [e20]; omega
  | ⟨1, _⟩ => show win0_2.index t (1 : Fin 2) * 128 + 1 * (y 1).val = (y 1).val; rw [e21]; omega

theorem iblk0_3_eq (c : Dev nD) (t : Fin cfg0.N) :
    (iblk0 V c 3 t : Vec Ideal S1024x128 .bf16) = (V c main_v3 : S1024x128.Idx → EReal) := by
  obtain ⟨e00, e01, e02, e10, e11, e20, e21, e30, e31, e40, e41, e50, e51, e60, e61, e70, e71, e72, e80, e81, e82, e90, e91, e92⟩ := idx_facts t
  funext y
  unfold iblk0
  rw [View.read_apply]
  show (V c main_v3 : S1024x128.Idx → EReal) _ = V c main_v3 y
  refine congrArg _ (funext fun a => Fin.ext ?_)
  match a with
  | ⟨0, _⟩ => show win0_3.index t (0 : Fin 2) * 1024 + 1 * (y 0).val = (y 0).val; rw [e30]; omega
  | ⟨1, _⟩ => show win0_3.index t (1 : Fin 2) * 128 + 1 * (y 1).val = (y 1).val; rw [e31]; omega

theorem iblk0_4_eq (c : Dev nD) (t : Fin cfg0.N) :
    (iblk0 V c 4 t : Vec Ideal S1x128 .f32) = (V c main_v7 : S1x128.Idx → EReal) := by
  obtain ⟨e00, e01, e02, e10, e11, e20, e21, e30, e31, e40, e41, e50, e51, e60, e61, e70, e71, e72, e80, e81, e82, e90, e91, e92⟩ := idx_facts t
  funext y
  unfold iblk0
  rw [View.read_apply]
  show (V c main_v7 : S1x128.Idx → EReal) _ = V c main_v7 y
  refine congrArg _ (funext fun a => Fin.ext ?_)
  match a with
  | ⟨0, _⟩ => show win0_4.index t (0 : Fin 2) * 1 + 1 * (y 0).val = (y 0).val; rw [e40]; omega
  | ⟨1, _⟩ => show win0_4.index t (1 : Fin 2) * 128 + 1 * (y 1).val = (y 1).val; rw [e41]; omega

theorem iblk0_5_eq (c : Dev nD) (t : Fin cfg0.N) :
    (iblk0 V c 5 t : Vec Ideal S1024x128 .bf16) = (V c main_v5 : S1024x128.Idx → EReal) := by
  obtain ⟨e00, e01, e02, e10, e11, e20, e21, e30, e31, e40, e41, e50, e51, e60, e61, e70, e71, e72, e80, e81, e82, e90, e91, e92⟩ := idx_facts t
  funext y
  unfold iblk0
  rw [View.read_apply]
  show (V c main_v5 : S1024x128.Idx → EReal) _ = V c main_v5 y
  refine congrArg _ (funext fun a => Fin.ext ?_)
  match a with
  | ⟨0, _⟩ => show win0_5.index t (0 : Fin 2) * 1024 + 1 * (y 0).val = (y 0).val; rw [e50]; omega
  | ⟨1, _⟩ => show win0_5.index t (1 : Fin 2) * 128 + 1 * (y 1).val = (y 1).val; rw [e51]; omega

theorem iblk0_6_eq (c : Dev nD) (t : Fin cfg0.N) :
    (iblk0 V c 6 t : Vec Ideal S1x128 .f32) = (V c main_v8 : S1x128.Idx → EReal) := by
  obtain ⟨e00, e01, e02, e10, e11, e20, e21, e30, e31, e40, e41, e50, e51, e60, e61, e70, e71, e72, e80, e81, e82, e90, e91, e92⟩ := idx_facts t
  funext y
  unfold iblk0
  rw [View.read_apply]
  show (V c main_v8 : S1x128.Idx → EReal) _ = V c main_v8 y
  refine congrArg _ (funext fun a => Fin.ext ?_)
  match a with
  | ⟨0, _⟩ => show win0_6.index t (0 : Fin 2) * 1 + 1 * (y 0).val = (y 0).val; rw [e60]; omega
  | ⟨1, _⟩ => show win0_6.index t (1 : Fin 2) * 128 + 1 * (y 1).val = (y 1).val; rw [e61]; omega

/-! ### Output window 7 (the query layer) -/

/-- A stored value of the query layer at (u, r, d). -/
theorem pay_7_apply (x0 : Vec Ideal S1x1024x1024 .f32) (w : Vec Ideal S1024x128 .bf16) (β : Vec Ideal S1x128 .f32)
    (u : Fin 1) (r : Fin 1024) (d : Fin 128) :
    (k0_pay3 x0 w β : FVec Ideal S1x1024x128 .bf16) (ix3 u r d)
      = (∑ i : Fin 1024, x0 (ix3 (0 : Fin 1) r i) * w (ix2 i d)) + β (ix2 (0 : Fin 1) d) :=
  (congrFun (pay3_eq x0 w β) (ix3 u r d)).trans (stored_apply x0 w β u r d)

/-- The output's block at point t sits at batch t / 2, rows 1024 * (t % 2) …. -/
theorem blk7_emb (t : Fin cfg0.N) (u : Fin 1) (r : Fin 1024) (d : Fin 128) (k : S8x2048x128.Idx)
    (hk0 : (k 0).val = t.val / 2) (hk1 : (k 1).val = (t.val % 2) * 1024 + r.val) (hk2 : (k 2).val = d.val) :
    ((cfg0.win 7).blk t).view.emb (ix3 u r d) = k := by
  obtain ⟨e00, e01, e02, e10, e11, e20, e21, e30, e31, e40, e41, e50, e51, e60, e61, e70, e71, e72, e80, e81, e82, e90, e91, e92⟩ := idx_facts t
  refine funext fun a => Fin.ext ?_
  match a with
  | ⟨0, _⟩ => show win0_7.index t (0 : Fin 3) * 1 + 1 * u.val = (k 0).val; rw [e70, hk0]; omega
  | ⟨1, _⟩ => show win0_7.index t (1 : Fin 3) * 1024 + 1 * r.val = (k 1).val; rw [e71, hk1]; omega
  | ⟨2, _⟩ => show win0_7.index t (2 : Fin 3) * 128 + 1 * d.val = (k 2).val; rw [e72, hk2]; omega

/-- WHAT POINT t WRITES BACK is block t of the layer of the arrays as the region finds them. -/
theorem flushed7_eq (c : Dev nD) (t : Fin cfg0.N) :
    (dat0 V c).flushed 7 t = ((cfg0.win 7).blk t).view.read (Elt Ideal) (projArr (V c main_arg0) (V c main_v1) (V c main_v6)) := by
  show (cfg0.win 7).cut (grid0.coords t) ((dat0 V c).after 7 t) = _
  rw [after0_7]
  unfold out0_7
  rw [View.canon_unit_zero hz3]
  simp only [View.ld_unit_zero (S := S1x1024x1024) hz3, View.ld_unit_zero (S := S1024x128) hz2, View.ld_unit_zero (S := S1x128) hz2]
  have hN : cfg0.N = 16 := N_0
  have ht : t.val < 16 := hN ▸ t.isLt
  refine funext_blk fun u r d => ?_
  show (k0_pay3 (iblk0 V c 0 t) (iblk0 V c 1 t) (iblk0 V c 2 t) : FVec Ideal S1x1024x128 .bf16) (ix3 u r d)
      = projArr (V c main_arg0) (V c main_v1) (V c main_v6) (((cfg0.win 7).blk t).view.emb (ix3 u r d))
  refine (pay_7_apply (iblk0 V c 0 t) (iblk0 V c 1 t) (iblk0 V c 2 t) u r d).trans ?_
  rw [blk7_emb t u r d (ix3 (⟨t.val / 2, by omega⟩ : Fin 8) (⟨(t.val % 2) * 1024 + r.val, by omega⟩ : Fin 2048) d) rfl rfl rfl, projArr_apply]
  refine congrArg₂ (· + ·) (Finset.sum_congr rfl fun i _ => congrArg₂ (· * ·) ?_ ?_) ?_
  · exact iblk0_0_apply V c t (0 : Fin 1) r i _ rfl rfl rfl
  · exact congrFun (iblk0_1_eq V c t) (ix2 i d)
  · exact congrFun (iblk0_2_eq V c t) (ix2 (0 : Fin 1) d)

/-- An index of the array is in point t's block iff each coordinate is in the block's range on its axis. -/
theorem mem_blk7 (t : Fin cfg0.N) (i : S8x2048x128.Idx) :
    i ∈ ((cfg0.win 7).blk t).view.set ↔ ∀ a : Fin 3, win0_7.index t a * S1x1024x128.size a ≤ (i a).val ∧ (i a).val < win0_7.index t a * S1x1024x128.size a + S1x1024x128.size a := by
  show i ∈ ((View.whole main_v9_0).slice (win0_7.rect t)).set ↔ _
  rw [View.set_slice_whole, Rect.mem_set_unit]
  exact Iff.rfl

/-- Row s of batch b is in the block of point 2 * b + s / 1024. -/
theorem cover7 (i : S8x2048x128.Idx) : ∃ t : Fin cfg0.N, (cfg0.win 7).flush t = true ∧ i ∈ ((cfg0.win 7).blk t).view.set := by
  have hN : cfg0.N = 16 := N_0
  have h0 : (i 0).val < 8 := (i 0).isLt
  have h1 : (i 1).val < 2048 := (i 1).isLt
  have h2 : (i 2).val < 128 := (i 2).isLt
  refine ⟨⟨2 * (i 0).val + (i 1).val / 1024, by omega⟩, flush0_7 _, ?_⟩
  obtain ⟨e00, e01, e02, e10, e11, e20, e21, e30, e31, e40, e41, e50, e51, e60, e61, e70, e71, e72, e80, e81, e82, e90, e91, e92⟩ := idx_facts ⟨2 * (i 0).val + (i 1).val / 1024, by omega⟩
  rw [mem_blk7]
  intro a
  match a with
  | ⟨0, _⟩ =>
    show win0_7.index _ (0 : Fin 3) * 1 ≤ (i 0).val ∧ (i 0).val < win0_7.index _ (0 : Fin 3) * 1 + 1
    rw [e70]; show (2 * (i 0).val + (i 1).val / 1024) / 2 * 1 ≤ (i 0).val ∧ (i 0).val < (2 * (i 0).val + (i 1).val / 1024) / 2 * 1 + 1; omega
  | ⟨1, _⟩ =>
    show win0_7.index _ (1 : Fin 3) * 1024 ≤ (i 1).val ∧ (i 1).val < win0_7.index _ (1 : Fin 3) * 1024 + 1024
    rw [e71]; show (2 * (i 0).val + (i 1).val / 1024) % 2 * 1024 ≤ (i 1).val ∧ (i 1).val < (2 * (i 0).val + (i 1).val / 1024) % 2 * 1024 + 1024; omega
  | ⟨2, _⟩ =>
    show win0_7.index _ (2 : Fin 3) * 128 ≤ (i 2).val ∧ (i 2).val < win0_7.index _ (2 : Fin 3) * 128 + 128
    rw [e72]; omega

/-- THE ARRAY after the region: the query layer of the arrays as the region finds them. -/
theorem arr7_eq (c : Dev nD) : (dat0 V c).arrAt 7 cfg0.N = projArr (V c main_arg0) (V c main_v1) (V c main_v6) :=
  (dat0 V c).arrAt_eq_of_cover 7 (projArr (V c main_arg0) (V c main_v1) (V c main_v6)) (fun t _ => flushed7_eq V c t) (fun i => cover7 i)

/-- The same at an index, as the specification's linear layer of the arrays the region finds: the weights are found
    transposed ([in, out]) and the bias as a one-row matrix. -/
theorem arr7_proj (c : Dev nD) (b : Fin 8) (s : Fin 2048) (d : Fin 128) :
    (dat0 V c).arrAt 7 cfg0.N (ix3 b s d)
      = Attn.proj (fun b s i => V c main_arg0 (ix3 b s i)) (fun d i => V c main_v1 (ix2 i d)) (fun d => V c main_v6 (ix2 (0 : Fin 1) d)) b s d :=
  (congrFun (arr7_eq V c) (ix3 b s d)).trans rfl

/-! ### Output window 8 (the key layer) -/

/-- A stored value of the key layer at (u, r, d). -/
theorem pay_8_apply (x0 : Vec Ideal S1x1024x1024 .f32) (w : Vec Ideal S1024x128 .bf16) (β : Vec Ideal S1x128 .f32)
    (u : Fin 1) (r : Fin 1024) (d : Fin 128) :
    (k0_pay4 x0 w β : FVec Ideal S1x1024x128 .bf16) (ix3 u r d)
      = (∑ i : Fin 1024, x0 (ix3 (0 : Fin 1) r i) * w (ix2 i d)) + β (ix2 (0 : Fin 1) d) :=
  (congrFun (pay4_eq x0 w β) (ix3 u r d)).trans (stored_apply x0 w β u r d)

/-- The output's block at point t sits at batch t / 2, rows 1024 * (t % 2) …. -/
theorem blk8_emb (t : Fin cfg0.N) (u : Fin 1) (r : Fin 1024) (d : Fin 128) (k : S8x2048x128.Idx)
    (hk0 : (k 0).val = t.val / 2) (hk1 : (k 1).val = (t.val % 2) * 1024 + r.val) (hk2 : (k 2).val = d.val) :
    ((cfg0.win 8).blk t).view.emb (ix3 u r d) = k := by
  obtain ⟨e00, e01, e02, e10, e11, e20, e21, e30, e31, e40, e41, e50, e51, e60, e61, e70, e71, e72, e80, e81, e82, e90, e91, e92⟩ := idx_facts t
  refine funext fun a => Fin.ext ?_
  match a with
  | ⟨0, _⟩ => show win0_8.index t (0 : Fin 3) * 1 + 1 * u.val = (k 0).val; rw [e80, hk0]; omega
  | ⟨1, _⟩ => show win0_8.index t (1 : Fin 3) * 1024 + 1 * r.val = (k 1).val; rw [e81, hk1]; omega
  | ⟨2, _⟩ => show win0_8.index t (2 : Fin 3) * 128 + 1 * d.val = (k 2).val; rw [e82, hk2]; omega

/-- WHAT POINT t WRITES BACK is block t of the layer of the arrays as the region finds them. -/
theorem flushed8_eq (c : Dev nD) (t : Fin cfg0.N) :
    (dat0 V c).flushed 8 t = ((cfg0.win 8).blk t).view.read (Elt Ideal) (projArr (V c main_arg0) (V c main_v3) (V c main_v7)) := by
  show (cfg0.win 8).cut (grid0.coords t) ((dat0 V c).after 8 t) = _
  rw [after0_8]
  unfold out0_8
  rw [View.canon_unit_zero hz3]
  simp only [View.ld_unit_zero (S := S1x1024x1024) hz3, View.ld_unit_zero (S := S1024x128) hz2, View.ld_unit_zero (S := S1x128) hz2]
  have hN : cfg0.N = 16 := N_0
  have ht : t.val < 16 := hN ▸ t.isLt
  refine funext_blk fun u r d => ?_
  show (k0_pay4 (iblk0 V c 0 t) (iblk0 V c 3 t) (iblk0 V c 4 t) : FVec Ideal S1x1024x128 .bf16) (ix3 u r d)
      = projArr (V c main_arg0) (V c main_v3) (V c main_v7) (((cfg0.win 8).blk t).view.emb (ix3 u r d))
  refine (pay_8_apply (iblk0 V c 0 t) (iblk0 V c 3 t) (iblk0 V c 4 t) u r d).trans ?_
  rw [blk8_emb t u r d (ix3 (⟨t.val / 2, by omega⟩ : Fin 8) (⟨(t.val % 2) * 1024 + r.val, by omega⟩ : Fin 2048) d) rfl rfl rfl, projArr_apply]
  refine congrArg₂ (· + ·) (Finset.sum_congr rfl fun i _ => congrArg₂ (· * ·) ?_ ?_) ?_
  · exact iblk0_0_apply V c t (0 : Fin 1) r i _ rfl rfl rfl
  · exact congrFun (iblk0_3_eq V c t) (ix2 i d)
  · exact congrFun (iblk0_4_eq V c t) (ix2 (0 : Fin 1) d)

/-- An index of the array is in point t's block iff each coordinate is in the block's range on its axis. -/
theorem mem_blk8 (t : Fin cfg0.N) (i : S8x2048x128.Idx) :
    i ∈ ((cfg0.win 8).blk t).view.set ↔ ∀ a : Fin 3, win0_8.index t a * S1x1024x128.size a ≤ (i a).val ∧ (i a).val < win0_8.index t a * S1x1024x128.size a + S1x1024x128.size a := by
  show i ∈ ((View.whole main_v9_1).slice (win0_8.rect t)).set ↔ _
  rw [View.set_slice_whole, Rect.mem_set_unit]
  exact Iff.rfl

/-- Row s of batch b is in the block of point 2 * b + s / 1024. -/
theorem cover8 (i : S8x2048x128.Idx) : ∃ t : Fin cfg0.N, (cfg0.win 8).flush t = true ∧ i ∈ ((cfg0.win 8).blk t).view.set := by
  have hN : cfg0.N = 16 := N_0
  have h0 : (i 0).val < 8 := (i 0).isLt
  have h1 : (i 1).val < 2048 := (i 1).isLt
  have h2 : (i 2).val < 128 := (i 2).isLt
  refine ⟨⟨2 * (i 0).val + (i 1).val / 1024, by omega⟩, flush0_8 _, ?_⟩
  obtain ⟨e00, e01, e02, e10, e11, e20, e21, e30, e31, e40, e41, e50, e51, e60, e61, e70, e71, e72, e80, e81, e82, e90, e91, e92⟩ := idx_facts ⟨2 * (i 0).val + (i 1).val / 1024, by omega⟩
  rw [mem_blk8]
  intro a
  match a with
  | ⟨0, _⟩ =>
    show win0_8.index _ (0 : Fin 3) * 1 ≤ (i 0).val ∧ (i 0).val < win0_8.index _ (0 : Fin 3) * 1 + 1
    rw [e80]; show (2 * (i 0).val + (i 1).val / 1024) / 2 * 1 ≤ (i 0).val ∧ (i 0).val < (2 * (i 0).val + (i 1).val / 1024) / 2 * 1 + 1; omega
  | ⟨1, _⟩ =>
    show win0_8.index _ (1 : Fin 3) * 1024 ≤ (i 1).val ∧ (i 1).val < win0_8.index _ (1 : Fin 3) * 1024 + 1024
    rw [e81]; show (2 * (i 0).val + (i 1).val / 1024) % 2 * 1024 ≤ (i 1).val ∧ (i 1).val < (2 * (i 0).val + (i 1).val / 1024) % 2 * 1024 + 1024; omega
  | ⟨2, _⟩ =>
    show win0_8.index _ (2 : Fin 3) * 128 ≤ (i 2).val ∧ (i 2).val < win0_8.index _ (2 : Fin 3) * 128 + 128
    rw [e82]; omega

/-- THE ARRAY after the region: the key layer of the arrays as the region finds them. -/
theorem arr8_eq (c : Dev nD) : (dat0 V c).arrAt 8 cfg0.N = projArr (V c main_arg0) (V c main_v3) (V c main_v7) :=
  (dat0 V c).arrAt_eq_of_cover 8 (projArr (V c main_arg0) (V c main_v3) (V c main_v7)) (fun t _ => flushed8_eq V c t) (fun i => cover8 i)

/-- The same at an index, as the specification's linear layer of the arrays the region finds: the weights are found
    transposed ([in, out]) and the bias as a one-row matrix. -/
theorem arr8_proj (c : Dev nD) (b : Fin 8) (s : Fin 2048) (d : Fin 128) :
    (dat0 V c).arrAt 8 cfg0.N (ix3 b s d)
      = Attn.proj (fun b s i => V c main_arg0 (ix3 b s i)) (fun d i => V c main_v3 (ix2 i d)) (fun d => V c main_v7 (ix2 (0 : Fin 1) d)) b s d :=
  (congrFun (arr8_eq V c) (ix3 b s d)).trans rfl

/-! ### Output window 9 (the value layer) -/

/-- A stored value of the value layer at (u, r, d). -/
theorem pay_9_apply (x0 : Vec Ideal S1x1024x1024 .f32) (w : Vec Ideal S1024x128 .bf16) (β : Vec Ideal S1x128 .f32)
    (u : Fin 1) (r : Fin 1024) (d : Fin 128) :
    (k0_pay1 (k0_pay5 x0 w β) : FVec Ideal S1x1024x128 .bf16) (ix3 u r d)
      = (∑ i : Fin 1024, x0 (ix3 (0 : Fin 1) r i) * w (ix2 i d)) + β (ix2 (0 : Fin 1) d) :=
  (congrFun (pay15_eq x0 w β) (ix3 u r d)).trans (stored_apply x0 w β u r d)

/-- The output's block at point t sits at batch t / 2, rows 1024 * (t % 2) …. -/
theorem blk9_emb (t : Fin cfg0.N) (u : Fin 1) (r : Fin 1024) (d : Fin 128) (k : S8x2048x128.Idx)
    (hk0 : (k 0).val = t.val / 2) (hk1 : (k 1).val = (t.val % 2) * 1024 + r.val) (hk2 : (k 2).val = d.val) :
    ((cfg0.win 9).blk t).view.emb (ix3 u r d) = k := by
  obtain ⟨e00, e01, e02, e10, e11, e20, e21, e30, e31, e40, e41, e50, e51, e60, e61, e70, e71, e72, e80, e81, e82, e90, e91, e92⟩ := idx_facts t
  refine funext fun a => Fin.ext ?_
  match a with
  | ⟨0, _⟩ => show win0_9.index t (0 : Fin 3) * 1 + 1 * u.val = (k 0).val; rw [e90, hk0]; omega
  | ⟨1, _⟩ => show win0_9.index t (1 : Fin 3) * 1024 + 1 * r.val = (k 1).val; rw [e91, hk1]; omega
  | ⟨2, _⟩ => show win0_9.index t (2 : Fin 3) * 128 + 1 * d.val = (k 2).val; rw [e92, hk2]; omega

/-- WHAT POINT t WRITES BACK is block t of the layer of the arrays as the region finds them. -/
theorem flushed9_eq (c : Dev nD) (t : Fin cfg0.N) :
    (dat0 V c).flushed 9 t = ((cfg0.win 9).blk t).view.read (Elt Ideal) (projArr (V c main_arg0) (V c main_v5) (V c main_v8)) := by
  show (cfg0.win 9).cut (grid0.coords t) ((dat0 V c).after 9 t) = _
  rw [after0_9]
  unfold out0_9
  rw [View.canon_unit_zero hz3]
  simp only [View.ld_unit_zero (S := S1x1024x1024) hz3, View.ld_unit_zero (S := S1024x128) hz2, View.ld_unit_zero (S := S1x128) hz2]
  have hN : cfg0.N = 16 := N_0
  have ht : t.val < 16 := hN ▸ t.isLt
  refine funext_blk fun u r d => ?_
  show (k0_pay1 (k0_pay5 (iblk0 V c 0 t) (iblk0 V c 5 t) (iblk0 V c 6 t)) : FVec Ideal S1x1024x128 .bf16) (ix3 u r d)
      = projArr (V c main_arg0) (V c main_v5) (V c main_v8) (((cfg0.win 9).blk t).view.emb (ix3 u r d))
  refine (pay_9_apply (iblk0 V c 0 t) (iblk0 V c 5 t) (iblk0 V c 6 t) u r d).trans ?_
  rw [blk9_emb t u r d (ix3 (⟨t.val / 2, by omega⟩ : Fin 8) (⟨(t.val % 2) * 1024 + r.val, by omega⟩ : Fin 2048) d) rfl rfl rfl, projArr_apply]
  refine congrArg₂ (· + ·) (Finset.sum_congr rfl fun i _ => congrArg₂ (· * ·) ?_ ?_) ?_
  · exact iblk0_0_apply V c t (0 : Fin 1) r i _ rfl rfl rfl
  · exact congrFun (iblk0_5_eq V c t) (ix2 i d)
  · exact congrFun (iblk0_6_eq V c t) (ix2 (0 : Fin 1) d)

/-- An index of the array is in point t's block iff each coordinate is in the block's range on its axis. -/
theorem mem_blk9 (t : Fin cfg0.N) (i : S8x2048x128.Idx) :
    i ∈ ((cfg0.win 9).blk t).view.set ↔ ∀ a : Fin 3, win0_9.index t a * S1x1024x128.size a ≤ (i a).val ∧ (i a).val < win0_9.index t a * S1x1024x128.size a + S1x1024x128.size a := by
  show i ∈ ((View.whole main_v9_2).slice (win0_9.rect t)).set ↔ _
  rw [View.set_slice_whole, Rect.mem_set_unit]
  exact Iff.rfl

/-- Row s of batch b is in the block of point 2 * b + s / 1024. -/
theorem cover9 (i : S8x2048x128.Idx) : ∃ t : Fin cfg0.N, (cfg0.win 9).flush t = true ∧ i ∈ ((cfg0.win 9).blk t).view.set := by
  have hN : cfg0.N = 16 := N_0
  have h0 : (i 0).val < 8 := (i 0).isLt
  have h1 : (i 1).val < 2048 := (i 1).isLt
  have h2 : (i 2).val < 128 := (i 2).isLt
  refine ⟨⟨2 * (i 0).val + (i 1).val / 1024, by omega⟩, flush0_9 _, ?_⟩
  obtain ⟨e00, e01, e02, e10, e11, e20, e21, e30, e31, e40, e41, e50, e51, e60, e61, e70, e71, e72, e80, e81, e82, e90, e91, e92⟩ := idx_facts ⟨2 * (i 0).val + (i 1).val / 1024, by omega⟩
  rw [mem_blk9]
  intro a
  match a with
  | ⟨0, _⟩ =>
    show win0_9.index _ (0 : Fin 3) * 1 ≤ (i 0).val ∧ (i 0).val < win0_9.index _ (0 : Fin 3) * 1 + 1
    rw [e90]; show (2 * (i 0).val + (i 1).val / 1024) / 2 * 1 ≤ (i 0).val ∧ (i 0).val < (2 * (i 0).val + (i 1).val / 1024) / 2 * 1 + 1; omega
  | ⟨1, _⟩ =>
    show win0_9.index _ (1 : Fin 3) * 1024 ≤ (i 1).val ∧ (i 1).val < win0_9.index _ (1 : Fin 3) * 1024 + 1024
    rw [e91]; show (2 * (i 0).val + (i 1).val / 1024) % 2 * 1024 ≤ (i 1).val ∧ (i 1).val < (2 * (i 0).val + (i 1).val / 1024) % 2 * 1024 + 1024; omega
  | ⟨2, _⟩ =>
    show win0_9.index _ (2 : Fin 3) * 128 ≤ (i 2).val ∧ (i 2).val < win0_9.index _ (2 : Fin 3) * 128 + 128
    rw [e92]; omega

/-- THE ARRAY after the region: the value layer of the arrays as the region finds them. -/
theorem arr9_eq (c : Dev nD) : (dat0 V c).arrAt 9 cfg0.N = projArr (V c main_arg0) (V c main_v5) (V c main_v8) :=
  (dat0 V c).arrAt_eq_of_cover 9 (projArr (V c main_arg0) (V c main_v5) (V c main_v8)) (fun t _ => flushed9_eq V c t) (fun i => cover9 i)

/-- The same at an index, as the specification's linear layer of the arrays the region finds: the weights are found
    transposed ([in, out]) and the bias as a one-row matrix. -/
theorem arr9_proj (c : Dev nD) (b : Fin 8) (s : Fin 2048) (d : Fin 128) :
    (dat0 V c).arrAt 9 cfg0.N (ix3 b s d)
      = Attn.proj (fun b s i => V c main_arg0 (ix3 b s i)) (fun d i => V c main_v5 (ix2 i d)) (fun d => V c main_v8 (ix2 (0 : Fin 1) d)) b s d :=
  (congrFun (arr9_eq V c) (ix3 b s d)).trans rfl

end Blocks2

/-! ## The arrays the region finds, read at an index

Before the region the host transposes each [128, 1024] weight matrix to [1024, 128] (and changes its format, the
identity here) and reshapes each [128] bias to one row [1, 128]; it does not write the input. -/

section Host
variable (m : (ℓ : Loc nD τ sig) → Buf (Elt Ideal) ℓ)

/-- The input is as launched. -/
theorem V1_main_arg0 (c : Dev nD) : Gen.V1 m c main_arg0 = m ((c : Thread nD τ).loc main_arg0) :=
  Gen.V1_of m c main_arg0 (by decide)

/-- `main_v1` is `main_arg1` transposed. -/
theorem V1_main_v1 (c : Dev nD) :
    (Gen.V1 m c main_v1 : S1024x128.Idx → EReal)
      = truncf .bf16 (transpose S1024x128 [1, 0] (m ((c : Thread nD τ).loc main_arg1) : S128x1024.Idx → EReal) transposes_S128x1024_S1024x128_1_0 : FVec Ideal S1024x128 .f32) bitsLt_bf16_f32 := by
  dsimp only [Gen.V1, Gen.V0, Gen.hostOps0]
  after_results
theorem V1_main_v1_apply (c : Dev nD) (i : Fin 1024) (d : Fin 128) :
    (Gen.V1 m c main_v1 : S1024x128.Idx → EReal) (ix2 i d) = (m ((c : Thread nD τ).loc main_arg1) : S128x1024.Idx → EReal) (ix2 d i) := by
  rw [V1_main_v1]
  exact transpose_ix2_apply _ transposes_S128x1024_S1024x128_1_0 i d

/-- `main_v3` is `main_arg3` transposed. -/
theorem V1_main_v3 (c : Dev nD) :
    (Gen.V1 m c main_v3 : S1024x128.Idx → EReal)
      = truncf .bf16 (transpose S1024x128 [1, 0] (m ((c : Thread nD τ).loc main_arg3) : S128x1024.Idx → EReal) transposes_S128x1024_S1024x128_1_0 : FVec Ideal S1024x128 .f32) bitsLt_bf16_f32 := by
  dsimp only [Gen.V1, Gen.V0, Gen.hostOps0]
  after_results
theorem V1_main_v3_apply (c : Dev nD) (i : Fin 1024) (d : Fin 128) :
    (Gen.V1 m c main_v3 : S1024x128.Idx → EReal) (ix2 i d) = (m ((c : Thread nD τ).loc main_arg3) : S128x1024.Idx → EReal) (ix2 d i) := by
  rw [V1_main_v3]
  exact transpose_ix2_apply _ transposes_S128x1024_S1024x128_1_0 i d

/-- `main_v5` is `main_arg5` transposed. -/
theorem V1_main_v5 (c : Dev nD) :
    (Gen.V1 m c main_v5 : S1024x128.Idx → EReal)
      = truncf .bf16 (transpose S1024x128 [1, 0] (m ((c : Thread nD τ).loc main_arg5) : S128x1024.Idx → EReal) transposes_S128x1024_S1024x128_1_0 : FVec Ideal S1024x128 .f32) bitsLt_bf16_f32 := by
  dsimp only [Gen.V1, Gen.V0, Gen.hostOps0]
  after_results
theorem V1_main_v5_apply (c : Dev nD) (i : Fin 1024) (d : Fin 128) :
    (Gen.V1 m c main_v5 : S1024x128.Idx → EReal) (ix2 i d) = (m ((c : Thread nD τ).loc main_arg5) : S128x1024.Idx → EReal) (ix2 d i) := by
  rw [V1_main_v5]
  exact transpose_ix2_apply _ transposes_S128x1024_S1024x128_1_0 i d

/-- `main_v6` is `main_arg2` as one row. -/
theorem V1_main_v6 (c : Dev nD) :
    (Gen.V1 m c main_v6 : S1x128.Idx → EReal)
      = shapeCast S1x128 (m ((c : Thread nD τ).loc main_arg2) : S128.Idx → EReal) shapeCasts_S128_S1x128 := by
  dsimp only [Gen.V1, Gen.V0, Gen.hostOps0]
  after_results
  rfl
theorem V1_main_v6_apply (c : Dev nD) (d : Fin 128) :
    (Gen.V1 m c main_v6 : S1x128.Idx → EReal) (ix2 (0 : Fin 1) d) = (m ((c : Thread nD τ).loc main_arg2) : S128.Idx → EReal) (ix1 d) := by
  rw [V1_main_v6]
  exact shapeCast_a_1a_apply _ shapeCasts_S128_S1x128 (0 : Fin 1) d

/-- `main_v7` is `main_arg4` as one row. -/
theorem V1_main_v7 (c : Dev nD) :
    (Gen.V1 m c main_v7 : S1x128.Idx → EReal)
      = shapeCast S1x128 (m ((c : Thread nD τ).loc main_arg4) : S128.Idx → EReal) shapeCasts_S128_S1x128 := by
  dsimp only [Gen.V1, Gen.V0, Gen.hostOps0]
  after_results
  rfl
theorem V1_main_v7_apply (c : Dev nD) (d : Fin 128) :
    (Gen.V1 m c main_v7 : S1x128.Idx → EReal) (ix2 (0 : Fin 1) d) = (m ((c : Thread nD τ).loc main_arg4) : S128.Idx → EReal) (ix1 d) := by
  rw [V1_main_v7]
  exact shapeCast_a_1a_apply _ shapeCasts_S128_S1x128 (0 : Fin 1) d

/-- `main_v8` is `main_arg6` as one row. -/
theorem V1_main_v8 (c : Dev nD) :
    (Gen.V1 m c main_v8 : S1x128.Idx → EReal)
      = shapeCast S1x128 (m ((c : Thread nD τ).loc main_arg6) : S128.Idx → EReal) shapeCasts_S128_S1x128 := by
  dsimp only [Gen.V1, Gen.V0, Gen.hostOps0]
  after_results
  rfl
theorem V1_main_v8_apply (c : Dev nD) (d : Fin 128) :
    (Gen.V1 m c main_v8 : S1x128.Idx → EReal) (ix2 (0 : Fin 1) d) = (m ((c : Thread nD τ).loc main_arg6) : S128.Idx → EReal) (ix1 d) := by
  rw [V1_main_v8]
  exact shapeCast_a_1a_apply _ shapeCasts_S128_S1x128 (0 : Fin 1) d

/-! ## The three arrays as the specification's layers of the launch arrays -/

/-- After the region the query array, at (b, s, d), is the query layer of the launch arrays there. -/
theorem query_arr (c : Dev nD) (b : Fin 8) (s : Fin 2048) (d : Fin 128) :
    (dat0 (fun c b => Gen.V1 m c b) c).arrAt 7 cfg0.N (ix3 b s d)
      = Attn.proj (fun b s k => m ((c : Thread nD τ).loc main_arg0) (ix3 b s k)) (fun d k => m ((c : Thread nD τ).loc main_arg1) (ix2 d k)) (fun d => m ((c : Thread nD τ).loc main_arg2) (ix1 d)) b s d := by
  refine (arr7_proj (fun c b => Gen.V1 m c b) c b s d).trans ?_
  unfold Attn.proj
  refine congrArg₂ (· + ·) (Finset.sum_congr rfl fun i _ => congrArg₂ (· * ·) ?_ ?_) ?_
  · exact congrFun (V1_main_arg0 m c) (ix3 b s i)
  · exact V1_main_v1_apply m c i d
  · exact V1_main_v6_apply m c d

/-- After the region the key array, at (b, s, d), is the key layer of the launch arrays there. -/
theorem key_arr (c : Dev nD) (b : Fin 8) (s : Fin 2048) (d : Fin 128) :
    (dat0 (fun c b => Gen.V1 m c b) c).arrAt 8 cfg0.N (ix3 b s d)
      = Attn.proj (fun b s k => m ((c : Thread nD τ).loc main_arg0) (ix3 b s k)) (fun d k => m ((c : Thread nD τ).loc main_arg3) (ix2 d k)) (fun d => m ((c : Thread nD τ).loc main_arg4) (ix1 d)) b s d := by
  refine (arr8_proj (fun c b => Gen.V1 m c b) c b s d).trans ?_
  unfold Attn.proj
  refine congrArg₂ (· + ·) (Finset.sum_congr rfl fun i _ => congrArg₂ (· * ·) ?_ ?_) ?_
  · exact congrFun (V1_main_arg0 m c) (ix3 b s i)
  · exact V1_main_v3_apply m c i d
  · exact V1_main_v7_apply m c d

/-- After the region the value array, at (b, s, d), is the value layer of the launch arrays there. -/
theorem value_arr (c : Dev nD) (b : Fin 8) (s : Fin 2048) (d : Fin 128) :
    (dat0 (fun c b => Gen.V1 m c b) c).arrAt 9 cfg0.N (ix3 b s d)
      = Attn.proj (fun b s k => m ((c : Thread nD τ).loc main_arg0) (ix3 b s k)) (fun d k => m ((c : Thread nD τ).loc main_arg5) (ix2 d k)) (fun d => m ((c : Thread nD τ).loc main_arg6) (ix1 d)) b s d := by
  refine (arr9_proj (fun c b => Gen.V1 m c b) c b s d).trans ?_
  unfold Attn.proj
  refine congrArg₂ (· + ·) (Finset.sum_congr rfl fun i _ => congrArg₂ (· * ·) ?_ ?_) ?_
  · exact congrFun (V1_main_arg0 m c) (ix3 b s i)
  · exact V1_main_v5_apply m c i d
  · exact V1_main_v8_apply m c d

end Host

end Cert.KernelIdeal.Hand

end
-- ==== Proof.Finite.lean ====
/-
  Every input entry is a real number.

  The precondition says of each of the seven input arrays that all of its entries x satisfy |x| < +∞, the seven
  answers joined by "and", and that the joint answer is true.  A conjunction of one-bit words that is 1 has both
  parts 1; an "and" over all entries of an array that is 1 has a 1 at every entry; and the comparison
  max(x, -x) < +∞ being true of an extended real x leaves neither x = +∞ nor x = -∞, so x is the coercion of a real.
-/
import proofs.«134215_j31799937859875_2_alg».proof.Defs
import proofs.«134215_j31799937859875_2_alg».proof.Proof.LibERealFinite
import Idealize.ShloMosaic.Lib.ReduceAll
import Idealize.ShloMosaic.Lib.IdealHost

noncomputable section

namespace Cert.Proof

open Idealize.ShloMosaic Idealize.SL.Sem Idealize.ShloMosaic.LibERealLaws Cert.Pre_finite_inputs

/-- The scalar shape has one index. -/
instance subsingleton_scalar_idx : Subsingleton S_.Idx := ⟨fun a b => funext fun d => d.elim0⟩

/-- One array: if the "and" over all entries of the comparison |x| < +∞ is true, every entry of x is real. -/
theorem real_of_all_abs_lt_inf {s : Shape} {axes : List (Fin s.rank)} (x : FVec Ideal s .f32)
    (hb : S_.BroadcastsInDim s ![]) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) (i : s.Idx) :
    ∃ r : ℝ, x i = (r : EReal) := by
  have h := Host.reduce_andi_all _ _ hr hu j e i
  have hc : broadcastInDim s ![] hb (constant (F := Ideal) S_ .f32 0x7F800000#32) i
      = Ideal.ofBits .f32 0x7F800000#32 := by
    rw [ValueIdx.broadcastInDim_scalar_apply]
    rfl
  have h' : Ideal.cmp .olt (Max.max (x i) (-(x i)))
      (broadcastInDim s ![] hb (constant (F := Ideal) S_ .f32 0x7F800000#32) i) = 1#1 := h
  rw [hc] at h'
  exact isReal_of_cmp_abs_lt_inf h'

/-- Under the precondition every entry of each of the seven input arrays is a real number. -/
theorem args_real [hP : Cert.Pre_finite_inputs.Facts]
    (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have h0 := congrFun (h c) ValueIdx.ix0
  dsimp only [Cert.Pre_finite_inputs.fn, Cert.Pre_finite_inputs.fn_part1] at h0
  obtain ⟨h28, e6⟩ := IntOp.andi_eq_one.1 h0
  obtain ⟨h23, e5⟩ := IntOp.andi_eq_one.1 h28
  obtain ⟨h18, e4⟩ := IntOp.andi_eq_one.1 h23
  obtain ⟨h13, e3⟩ := IntOp.andi_eq_one.1 h18
  obtain ⟨h8, e2⟩ := IntOp.andi_eq_one.1 h13
  obtain ⟨e0, e1⟩ := IntOp.andi_eq_one.1 h8
  exact ⟨real_of_all_abs_lt_inf _ _ _ _ _ e0, real_of_all_abs_lt_inf _ _ _ _ _ e1,
    real_of_all_abs_lt_inf _ _ _ _ _ e2, real_of_all_abs_lt_inf _ _ _ _ _ e3,
    real_of_all_abs_lt_inf _ _ _ _ _ e4, real_of_all_abs_lt_inf _ _ _ _ _ e5,
    real_of_all_abs_lt_inf _ _ _ _ _ e6⟩

end Cert.Proof

end
-- ==== Proof.Bridge.lean ====
/-
  The kernel's result array as one function of the launch arguments. The attention call is entered with the query, key
  and value arrays the projection call left, which are the three linear layers of the input; their entries are real
  because the arguments' are; so the attention call's output array is the whole head, entry by entry.
-/
import proofs.«134215_j31799937859875_2_alg».proof.Defs
import proofs.«134215_j31799937859875_2_alg».proof.Proof.Frames
import proofs.«134215_j31799937859875_2_alg».proof.Proof.AttnValue
import proofs.«134215_j31799937859875_2_alg».proof.Proof.QkvValue
import proofs.«134215_j31799937859875_2_alg».proof.Proof.Finite
import proofs.«134215_j31799937859875_2_alg».proof.Proof.OnlineSoftmax

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-- The head of seven argument arrays, as a whole array. -/
def headOf (a0 : (⟨3, ![8, 2048, 1024]⟩ : Shape).Idx → EReal) (a1 : (⟨2, ![128, 1024]⟩ : Shape).Idx → EReal) (a2 : (⟨1, ![128]⟩ : Shape).Idx → EReal)
    (a3 : (⟨2, ![128, 1024]⟩ : Shape).Idx → EReal) (a4 : (⟨1, ![128]⟩ : Shape).Idx → EReal)
    (a5 : (⟨2, ![128, 1024]⟩ : Shape).Idx → EReal) (a6 : (⟨1, ![128]⟩ : Shape).Idx → EReal) :
    (⟨3, ![8, 2048, 128]⟩ : Shape).Idx → EReal :=
  fun i => Attn.head (fun b s k => a0 (ix3 b s k)) (fun d k => a1 (ix2 d k)) (fun d => a2 (ix1 d)) (fun d k => a3 (ix2 d k))
    (fun d => a4 (ix1 d)) (fun d k => a5 (ix2 d k)) (fun d => a6 (ix1 d)) (i 0) (i 1) (i 2)

variable [hP : Cert.Pre_finite_inputs.Facts]

/-- Under the precondition the attention call's output array is the head of the launch arguments. -/
theorem kernel_value (m : (ℓ : Loc nD τ sig) → Buf (Elt Ideal) ℓ) (hpre : Cert.Pre_KernelIdeal (hPre_finite_inputs := hP) m) (c : Dev nD) :
    (dat1 (E2 m) c).arrAt 3 cfg1.N
      = headOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  have eQ : ∀ (c : Dev nD) b s d, Qf (E2 m) c b s d = Attn.proj (fun b s k => (m ((c.tc : Thread nD τ).loc main_arg0) : S8x2048x1024.Idx → EReal) (ix3 b s k))
      (fun d k => (m ((c.tc : Thread nD τ).loc main_arg1) : S128x1024.Idx → EReal) (ix2 d k)) (fun d => (m ((c.tc : Thread nD τ).loc main_arg2) : S128.Idx → EReal) (ix1 d)) b s d :=
    fun c b s d => (congrFun (B2_arr m c 7) (ix3 b s d)).trans (query_arr m c b s d)
  have eK : ∀ (c : Dev nD) b s d, Kf (E2 m) c b s d = Attn.proj (fun b s k => (m ((c.tc : Thread nD τ).loc main_arg0) : S8x2048x1024.Idx → EReal) (ix3 b s k))
      (fun d k => (m ((c.tc : Thread nD τ).loc main_arg3) : S128x1024.Idx → EReal) (ix2 d k)) (fun d => (m ((c.tc : Thread nD τ).loc main_arg4) : S128.Idx → EReal) (ix1 d)) b s d :=
    fun c b s d => (congrFun (B2_arr m c 8) (ix3 b s d)).trans (key_arr m c b s d)
  have eV : ∀ (c : Dev nD) b s d, Vf (E2 m) c b s d = Attn.proj (fun b s k => (m ((c.tc : Thread nD τ).loc main_arg0) : S8x2048x1024.Idx → EReal) (ix3 b s k))
      (fun d k => (m ((c.tc : Thread nD τ).loc main_arg5) : S128x1024.Idx → EReal) (ix2 d k)) (fun d => (m ((c.tc : Thread nD τ).loc main_arg6) : S128.Idx → EReal) (ix1 d)) b s d :=
    fun c b s d => (congrFun (B2_arr m c 9) (ix3 b s d)).trans (value_arr m c b s d)
  have hreal : ∀ c : Dev nD, _ := fun c => Cert.Proof.args_real m hpre c
  have hQ : ∀ (c : Dev nD) b s d, ∃ x : ℝ, Qf (E2 m) c b s d = (x : EReal) := fun c b s d => by
    obtain ⟨hx, hWq, hbq, hWk, hbk, hWv, hbv⟩ := hreal c
    rw [eQ]; exact Attn.proj_real (fun b s i => hx _) (fun d i => hWq _) (fun d => hbq _) b s d
  have hK : ∀ (c : Dev nD) b s d, ∃ x : ℝ, Kf (E2 m) c b s d = (x : EReal) := fun c b s d => by
    obtain ⟨hx, hWq, hbq, hWk, hbk, hWv, hbv⟩ := hreal c
    rw [eK]; exact Attn.proj_real (fun b s i => hx _) (fun d i => hWk _) (fun d => hbk _) b s d
  have hV : ∀ (c : Dev nD) b s d, ∃ x : ℝ, Vf (E2 m) c b s d = (x : EReal) := fun c b s d => by
    obtain ⟨hx, hWq, hbq, hWk, hbk, hWv, hbv⟩ := hreal c
    rw [eV]; exact Attn.proj_real (fun b s i => hx _) (fun d i => hWv _) (fun d => hbv _) b s d
  rw [attn_array (E2 m) hQ hK hV c]
  funext i
  show Attn.attend (Qf (E2 m) c) (Kf (E2 m) c) (Vf (E2 m) c) (i 0) (i 1) (i 2) = _
  unfold headOf Attn.head
  rw [show Qf (E2 m) c = _ from funext fun b => funext fun s => funext fun d => eQ c b s d,
    show Kf (E2 m) c = _ from funext fun b => funext fun s => funext fun d => eK c b s d,
    show Vf (E2 m) c = _ from funext fun b => funext fun s => funext fun d => eV c b s d]

end Cert.KernelIdeal.Hand

end
-- ==== Proof.RefStages.lean ====
/-
  The reference read one operation at a time, and joined to the specification.

  The reference is three linear layers of one input (a contraction over the 1024 input features plus a bias
  broadcast over batch and position), the scores (a contraction of query and key rows over the 128 features), a
  row softmax (the row's largest score, taken from -∞; the scores shifted by it and exponentiated; their sum,
  taken from 0; the quotient) and the weighted sum of the value rows over the 2048 key positions. Each stage is
  read at one coordinate triple and identified with the specification's function of the same name; the last
  theorem says the whole reference, at any index, is `Attn.head` of the seven arguments at that index's
  coordinates.

  The row maximum is a reduce with a maximum body over the last axis, and such a reduce is the fold of
  `max` from the initial value over that axis's coordinates; the initial value is -∞, the least extended real, so
  the fold is the supremum of the row.
-/
import proofs.«134215_j31799937859875_2_alg».proof.Proof.Gen.ReferenceIdeal.Run
import proofs.«134215_j31799937859875_2_alg».proof.Proof.Gen.ReferenceIdeal.Read
import proofs.«134215_j31799937859875_2_alg».proof.Proof.Spec
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.ReferenceIdeal.Facts₀

/-! ## The constant -∞ -/

/-- The word of -∞ is the least extended real. -/
theorem negInf_eq_bot : Ideal.ofBits .f32 0xFF800000#32 = (⊥ : EReal) := by
  simp [Ideal.ofBits, Ideal.ieee]

/-! ## The three linear layers -/

theorem lidx_0 (b : Fin 8) (s : Fin 2048) (d : Fin 128) (k : Fin 1024) :
    lidx_main_v0 (ix3 b s d) k = ix3 b s k :=
  funext fun a => Fin.ext (by match a with | ⟨0, _⟩ => rfl | ⟨1, _⟩ => rfl | ⟨2, _⟩ => rfl)
theorem ridx_0 (b : Fin 8) (s : Fin 2048) (d : Fin 128) (k : Fin 1024) :
    ridx_main_v0 (ix3 b s d) k = ix2 d k :=
  funext fun a => Fin.ext (by match a with | ⟨0, _⟩ => rfl | ⟨1, _⟩ => rfl)
theorem bias_3 (b : Fin 8) (s : Fin 2048) (d : Fin 128) :
    idx_main_v1 (idx_main_v2 (ix3 b s d)) = ix1 d :=
  funext fun a => Fin.ext (by match a with | ⟨0, _⟩ => rfl)

/-- The query layer at (b, s, d): the contraction of input row (b, s) with weight row d, plus bias d. -/
theorem query_eq (x0 : (⟨S8x2048x1024, .f32⟩ : BufTy).Contents (Elt Ideal)) (x1 : (⟨S128x1024, .f32⟩ : BufTy).Contents (Elt Ideal)) (x2 : (⟨S128, .f32⟩ : BufTy).Contents (Elt Ideal))
    (b : Fin 8) (s : Fin 2048) (d : Fin 128) :
    val_main_v3 (F := Ideal) x0 x1 x2 (ix3 b s d) = Attn.proj (fun b s k => x0 (ix3 b s k)) (fun d k => x1 (ix2 d k)) (fun d => x2 (ix1 d)) b s d := by
  rw [val_main_v3_apply, val_main_v0_apply, val_main_v2_apply, val_main_v1_apply, bias_3]
  simp only [Ideal.addf_def, lidx_0, ridx_0]
  rfl

theorem lidx_4 (b : Fin 8) (s : Fin 2048) (d : Fin 128) (k : Fin 1024) :
    lidx_main_v4 (ix3 b s d) k = ix3 b s k :=
  funext fun a => Fin.ext (by match a with | ⟨0, _⟩ => rfl | ⟨1, _⟩ => rfl | ⟨2, _⟩ => rfl)
theorem ridx_4 (b : Fin 8) (s : Fin 2048) (d : Fin 128) (k : Fin 1024) :
    ridx_main_v4 (ix3 b s d) k = ix2 d k :=
  funext fun a => Fin.ext (by match a with | ⟨0, _⟩ => rfl | ⟨1, _⟩ => rfl)
theorem bias_7 (b : Fin 8) (s : Fin 2048) (d : Fin 128) :
    idx_main_v5 (idx_main_v6 (ix3 b s d)) = ix1 d :=
  funext fun a => Fin.ext (by match a with | ⟨0, _⟩ => rfl)

/-- The key layer at (b, s, d). -/
theorem key_eq (x0 : (⟨S8x2048x1024, .f32⟩ : BufTy).Contents (Elt Ideal)) (x3 : (⟨S128x1024, .f32⟩ : BufTy).Contents (Elt Ideal)) (x4 : (⟨S128, .f32⟩ : BufTy).Contents (Elt Ideal))
    (b : Fin 8) (s : Fin 2048) (d : Fin 128) :
    val_main_v7 (F := Ideal) x0 x3 x4 (ix3 b s d) = Attn.proj (fun b s k => x0 (ix3 b s k)) (fun d k => x3 (ix2 d k)) (fun d => x4 (ix1 d)) b s d := by
  rw [val_main_v7_apply, val_main_v4_apply, val_main_v6_apply, val_main_v5_apply, bias_7]
  simp only [Ideal.addf_def, lidx_4, ridx_4]
  rfl

theorem lidx_8 (b : Fin 8) (s : Fin 2048) (d : Fin 128) (k : Fin 1024) :
    lidx_main_v8 (ix3 b s d) k = ix3 b s k :=
  funext fun a => Fin.ext (by match a with | ⟨0, _⟩ => rfl | ⟨1, _⟩ => rfl | ⟨2, _⟩ => rfl)
theorem ridx_8 (b : Fin 8) (s : Fin 2048) (d : Fin 128) (k : Fin 1024) :
    ridx_main_v8 (ix3 b s d) k = ix2 d k :=
  funext fun a => Fin.ext (by match a with | ⟨0, _⟩ => rfl | ⟨1, _⟩ => rfl)
theorem bias_11 (b : Fin 8) (s : Fin 2048) (d : Fin 128) :
    idx_main_v9 (idx_main_v10 (ix3 b s d)) = ix1 d :=
  funext fun a => Fin.ext (by match a with | ⟨0, _⟩ => rfl)

/-- The value layer at (b, s, d). -/
theorem value_eq (x0 : (⟨S8x2048x1024, .f32⟩ : BufTy).Contents (Elt Ideal)) (x5 : (⟨S128x1024, .f32⟩ : BufTy).Contents (Elt Ideal)) (x6 : (⟨S128, .f32⟩ : BufTy).Contents (Elt Ideal))
    (b : Fin 8) (s : Fin 2048) (d : Fin 128) :
    val_main_v11 (F := Ideal) x0 x5 x6 (ix3 b s d) = Attn.proj (fun b s k => x0 (ix3 b s k)) (fun d k => x5 (ix2 d k)) (fun d => x6 (ix1 d)) b s d := by
  rw [val_main_v11_apply, val_main_v8_apply, val_main_v10_apply, val_main_v9_apply, bias_11]
  simp only [Ideal.addf_def, lidx_8, ridx_8]
  rfl

/-! ## The scores -/

theorem lidx_12 (b : Fin 8) (s t : Fin 2048) (k : Fin 128) : lidx_main_v12 (ix3 b s t) k = ix3 b s k :=
  funext fun a => Fin.ext (by match a with | ⟨0, _⟩ => rfl | ⟨1, _⟩ => rfl | ⟨2, _⟩ => rfl)
theorem ridx_12 (b : Fin 8) (s t : Fin 2048) (k : Fin 128) : ridx_main_v12 (ix3 b s t) k = ix3 b t k :=
  funext fun a => Fin.ext (by match a with | ⟨0, _⟩ => rfl | ⟨1, _⟩ => rfl | ⟨2, _⟩ => rfl)

/-- The score of query row s against key row t in batch b. -/
theorem score_eq (x0 : (⟨S8x2048x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (b : Fin 8) (s t : Fin 2048) :
    val_main_v12 (F := Ideal) x0 x1 x2 x3 x4 (ix3 b s t) = Attn.score (Attn.proj (fun b s k => x0 (ix3 b s k)) (fun d k => x1 (ix2 d k)) (fun d => x2 (ix1 d))) (Attn.proj (fun b s k => x0 (ix3 b s k)) (fun d k => x3 (ix2 d k)) (fun d => x4 (ix1 d))) b s t := by
  rw [val_main_v12_apply]
  unfold Attn.score
  refine Finset.sum_congr rfl fun k _ => ?_
  rw [lidx_12, ridx_12, query_eq, key_eq]

/-! ## The row maximum -/

/-- The reduced index (b, s) with key position k put back on the last axis is (b, s, k). -/
theorem lift_row (h : S8x2048x2048.Reduces [2] S8x2048) (b : Fin 8) (s : Fin 2048) (k : Fin (S8x2048x2048.size 2)) :
    h.lift (ix2 b s) k = ix3 b s (⟨k.val, k.isLt⟩ : Fin 2048) := by
  funext c; apply Fin.ext
  match c with | ⟨0, _⟩ => rfl | ⟨1, _⟩ => rfl | ⟨2, _⟩ => rfl

/-- The fold of `max` from the least element is the supremum. -/
theorem fold_max_bot {n : Nat} (f : Fin n → EReal) :
    (Finset.univ : Finset (Fin n)).fold max (⊥ : EReal) f = Finset.univ.sup f := rfl

/-- The largest score of row (b, s): the reduce from -∞ with a maximum body. -/
theorem rowMax_eq (x0 : (⟨S8x2048x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (b : Fin 8) (s : Fin 2048) :
    val_main_v13 (F := Ideal) x0 x1 x2 x3 x4 (ix2 b s) = Attn.rowMax (Attn.score (Attn.proj (fun b s k => x0 (ix3 b s k)) (fun d k => x1 (ix2 d k)) (fun d => x2 (ix1 d))) (Attn.proj (fun b s k => x0 (ix3 b s k)) (fun d k => x3 (ix2 d k)) (fun d => x4 (ix1 d))) b s) := by
  have h : S8x2048x2048.Reduces [2] S8x2048 := by decide
  unfold val_main_v13
  rw [Host.reduce_eq_fold_single FloatOps.maximumf _ _ reducesTo_S8x2048x2048_S8x2048_d2 h h_S_]
  have hf : (val_main_v12 (F := Ideal) x0 x1 x2 x3 x4 ∘ h.lift (ix2 b s))
      = fun k : Fin 2048 => Attn.score (Attn.proj (fun b s k => x0 (ix3 b s k)) (fun d k => x1 (ix2 d k)) (fun d => x2 (ix1 d))) (Attn.proj (fun b s k => x0 (ix3 b s k)) (fun d k => x3 (ix2 d k)) (fun d => x4 (ix1 d))) b s k :=
    funext fun k => by
      show val_main_v12 (F := Ideal) x0 x1 x2 x3 x4 (h.lift (ix2 b s) k) = _
      rw [lift_row h b s k, score_eq]
      rfl
  have hi : val_main_cst (F := Ideal) (Shape.Idx.first h_S_) = (⊥ : EReal) := negInf_eq_bot
  rw [hi]
  unfold Attn.rowMax
  rw [← fold_max_bot]
  exact congrArg (fun f => (Finset.univ : Finset (Fin 2048)).fold max (⊥ : EReal) f) hf

/-- The maximum with a row of -∞ changes nothing. -/
theorem rowMax'_eq (x0 : (⟨S8x2048x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (b : Fin 8) (s : Fin 2048) :
    val_main_v15 (F := Ideal) x0 x1 x2 x3 x4 (ix2 b s) = Attn.rowMax (Attn.score (Attn.proj (fun b s k => x0 (ix3 b s k)) (fun d k => x1 (ix2 d k)) (fun d => x2 (ix1 d))) (Attn.proj (fun b s k => x0 (ix3 b s k)) (fun d k => x3 (ix2 d k)) (fun d => x4 (ix1 d))) b s) := by
  rw [val_main_v15_apply, val_main_v14_apply, val_main_cst_0_apply, rowMax_eq]
  simp only [Ideal.maximumf_def, Ideal.ofBits_def, negInf_eq_bot]
  exact max_bot_left _

/-! ## The shifted exponentials, their sum, the weights -/

theorem idx_16_17 (b : Fin 8) (s t : Fin 2048) : idx_main_v16 (idx_main_v17 (ix3 b s t)) = ix2 b s :=
  funext fun a => Fin.ext (by match a with | ⟨0, _⟩ => rfl | ⟨1, _⟩ => rfl)
theorem idx_21_22 (b : Fin 8) (s t : Fin 2048) : idx_main_v21 (idx_main_v22 (ix3 b s t)) = ix2 b s :=
  funext fun a => Fin.ext (by match a with | ⟨0, _⟩ => rfl | ⟨1, _⟩ => rfl)
theorem idx_20 (b : Fin 8) (s : Fin 2048) (k : Fin 2048) : idx_main_v20 (ix2 b s) k = ix3 b s k :=
  funext fun a => Fin.ext (by match a with | ⟨0, _⟩ => rfl | ⟨1, _⟩ => rfl | ⟨2, _⟩ => rfl)

/-- The exponential of a score shifted by its row's largest. -/
theorem expShift_eq (x0 : (⟨S8x2048x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (b : Fin 8) (s t : Fin 2048) :
    val_main_v19 (F := Ideal) x0 x1 x2 x3 x4 (ix3 b s t)
      = Ideal.exp (Attn.score (Attn.proj (fun b s k => x0 (ix3 b s k)) (fun d k => x1 (ix2 d k)) (fun d => x2 (ix1 d))) (Attn.proj (fun b s k => x0 (ix3 b s k)) (fun d k => x3 (ix2 d k)) (fun d => x4 (ix1 d))) b s t - Attn.rowMax (Attn.score (Attn.proj (fun b s k => x0 (ix3 b s k)) (fun d k => x1 (ix2 d k)) (fun d => x2 (ix1 d))) (Attn.proj (fun b s k => x0 (ix3 b s k)) (fun d k => x3 (ix2 d k)) (fun d => x4 (ix1 d))) b s)) := by
  rw [val_main_v19_apply, val_main_v18_apply, val_main_v17_apply, val_main_v16_apply, idx_16_17, rowMax'_eq, score_eq]
  simp only [Ideal.hostUnary_exp_def, Ideal.subf_def]

/-- The normalizer of row (b, s): the sum from 0 of the shifted exponentials. -/
theorem rowDen_eq (x0 : (⟨S8x2048x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (b : Fin 8) (s : Fin 2048) :
    val_main_v20 (F := Ideal) x0 x1 x2 x3 x4 (ix2 b s) = Attn.rowDen (Attn.score (Attn.proj (fun b s k => x0 (ix3 b s k)) (fun d k => x1 (ix2 d k)) (fun d => x2 (ix1 d))) (Attn.proj (fun b s k => x0 (ix3 b s k)) (fun d k => x3 (ix2 d k)) (fun d => x4 (ix1 d))) b s) := by
  rw [val_main_v20_apply, val_main_cst_1_apply]
  simp only [Ideal.ofBits_def, Ideal.ofBits_zero_f32, zero_add]
  unfold Attn.rowDen
  refine Finset.sum_congr rfl fun k _ => ?_
  rw [idx_20, expShift_eq]

/-- One softmax weight. -/
theorem weight_eq (x0 : (⟨S8x2048x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (b : Fin 8) (s t : Fin 2048) :
    val_main_v23 (F := Ideal) x0 x1 x2 x3 x4 (ix3 b s t) = Attn.weight (Attn.score (Attn.proj (fun b s k => x0 (ix3 b s k)) (fun d k => x1 (ix2 d k)) (fun d => x2 (ix1 d))) (Attn.proj (fun b s k => x0 (ix3 b s k)) (fun d k => x3 (ix2 d k)) (fun d => x4 (ix1 d))) b s) t := by
  rw [val_main_v23_apply, val_main_v22_apply, val_main_v21_apply, idx_21_22, rowDen_eq, expShift_eq]
  simp only [Ideal.hostDivf_def]
  rfl

/-! ## The weighted sum of value rows -/

theorem lidx_24 (b : Fin 8) (s : Fin 2048) (d : Fin 128) (k : Fin 2048) : lidx_main_v24 (ix3 b s d) k = ix3 b s k :=
  funext fun a => Fin.ext (by match a with | ⟨0, _⟩ => rfl | ⟨1, _⟩ => rfl | ⟨2, _⟩ => rfl)
theorem ridx_24 (b : Fin 8) (s : Fin 2048) (d : Fin 128) (k : Fin 2048) : ridx_main_v24 (ix3 b s d) k = ix3 b k d :=
  funext fun a => Fin.ext (by match a with | ⟨0, _⟩ => rfl | ⟨1, _⟩ => rfl | ⟨2, _⟩ => rfl)

/-- The reference at (b, s, d) is the specification's head there. -/
theorem head_eq (x0 : (⟨S8x2048x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (x5 : (⟨S128x1024, .f32⟩ : BufTy).Contents (Elt Ideal)) (x6 : (⟨S128, .f32⟩ : BufTy).Contents (Elt Ideal)) (b : Fin 8) (s : Fin 2048) (d : Fin 128) :
    val_main_v24 (F := Ideal) x0 x1 x2 x3 x4 x5 x6 (ix3 b s d)
      = Attn.head (fun b s k => x0 (ix3 b s k)) (fun d k => x1 (ix2 d k)) (fun d => x2 (ix1 d)) (fun d k => x3 (ix2 d k)) (fun d => x4 (ix1 d)) (fun d k => x5 (ix2 d k)) (fun d => x6 (ix1 d)) b s d := by
  rw [val_main_v24_apply]
  unfold Attn.head Attn.attend
  refine Finset.sum_congr rfl fun k _ => ?_
  rw [lidx_24, ridx_24, weight_eq, value_eq]

/-- The reference, at any index, is the specification's head at that index's coordinates. -/
theorem ref_is_head (x0 : (⟨S8x2048x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (x5 : (⟨S128x1024, .f32⟩ : BufTy).Contents (Elt Ideal)) (x6 : (⟨S128, .f32⟩ : BufTy).Contents (Elt Ideal)) (i : S8x2048x128.Idx) :
    val_main_v24 (F := Ideal) x0 x1 x2 x3 x4 x5 x6 i
      = Attn.head (fun b s k => x0 (ix3 b s k)) (fun d k => x1 (ix2 d k)) (fun d => x2 (ix1 d)) (fun d k => x3 (ix2 d k)) (fun d => x4 (ix1 d)) (fun d k => x5 (ix2 d k)) (fun d => x6 (ix1 d)) (i 0) (i 1) (i 2) :=
  (congrArg (val_main_v24 (F := Ideal) x0 x1 x2 x3 x4 x5 x6) (eq_ix3 i)).trans
    (head_eq x0 x1 x2 x3 x4 x5 x6 (i 0) (i 1) (i 2))

end Cert.ReferenceIdeal.RefValue

end
-- ==== Proof.lean ====
/- The proof of `Cert.Claim`: three linear layers and an unscaled softmax attention head computed by two kernels — the
   projections block of rows by block of rows, the attention by key tiles with a running maximum, a running sum and a
   running accumulator — against the same head written with whole-array operations.
   Frames: each kernel program is run as a stretch of host operations and two kernel calls over buffer contents folded
   from the launch memory (Proof/Frames.lean at the ideal instance, Proof/FramesK.lean at the word-level one); the
   reference's frame is its run with the result dropped. The idealization rewrote nothing, so it is preserved trivially.
   Values: the kernel's result array is the head of the arguments entry by entry (Proof/Bridge.lean: the projection call
   leaves the three linear layers, Proof/QkvValue.lean; the attention call leaves the softmax-weighted sums,
   Proof/AttnValue.lean over the two-tile recurrence of Proof/FlashAttend.lean, which needs the entries real, as the
   precondition says, Proof/Finite.lean); the reference's result is the same head (Proof/RefStages.lean). -/
import proofs.«134215_j31799937859875_2_alg».proof.Defs
import proofs.«134215_j31799937859875_2_alg».proof.Proof.Gen.Kernel
import proofs.«134215_j31799937859875_2_alg».proof.Proof.Gen.KernelIdeal
import proofs.«134215_j31799937859875_2_alg».proof.Proof.Gen.ReferenceIdeal
import proofs.«134215_j31799937859875_2_alg».proof.Proof.Gen.Pre_finite_inputs
import proofs.«134215_j31799937859875_2_alg».proof.Proof.Gen.ReferenceIdeal.Run
import proofs.«134215_j31799937859875_2_alg».proof.Proof.Gen.ReferenceIdeal.Read
import proofs.«134215_j31799937859875_2_alg».proof.Proof.FramesK
import proofs.«134215_j31799937859875_2_alg».proof.Proof.Frames
import proofs.«134215_j31799937859875_2_alg».proof.Proof.Bridge
import proofs.«134215_j31799937859875_2_alg».proof.Proof.RefStages
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs end with the head of the arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.headOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.kernel_value (hP := Cert.Pre_finite_inputs.Gen.facts) m hpre c), (h c).2⟩)
      (Cert.KernelIdeal.Hand.result_v10 m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, (hagree c).1, (hagree c).2.1, (hagree c).2.2.1, (hagree c).2.2.2.1,
      (hagree c).2.2.2.2.1, (hagree c).2.2.2.2.2.1, (hagree c).2.2.2.2.2.2]
    funext i
    exact Cert.ReferenceIdeal.RefValue.ref_is_head _ _ _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
